-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x640000 : Shape := ⟨2, ![2, 640000]⟩
abbrev S640000x128 : Shape := ⟨2, ![640000, 128]⟩
abbrev S100x128 : Shape := ⟨2, ![100, 128]⟩
abbrev S3x128x128 : Shape := ⟨3, ![3, 128, 128]⟩
abbrev S3x128 : Shape := ⟨2, ![3, 128]⟩
abbrev S_ : Shape := ⟨0, ![]⟩

class Facts : Prop where
  bcast_S_S640000x128 : S_.BroadcastsInDim S640000x128 (![] : Fin 0 → Fin S640000x128.rank)
  reducesTo_S640000x128_S_d0_1 : S640000x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128x128 .f32) (main_arg7 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : IVec S50000 32) (main_arg1 : IVec S2x640000 32) (main_arg2 : FVec F S640000x128 .f32) (main_arg3 : FVec F S100x128 .f32) (main_arg4 : FVec F S3x128x128 .f32) (main_arg5 : FVec F S3x128 .f32) (main_arg6 : FVec F S3x128x128 .f32) (main_arg7 : FVec F S3x128 .f32) : IVec S_ 1 :=
  let main_v0 : FVec F S640000x128 .f32 := Host.absf main_arg2
  let main_cst : FVec F S_ .f32 := constant S_ .f32 0x7F800000#32
  let main_v1 : FVec F S640000x128 .f32 := broadcastInDim S640000x128 ![] bcast_S_S640000x128 main_cst
  let main_v2 : IVec S640000x128 1 := cmpf .olt main_v0 main_v1
  let main_c : IVec S_ 1 := constantI S_ 1 1#1
  let main_v3 : IVec S_ 1 := (fun x v => Host.reduce IntOp.andi x v reducesTo_S640000x128_S_d0_1 h_S_) main_v2 main_c
  let main_v4 : FVec F S100x128 .f32 := Host.absf main_arg3
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_v13 main_v16
-- ==== Kernel.lean ====
abbrev S50000 : Shape := ⟨1, ![50000]⟩
abbrev S2x640000 : Shape := ⟨2, ![2, 640000]⟩
abbrev S640000x128 : Shape := ⟨2, ![640000, 128]⟩
abbrev S100x128 : Shape := ⟨2, ![100, 128]⟩
abbrev S3x128x128 : Shape := ⟨3, ![3, 128, 128]⟩
abbrev S3x128 : Shape := ⟨2, ![3, 128]⟩
abbrev S1x640000 : Shape := ⟨2, ![1, 640000]⟩
abbrev S640000 : Shape := ⟨1, ![640000]⟩
abbrev S_ : Shape := ⟨0, ![]⟩
abbrev S50000x1 : Shape := ⟨2, ![50000, 1]⟩
abbrev S50000x128 : Shape := ⟨2, ![50000, 128]⟩
abbrev S640000x1 : Shape := ⟨2, ![640000, 1]⟩
abbrev S8000x128 : Shape := ⟨2, ![8000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 96
  | .vmem => 48
  | .smem => 0
  | _ => 0

abbrev bufTy : (tb : Table) → Fin (tcTables nBuf tb) → BufTy
  | .hbm, ⟨0, _⟩ => ⟨S50000, .i32⟩
  | .hbm, ⟨1, _⟩ => ⟨S2x640000, .i32⟩
  | .hbm, ⟨2, _⟩ => ⟨S640000x128, .f32⟩
  | .hbm, ⟨3, _⟩ => ⟨S100x128, .f32⟩
  | .hbm, ⟨4, _⟩ => ⟨S3x128x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S50000, .i32⟩
  | .hbm, ⟨14, _⟩ => ⟨S50000, .i1⟩
  | .hbm, ⟨15, _⟩ => ⟨S_, .i32⟩
  | .hbm, ⟨16, _⟩ => ⟨S50000, .i32⟩
  | .hbm, ⟨17, _⟩ => ⟨S50000, .i32⟩
  | .hbm, ⟨18, _⟩ => ⟨S50000, .i32⟩
  | .hbm, ⟨19, _⟩ => ⟨S50000x1, .i32⟩
  | .hbm, ⟨20, _⟩ => ⟨S50000x128, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000x128, .f32⟩
  | .hbm, ⟨30, _⟩ => ⟨S640000x128, .f32⟩
  | .hbm, ⟨31, _⟩ => ⟨S_, .f32⟩
  | .hbm, ⟨32, _⟩ => ⟨S50000x128, .f32⟩
  | .hbm, ⟨33, _⟩ => ⟨S640000x1, .i32⟩
  | .hbm, ⟨34, _⟩ => ⟨S50000x128, .f32⟩
  | .hbm, ⟨35, _⟩ => ⟨S1x128x128, .f32⟩
  | .hbm, ⟨36, _⟩ => ⟨S128x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S1x128x128, .f32⟩
  | .hbm, ⟨41, _⟩ => ⟨S128x128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S640000x128, .f32⟩
  | .hbm, ⟨56, _⟩ => ⟨S_, .f32⟩
  | .hbm, ⟨57, _⟩ => ⟨S50000x128, .f32⟩
  | .hbm, ⟨58, _⟩ => ⟨S640000x1, .i32⟩
  | .hbm, ⟨59, _⟩ => ⟨S50000x128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S1x128x128, .f32⟩
  | .hbm, ⟨66, _⟩ => ⟨S128x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S_, .i32⟩
  | .hbm, ⟨72, _⟩ => ⟨S640000, .i32⟩
  | .hbm, ⟨73, _⟩ => ⟨S640000, .i1⟩
  | .hbm, ⟨74, _⟩ => ⟨S_, .i32⟩
  | .hbm, ⟨75, _⟩ => ⟨S640000, .i32⟩
  | .hbm, ⟨76, _⟩ => ⟨S640000, .i32⟩
  | .hbm, ⟨77, _⟩ => ⟨S640000, .i32⟩
  | .hbm, ⟨78, _⟩ => ⟨S640000x1, .i32⟩
  | .hbm, ⟨79, _⟩ => ⟨S640000x128, .f32⟩
  | .hbm, ⟨80, _⟩ => ⟨S640000x128, .f32⟩
  | .hbm, ⟨81, _⟩ => ⟨S_, .f32⟩
  | .hbm, ⟨82, _⟩ => ⟨S50000x128, .f32⟩
  | .hbm, ⟨83, _⟩ => ⟨S640000x1, .i32⟩
  | .hbm, ⟨84, _⟩ => ⟨S50000x128, .f32⟩
  | .hbm, ⟨85, _⟩ => ⟨S1x128x128, .f32⟩
  | .hbm, ⟨86, _⟩ => ⟨S128x128, .f32⟩
  | .hbm, ⟨87, _⟩ => ⟨S1x128, .f32⟩
  | .hbm, ⟨88, _⟩ => ⟨S128, .f32⟩
  | .hbm, ⟨89, _⟩ => ⟨S1x128, .f32⟩
  | .hbm, ⟨90, _⟩ => ⟨S1x128x128, .f32⟩
  | .hbm, ⟨91, _⟩ => ⟨S128x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S8000x128, .f32⟩
  | .local _ .vmem, ⟨20, _⟩ => ⟨S8000x128, .f32⟩
  | .local _ .vmem, ⟨21, _⟩ => ⟨S8000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S8000x128, .f32⟩
  | .local _ .vmem, ⟨37, _⟩ => ⟨S8000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_6 : Ref sig .tc := ⟨.hbm, 71, rfl⟩
abbrev main_v55 : Ref sig .tc := ⟨.hbm, 72, rfl⟩
abbrev main_v56 : Ref sig .tc := ⟨.hbm, 73, rfl⟩
abbrev main_c_7 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S50000 : S_.BroadcastsInDim S50000 (![] : Fin 0 → Fin S50000.rank)
  bcast_S50000_S50000x1_0 : S50000.BroadcastsInDim S50000x1 (![0] : Fin 1 → Fin S50000x1.rank)
  bcast_S_S640000 : S_.BroadcastsInDim S640000 (![] : Fin 0 → Fin S640000.rank)
  bcast_S640000_S640000x1_0 : S640000.BroadcastsInDim S640000x1 (![0] : Fin 1 → Fin S640000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100x128_S50000x1_S50000x128_1_0_n_n_0_1_1128_wf : GatherDims.WF S100x128 S50000x1 S50000x128 [1] [0] [] [0] [] 1 ![1, 128]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S640000x128.size a
  hwx0_0 : ∀ i : grid0.Coords, EltTy.bits .f32 = 32 ∨ (Rect.block (s := S640000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S640000x128.size a
  hwx0_1 : ∀ i : grid0.Coords, EltTy.bits .f32 = 32 ∨ (Rect.block (s := S640000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S640000x128.size a
  hwx0_2 : ∀ i : grid0.Coords, EltTy.bits .f32 = 32 ∨ (Rect.block (s := S640000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S640000x128.size a
  hwx2_1 : ∀ i : grid2.Coords, EltTy.bits .f32 = 32 ∨ (Rect.block (s := S640000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S640000x128.size a
  hwx2_2 : ∀ i : grid2.Coords, EltTy.bits .f32 = 32 ∨ (Rect.block (s := S640000x128) S8000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S640000x128.size a
  hwx4_0 : ∀ i : grid4.Coords, EltTy.bits .f32 = 32 ∨ (Rect.block (s := S640000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S640000x128.size a
  hwx4_1 : ∀ i : grid4.Coords, EltTy.bits .f32 = 32 ∨ (Rect.block (s := S640000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S640000x128.size a
  hwx4_2 : ∀ i : grid4.Coords, EltTy.bits .f32 = 32 ∨ (Rect.block (s := S640000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v17) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S8000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v54) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v61) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v65) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v72) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v76) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000 : Shape := ⟨1, ![50000]⟩
abbrev S2x640000 : Shape := ⟨2, ![2, 640000]⟩
abbrev S640000x128 : Shape := ⟨2, ![640000, 128]⟩
abbrev S100x128 : Shape := ⟨2, ![100, 128]⟩
abbrev S3x128x128 : Shape := ⟨3, ![3, 128, 128]⟩
abbrev S3x128 : Shape := ⟨2, ![3, 128]⟩
abbrev S_ : Shape := ⟨0, ![]⟩
abbrev S50000x1 : Shape := ⟨2, ![50000, 1]⟩
abbrev S50000x128 : Shape := ⟨2, ![50000, 128]⟩
abbrev S1x640000 : Shape := ⟨2, ![1, 640000]⟩
abbrev S640000 : Shape := ⟨1, ![640000]⟩
abbrev S640000x1 : Shape := ⟨2, ![640000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 141
  | .vmem => 0
  | .smem => 0
  | _ => 0

abbrev hbmTy0_0 (i : Nat) : BufTy := match i % 128 with
  | 0 => ⟨S50000, .i32⟩
  | 1 => ⟨S2x640000, .i32⟩
  | 2 => ⟨S640000x128, .f32⟩
  | 3 => ⟨S100x128, .f32⟩
  | 4 => ⟨S3x128x128, .f32⟩
  | 5 => ⟨S3x128, .f32⟩
  | 6 => ⟨S3x128x128, .f32⟩
  | 7 => ⟨S3x128, .f32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000x128, .f32⟩
  | 17 => ⟨S1x640000, .i32⟩
  | 18 => ⟨S640000, .i32⟩
  | 19 => ⟨S1x640000, .i32⟩
  | 20 => ⟨S640000, .i32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S640000x128, .f32⟩
  | 31 => ⟨S_, .f32⟩
  | 32 => ⟨S640000x128, .f32⟩
  | 33 => ⟨S640000x128, .f32⟩
  | 34 => ⟨S_, .f32⟩
  | 35 => ⟨S50000x128, .f32⟩
  | 36 => ⟨S640000x1, .i32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S50000x128, .f32⟩
  | 49 => ⟨S50000x128, .f32⟩
  | 50 => ⟨S1x128x128, .f32⟩
  | 51 => ⟨S128x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x128, .f32⟩
  | 62 => ⟨S_, .i32⟩
  | 63 => ⟨S640000, .i32⟩
  | 64 => ⟨S640000, .i1⟩
  | 65 => ⟨S_, .i32⟩
  | 66 => ⟨S640000, .i32⟩
  | 67 => ⟨S640000, .i32⟩
  | 68 => ⟨S640000, .i32⟩
  | 69 => ⟨S640000x1, .i32⟩
  | 70 => ⟨S640000x128, .f32⟩
  | 71 => ⟨S640000x128, .f32⟩
  | 72 => ⟨S_, .f32⟩
  | 73 => ⟨S640000x128, .f32⟩
  | 74 => ⟨S640000x128, .f32⟩
  | 75 => ⟨S_, .f32⟩
  | 76 => ⟨S50000x128, .f32⟩
  | 77 => ⟨S640000x1, .i32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S1x128x128, .f32⟩
  | 92 => ⟨S128x128, .f32⟩
  | 93 => ⟨S50000x128, .f32⟩
  | 94 => ⟨S1x128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S50000x128, .f32⟩
  | 103 => ⟨S_, .i32⟩
  | 104 => ⟨S640000, .i32⟩
  | 105 => ⟨S640000, .i1⟩
  | 106 => ⟨S_, .i32⟩
  | 107 => ⟨S640000, .i32⟩
  | 108 => ⟨S640000, .i32⟩
  | 109 => ⟨S640000, .i32⟩
  | 110 => ⟨S640000x1, .i32⟩
  | 111 => ⟨S640000x128, .f32⟩
  | 112 => ⟨S640000x128, .f32⟩
  | 113 => ⟨S_, .f32⟩
  | 114 => ⟨S640000x128, .f32⟩
  | 115 => ⟨S640000x128, .f32⟩
  | 116 => ⟨S_, .f32⟩
  | 117 => ⟨S50000x128, .f32⟩
  | 118 => ⟨S640000x1, .i32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000, .i32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S1x128, .f32⟩
  | 8 => ⟨S128, .f32⟩
  | 9 => ⟨S1x128, .f32⟩
  | 10 => ⟨S50000x128, .f32⟩
  | 11 => ⟨S50000x128, .f32⟩
  | 12 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_cst : Ref sig .tc := ⟨.hbm, 47, rfl⟩
abbrev main_call1_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call2_cst : Ref sig .tc := ⟨.hbm, 58, rfl⟩
abbrev main_call2_v0 : Ref sig .tc := ⟨.hbm, 59, rfl⟩
abbrev main_v41 : Ref sig .tc := ⟨.hbm, 60, rfl⟩
abbrev main_v42 : Ref sig .tc := ⟨.hbm, 61, rfl⟩
abbrev main_c_3 : Ref sig .tc := ⟨.hbm, 62, rfl⟩
abbrev main_v43 : Ref sig .tc := ⟨.hbm, 63, rfl⟩
abbrev main_v44 : Ref sig .tc := ⟨.hbm, 64, rfl⟩
abbrev main_c_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call3_cst : Ref sig .tc := ⟨.hbm, 72, rfl⟩
abbrev main_call3_v0 : Ref sig .tc := ⟨.hbm, 73, rfl⟩
abbrev main_v51 : Ref sig .tc := ⟨.hbm, 74, rfl⟩
abbrev main_cst_5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call4_cst : Ref sig .tc := ⟨.hbm, 88, rfl⟩
abbrev main_call4_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call5_cst : Ref sig .tc := ⟨.hbm, 99, rfl⟩
abbrev main_call5_v0 : Ref sig .tc := ⟨.hbm, 100, rfl⟩
abbrev main_v73 : Ref sig .tc := ⟨.hbm, 101, rfl⟩
abbrev main_v74 : Ref sig .tc := ⟨.hbm, 102, rfl⟩
abbrev main_c_6 : Ref sig .tc := ⟨.hbm, 103, rfl⟩
abbrev main_v75 : Ref sig .tc := ⟨.hbm, 104, rfl⟩
abbrev main_v76 : Ref sig .tc := ⟨.hbm, 105, rfl⟩
abbrev main_c_7 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_call6_cst : Ref sig .tc := ⟨.hbm, 113, rfl⟩
abbrev main_call6_v0 : Ref sig .tc := ⟨.hbm, 114, rfl⟩
abbrev main_v83 : Ref sig .tc := ⟨.hbm, 115, rfl⟩
abbrev main_cst_8 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_call7_cst : Ref sig .tc := ⟨.hbm, 129, rfl⟩
abbrev main_call7_v0 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100x128_S50000x1_S50000x128_1_0_n_n_0_1_1128_wf : GatherDims.WF S100x128 S50000x1 S50000x128 [1] [0] [] [0] [] 1 ![1, 128]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S100x128_S50000x1_S50000x128_1_0_n_n_0_1_1128 : GatherDims S100x128 S50000x1 S50000x128 where
  offsetDims := [1]
  collapsedSliceDims := [0]
  operandBatchingDims := []
  startIndicesBatchingDims := []
  startIndexMap := [0]
  indexVectorDim := 1
  sliceSizes := ![1, 128]
  wf := gather_S100x128_S50000x1_S50000x128_1_0_n_n_0_1_1128_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The idealized kernel's run with the result array named.

  The generated frame follows the program segment by segment — six stretches of host operations and
  six tiled regions — and keeps, at each boundary, the contents of every buffer as a fold from the
  launch memory.  The frame only reads the eight argument arrays off the last boundary; reading the
  result buffer off the same boundary as well gives the run with the result at the fold's value
  there.
-/
import proofs.«126713_j16776142258451_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, nothing faulting, with the result buffer at the last boundary's
    contents and the arguments as launched. -/
theorem run : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Named

end
-- ==== Proof.Spec.lean ====
/-
  The function both programs compute, stated once.

  A node-feature table `x : [50000, 128]` goes through three message-passing layers.  One layer, from
  the edge list (source row `s`, destination row `d`, both of length 640000) and the edge features
  `e : [640000, 128]`:
    * every edge reads its source node's row (a row gather, negative indices wrapped once),
    * the message of an edge is `max (x[s] + e, 0)`,
    * the messages of the edges that end in a node are summed into that node's row (a scatter-add
      into zeros),
    * each node's row `a + x` then goes through a two-layer perceptron, row by row:
        h = max ((a + x) · W₁ + b₁, 0),   y = h · W₂ + b₂,
      `y` is clamped at zero in the first two layers, and the old row is added back.
  The gather, the scatter-add and the slicing of the stacked parameters are the same host
  operations in both programs, so they are kept as those operations; the perceptron is written
  index by index over the extended reals, as plain finite sums, because one program computes it
  tile by tile with a matrix unit and the other with whole-array contractions.
-/
import proofs.«126713_j16776142258451_1_alg».proof.ReferenceIdeal
import Idealize.ShloMosaic.PureOps.Ideal
import Idealize.ShloMosaic.Lib.ValueIdx

noncomputable section

namespace Cert.Gin

open Idealize.ShloMosaic Cert.ReferenceIdeal
open Cert.ReferenceIdeal.Facts₀ Cert.ReferenceIdeal.Facts

variable [Cert.ReferenceIdeal.Facts]

/-! ## One row of the perceptron, over the extended reals -/

/-- The hidden unit `k` of a row: `max (∑ l, (a l + x l) · W₁[l, k] + b₁ k, 0)`. -/
def hidden (ar xr : Fin 128 → EReal) (w1 : S128x128.Idx → EReal) (b1 : Fin 128 → EReal) (k : Fin 128) : EReal :=
  max ((∑ l : Fin 128, (ar l + xr l) * w1 (ValueIdx.ix2 l k)) + b1 k) 0

/-- The output unit `j` of a row before the clamp and the residual: `∑ k, h k · W₂[k, j] + b₂ j`. -/
def preact (ar xr : Fin 128 → EReal) (w1 : S128x128.Idx → EReal) (b1 : Fin 128 → EReal)
    (w2 : S128x128.Idx → EReal) (b2 : Fin 128 → EReal) (j : Fin 128) : EReal :=
  (∑ k : Fin 128, hidden ar xr w1 b1 k * w2 (ValueIdx.ix2 k j)) + b2 j

/-- The new row: the output unit, clamped at zero when `clamp`, plus the old row. -/
def newRow (clamp : Bool) (ar xr : Fin 128 → EReal) (w1 : S128x128.Idx → EReal) (b1 : Fin 128 → EReal)
    (w2 : S128x128.Idx → EReal) (b2 : Fin 128 → EReal) (j : Fin 128) : EReal :=
  (if clamp then max (preact ar xr w1 b1 w2 b2 j) 0 else preact ar xr w1 b1 w2 b2 j) + xr j

/-- Row `p 0` of a table of `N` rows of 128, as a function of the column. -/
abbrev rowOf {N : Nat} (a : (⟨2, ![N, 128]⟩ : Shape).Idx → EReal) (p : (⟨2, ![N, 128]⟩ : Shape).Idx) : Fin 128 → EReal :=
  fun l => a (ValueIdx.ix2 (⟨(p 0).val, (p 0).isLt⟩ : Fin N) l)

/-- A [1, 128] row read as a vector of length 128. -/
def rowVec (r : S1x128.Idx → EReal) : S128.Idx → EReal :=
  fun q => r (ValueIdx.ix2 (0 : Fin 1) (⟨(q 0).val, (q 0).isLt⟩ : Fin 128))

/-- The perceptron on a table of `N` rows (a tile or the whole table): entry `(r, j)` depends on row `r`
    of `a` and `x` only.  The biases are vectors of length 128. -/
def mlpRows {N : Nat} (clamp : Bool) (a x : (⟨2, ![N, 128]⟩ : Shape).Idx → EReal) (w1 : S128x128.Idx → EReal) (b1 : S128.Idx → EReal)
    (w2 : S128x128.Idx → EReal) (b2 : S128.Idx → EReal) : (⟨2, ![N, 128]⟩ : Shape).Idx → EReal :=
  fun p => newRow clamp (rowOf a p) (rowOf x p) w1 (fun k => b1 (ValueIdx.ix1 k)) w2 (fun k => b2 (ValueIdx.ix1 k))
    (⟨(p 1).val, (p 1).isLt⟩ : Fin 128)

/-! ## The host stages both programs share, as their operations -/

section Stages
variable {F : FTy → Type} [FloatOps F]

/-- Row `r` (0: sources, 1: destinations) of the edge list as a vector. -/
def srcRow (ei : (⟨S2x640000, .i32⟩ : BufTy).Contents (Elt F)) : (⟨S640000, .i32⟩ : BufTy).Contents (Elt F) :=
  shapeCast _ (extractStridedSlice S1x640000 ![0, 0] ei slices_S2x640000_S1x640000_0_0) shapeCasts_S1x640000_S640000
def dstRow (ei : (⟨S2x640000, .i32⟩ : BufTy).Contents (Elt F)) : (⟨S640000, .i32⟩ : BufTy).Contents (Elt F) :=
  shapeCast _ (extractStridedSlice S1x640000 ![1, 0] ei slices_S2x640000_S1x640000_1_0) shapeCasts_S1x640000_S640000

/-- The embedding lookup: row `z n` of the table (a negative `z n` wrapped by 100) for every node `n`. -/
def embed (z : (⟨S50000, .i32⟩ : BufTy).Contents (Elt F)) (emb : (⟨S100x128, .f32⟩ : BufTy).Contents (Elt F)) :
    (⟨S50000x128, .f32⟩ : BufTy).Contents (Elt F) :=
  Host.gather gather_S100x128_S50000x1_S50000x128_1_0_n_n_0_1_1128 emb
    (broadcastInDim S50000x1 ![0] bcast_S50000_S50000x1_0
      (select (cmpi .slt z (broadcastInDim S50000 ![] bcast_S_S50000 (constantI S_ 32 0#32)))
        (addi z (broadcastInDim S50000 ![] bcast_S_S50000 (constantI S_ 32 100#32))) z))

/-- Every edge's source row of `x` (a negative source wrapped by 50000). -/
def gatherSrc (x : (⟨S50000x128, .f32⟩ : BufTy).Contents (Elt F)) (s : (⟨S640000, .i32⟩ : BufTy).Contents (Elt F)) :
    (⟨S640000x128, .f32⟩ : BufTy).Contents (Elt F) :=
  Host.gather gather_S50000x128_S640000x1_S640000x128_1_0_n_n_0_1_1128 x
    (broadcastInDim S640000x1 ![0] bcast_S640000_S640000x1_0
      (select (cmpi .slt s (broadcastInDim S640000 ![] bcast_S_S640000 (constantI S_ 32 0#32)))
        (addi s (broadcastInDim S640000 ![] bcast_S_S640000 (constantI S_ 32 50000#32))) s))

/-- The edge messages `max (g + e, 0)`. -/
def msgOf (g e : (⟨S640000x128, .f32⟩ : BufTy).Contents (Elt F)) : (⟨S640000x128, .f32⟩ : BufTy).Contents (Elt F) :=
  maximumf (addf g e) (broadcastInDim S640000x128 ![] bcast_S_S640000x128 (constant S_ .f32 0x00000000#32))

/-- The messages summed per destination node, into zeros. -/
def aggOf (d : (⟨S640000, .i32⟩ : BufTy).Contents (Elt F)) (mm : (⟨S640000x128, .f32⟩ : BufTy).Contents (Elt F)) :
    (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 d) mm

/-- Layer `k`'s square weight out of a stack of three. -/
def wOf0 (W : (⟨S3x128x128, .f32⟩ : BufTy).Contents (Elt F)) : (⟨S128x128, .f32⟩ : BufTy).Contents (Elt F) :=
  shapeCast _ (extractStridedSlice S1x128x128 ![0, 0, 0] W slices_S3x128x128_S1x128x128_0_0_0) shapeCasts_S1x128x128_S128x128
def wOf1 (W : (⟨S3x128x128, .f32⟩ : BufTy).Contents (Elt F)) : (⟨S128x128, .f32⟩ : BufTy).Contents (Elt F) :=
  shapeCast _ (extractStridedSlice S1x128x128 ![1, 0, 0] W slices_S3x128x128_S1x128x128_1_0_0) shapeCasts_S1x128x128_S128x128
def wOf2 (W : (⟨S3x128x128, .f32⟩ : BufTy).Contents (Elt F)) : (⟨S128x128, .f32⟩ : BufTy).Contents (Elt F) :=
  shapeCast _ (extractStridedSlice S1x128x128 ![2, 0, 0] W slices_S3x128x128_S1x128x128_2_0_0) shapeCasts_S1x128x128_S128x128

/-- Layer `k`'s bias vector out of a stack of three. -/
def bOf0 (b : (⟨S3x128, .f32⟩ : BufTy).Contents (Elt F)) : (⟨S128, .f32⟩ : BufTy).Contents (Elt F) :=
  shapeCast _ (extractStridedSlice S1x128 ![0, 0] b slices_S3x128_S1x128_0_0) shapeCasts_S1x128_S128
def bOf1 (b : (⟨S3x128, .f32⟩ : BufTy).Contents (Elt F)) : (⟨S128, .f32⟩ : BufTy).Contents (Elt F) :=
  shapeCast _ (extractStridedSlice S1x128 ![1, 0] b slices_S3x128_S1x128_1_0) shapeCasts_S1x128_S128
def bOf2 (b : (⟨S3x128, .f32⟩ : BufTy).Contents (Elt F)) : (⟨S128, .f32⟩ : BufTy).Contents (Elt F) :=
  shapeCast _ (extractStridedSlice S1x128 ![2, 0] b slices_S3x128_S1x128_2_0) shapeCasts_S1x128_S128

end Stages

/-! ## One layer and the whole network, at the extended reals -/

/-- One layer from the node table `x`: gather, message, scatter-add, perceptron with residual. -/
def layer (clamp : Bool) (x : S50000x128.Idx → EReal) (s d : (⟨S640000, .i32⟩ : BufTy).Contents (Elt Ideal))
    (e : S640000x128.Idx → EReal) (w1 : S128x128.Idx → EReal) (b1 : S128.Idx → EReal)
    (w2 : S128x128.Idx → EReal) (b2 : S128.Idx → EReal) : S50000x128.Idx → EReal :=
  mlpRows (N := 50000) clamp (aggOf (F := Ideal) d (msgOf (F := Ideal) (gatherSrc (F := Ideal) x s) e)) x w1 b1 w2 b2

/-- The network's output from the eight arguments. -/
def net (z : (⟨S50000, .i32⟩ : BufTy).Contents (Elt Ideal)) (ei : (⟨S2x640000, .i32⟩ : BufTy).Contents (Elt Ideal))
    (e : (⟨S640000x128, .f32⟩ : BufTy).Contents (Elt Ideal)) (emb : (⟨S100x128, .f32⟩ : BufTy).Contents (Elt Ideal))
    (W1 : (⟨S3x128x128, .f32⟩ : BufTy).Contents (Elt Ideal)) (b1 : (⟨S3x128, .f32⟩ : BufTy).Contents (Elt Ideal))
    (W2 : (⟨S3x128x128, .f32⟩ : BufTy).Contents (Elt Ideal)) (b2 : (⟨S3x128, .f32⟩ : BufTy).Contents (Elt Ideal)) :
    (⟨S50000x128, .f32⟩ : BufTy).Contents (Elt Ideal) :=
  layer false
    (layer true
      (layer true (embed (F := Ideal) z emb) (srcRow (F := Ideal) ei) (dstRow (F := Ideal) ei) e
        (wOf0 (F := Ideal) W1) (bOf0 (F := Ideal) b1) (wOf0 (F := Ideal) W2) (bOf0 (F := Ideal) b2))
      (srcRow (F := Ideal) ei) (dstRow (F := Ideal) ei) e
      (wOf1 (F := Ideal) W1) (bOf1 (F := Ideal) b1) (wOf1 (F := Ideal) W2) (bOf1 (F := Ideal) b2))
    (srcRow (F := Ideal) ei) (dstRow (F := Ideal) ei) e
    (wOf2 (F := Ideal) W1) (bOf2 (F := Ideal) b1) (wOf2 (F := Ideal) W2) (bOf2 (F := Ideal) b2)

end Cert.Gin

end
-- ==== Proof.KHost.lean ====
/-
  The kernel program's six stretches of host operations, each read from arbitrary contents of the
  buffers: the buffers a stretch computes for the next region hold the shared host stages of the
  specification (the edge list's two rows, the embedding lookup, the gathered source rows, the
  scatter-added sums, a layer's sliced weights) of the buffers the stretch reads; a bias, which the
  program recasts [1,128] → [128] → [1,128], read back as a vector is the layer's bias vector; and a
  buffer no operation of a stretch writes keeps its contents.
-/
import proofs.«126713_j16776142258451_1_alg».proof.Proof.Gen.KernelIdeal.Launch
import proofs.«126713_j16776142258451_1_alg».proof.Proof.Spec
import Idealize.ShloMosaic.Lib.StableHlo.Run
import Idealize.ShloMosaic.Lib.Pipeline.Value
import Idealize.ShloMosaic.Lib.ValueIdx

set_option maxRecDepth 16384

noncomputable section

namespace Cert.Gin.KHost

open Cert.KernelIdeal Cert.KernelIdeal.Gen
open Idealize.ShloMosaic Idealize.ShloMosaic.TcCoe Idealize.SL.Sem

variable [Cert.ReferenceIdeal.Facts]
variable (W : Valuation τ sig (Elt Ideal))

/-- A vector of length 128 recast as a single row and read back as a vector is the vector: both
    flatten to the same row-major position. -/
theorem rowVec_shapeCast (v : (⟨1, ![128]⟩ : Shape).Idx → EReal)
    (h : (⟨1, ![128]⟩ : Shape).ShapeCasts (⟨2, ![1, 128]⟩ : Shape)) :
    Cert.Gin.rowVec (shapeCast (⟨2, ![1, 128]⟩ : Shape) v h) = v := by
  funext q
  unfold Cert.Gin.rowVec
  refine (shapeCast_apply v h _ q ?_).trans rfl
  rw [Shape.rowMajor_val_two, Shape.rowMajor_val_one]
  show (q 0).val = (0 : Nat) * 128 + (q 0).val
  omega

theorem host0_v1 :
    StableHlo.after (hostOps0 (F := Ideal)) W (Proc.devRef .tc main_v1)
      = Cert.Gin.srcRow (F := Ideal) (W (Proc.devRef .tc main_arg1)) := by
  after_results_simp
  rfl

theorem host0_v3 :
    StableHlo.after (hostOps0 (F := Ideal)) W (Proc.devRef .tc main_v3)
      = Cert.Gin.dstRow (F := Ideal) (W (Proc.devRef .tc main_arg1)) := by
  after_results_simp
  rfl

theorem host0_v10 :
    StableHlo.after (hostOps0 (F := Ideal)) W (Proc.devRef .tc main_v10)
      = Cert.Gin.embed (F := Ideal) (W (Proc.devRef .tc main_arg0)) (W (Proc.devRef .tc main_arg3)) := by
  after_results_simp
  rfl

theorem host0_v17 :
    StableHlo.after (hostOps0 (F := Ideal)) W (Proc.devRef .tc main_v17)
      = Cert.Gin.gatherSrc (F := Ideal) (Cert.Gin.embed (F := Ideal) (W (Proc.devRef .tc main_arg0)) (W (Proc.devRef .tc main_arg3))) (Cert.Gin.srcRow (F := Ideal) (W (Proc.devRef .tc main_arg1))) := by
  after_results_simp
  rfl

theorem host1_agg :
    StableHlo.after (hostOps1 (F := Ideal)) W (Proc.devRef .tc main_v21)
      = Cert.Gin.aggOf (F := Ideal) (W (Proc.devRef .tc main_v3)) (W (Proc.devRef .tc main_v18)) := by
  after_results_simp
  rfl

theorem host1_w1 :
    StableHlo.after (hostOps1 (F := Ideal)) W (Proc.devRef .tc main_v23)
      = Cert.Gin.wOf0 (F := Ideal) (W (Proc.devRef .tc main_arg4)) := by
  after_results_simp
  rfl

theorem host1_b1 :
    Cert.Gin.rowVec (StableHlo.after (hostOps1 (F := Ideal)) W (Proc.devRef .tc main_v26))
      = Cert.Gin.bOf0 (F := Ideal) (W (Proc.devRef .tc main_arg5)) := by
  -- the row buffer is the bias vector recast as one row; reading the row back gives the vector
  have h : StableHlo.after (hostOps1 (F := Ideal)) W (Proc.devRef .tc main_v26)
      = shapeCast (⟨2, ![1, 128]⟩ : Shape) (Cert.Gin.bOf0 (F := Ideal) (W (Proc.devRef .tc main_arg5))) shapeCasts_S128_S1x128 := by
    after_results_simp
    rfl
  exact (congrArg Cert.Gin.rowVec h).trans (rowVec_shapeCast _ _)

theorem host1_w2 :
    StableHlo.after (hostOps1 (F := Ideal)) W (Proc.devRef .tc main_v28)
      = Cert.Gin.wOf0 (F := Ideal) (W (Proc.devRef .tc main_arg6)) := by
  after_results_simp
  rfl

theorem host1_b2 :
    Cert.Gin.rowVec (StableHlo.after (hostOps1 (F := Ideal)) W (Proc.devRef .tc main_v31))
      = Cert.Gin.bOf0 (F := Ideal) (W (Proc.devRef .tc main_arg7)) := by
  -- the row buffer is the bias vector recast as one row; reading the row back gives the vector
  have h : StableHlo.after (hostOps1 (F := Ideal)) W (Proc.devRef .tc main_v31)
      = shapeCast (⟨2, ![1, 128]⟩ : Shape) (Cert.Gin.bOf0 (F := Ideal) (W (Proc.devRef .tc main_arg7))) shapeCasts_S128_S1x128 := by
    after_results_simp
    rfl
  exact (congrArg Cert.Gin.rowVec h).trans (rowVec_shapeCast _ _)

theorem host3_agg :
    StableHlo.after (hostOps3 (F := Ideal)) W (Proc.devRef .tc main_v43)
      = Cert.Gin.aggOf (F := Ideal) (W (Proc.devRef .tc main_v3)) (W (Proc.devRef .tc main_v40)) := by
  after_results_simp
  rfl

theorem host3_w1 :
    StableHlo.after (hostOps3 (F := Ideal)) W (Proc.devRef .tc main_v45)
      = Cert.Gin.wOf1 (F := Ideal) (W (Proc.devRef .tc main_arg4)) := by
  after_results_simp
  rfl

theorem host3_b1 :
    Cert.Gin.rowVec (StableHlo.after (hostOps3 (F := Ideal)) W (Proc.devRef .tc main_v48))
      = Cert.Gin.bOf1 (F := Ideal) (W (Proc.devRef .tc main_arg5)) := by
  -- the row buffer is the bias vector recast as one row; reading the row back gives the vector
  have h : StableHlo.after (hostOps3 (F := Ideal)) W (Proc.devRef .tc main_v48)
      = shapeCast (⟨2, ![1, 128]⟩ : Shape) (Cert.Gin.bOf1 (F := Ideal) (W (Proc.devRef .tc main_arg5))) shapeCasts_S128_S1x128 := by
    after_results_simp
    rfl
  exact (congrArg Cert.Gin.rowVec h).trans (rowVec_shapeCast _ _)

theorem host3_w2 :
    StableHlo.after (hostOps3 (F := Ideal)) W (Proc.devRef .tc main_v50)
      = Cert.Gin.wOf1 (F := Ideal) (W (Proc.devRef .tc main_arg6)) := by
  after_results_simp
  rfl

theorem host3_b2 :
    Cert.Gin.rowVec (StableHlo.after (hostOps3 (F := Ideal)) W (Proc.devRef .tc main_v53))
      = Cert.Gin.bOf1 (F := Ideal) (W (Proc.devRef .tc main_arg7)) := by
  -- the row buffer is the bias vector recast as one row; reading the row back gives the vector
  have h : StableHlo.after (hostOps3 (F := Ideal)) W (Proc.devRef .tc main_v53)
      = shapeCast (⟨2, ![1, 128]⟩ : Shape) (Cert.Gin.bOf1 (F := Ideal) (W (Proc.devRef .tc main_arg7))) shapeCasts_S128_S1x128 := by
    after_results_simp
    rfl
  exact (congrArg Cert.Gin.rowVec h).trans (rowVec_shapeCast _ _)

theorem host5_agg :
    StableHlo.after (hostOps5 (F := Ideal)) W (Proc.devRef .tc main_v65)
      = Cert.Gin.aggOf (F := Ideal) (W (Proc.devRef .tc main_v3)) (W (Proc.devRef .tc main_v62)) := by
  after_results_simp
  rfl

theorem host5_w1 :
    StableHlo.after (hostOps5 (F := Ideal)) W (Proc.devRef .tc main_v67)
      = Cert.Gin.wOf2 (F := Ideal) (W (Proc.devRef .tc main_arg4)) := by
  after_results_simp
  rfl

theorem host5_b1 :
    Cert.Gin.rowVec (StableHlo.after (hostOps5 (F := Ideal)) W (Proc.devRef .tc main_v70))
      = Cert.Gin.bOf2 (F := Ideal) (W (Proc.devRef .tc main_arg5)) := by
  -- the row buffer is the bias vector recast as one row; reading the row back gives the vector
  have h : StableHlo.after (hostOps5 (F := Ideal)) W (Proc.devRef .tc main_v70)
      = shapeCast (⟨2, ![1, 128]⟩ : Shape) (Cert.Gin.bOf2 (F := Ideal) (W (Proc.devRef .tc main_arg5))) shapeCasts_S128_S1x128 := by
    after_results_simp
    rfl
  exact (congrArg Cert.Gin.rowVec h).trans (rowVec_shapeCast _ _)

theorem host5_w2 :
    StableHlo.after (hostOps5 (F := Ideal)) W (Proc.devRef .tc main_v72)
      = Cert.Gin.wOf2 (F := Ideal) (W (Proc.devRef .tc main_arg6)) := by
  after_results_simp
  rfl

theorem host5_b2 :
    Cert.Gin.rowVec (StableHlo.after (hostOps5 (F := Ideal)) W (Proc.devRef .tc main_v75))
      = Cert.Gin.bOf2 (F := Ideal) (W (Proc.devRef .tc main_arg7)) := by
  -- the row buffer is the bias vector recast as one row; reading the row back gives the vector
  have h : StableHlo.after (hostOps5 (F := Ideal)) W (Proc.devRef .tc main_v75)
      = shapeCast (⟨2, ![1, 128]⟩ : Shape) (Cert.Gin.bOf2 (F := Ideal) (W (Proc.devRef .tc main_arg7))) shapeCasts_S128_S1x128 := by
    after_results_simp
    rfl
  exact (congrArg Cert.Gin.rowVec h).trans (rowVec_shapeCast _ _)

theorem host2_g :
    StableHlo.after (hostOps2 (F := Ideal)) W (Proc.devRef .tc main_v39)
      = Cert.Gin.gatherSrc (F := Ideal) (W (Proc.devRef .tc main_v32)) (W (Proc.devRef .tc main_v1)) := by
  after_results_simp
  rfl

theorem host4_g :
    StableHlo.after (hostOps4 (F := Ideal)) W (Proc.devRef .tc main_v61)
      = Cert.Gin.gatherSrc (F := Ideal) (W (Proc.devRef .tc main_v54)) (W (Proc.devRef .tc main_v1)) := by
  after_results_simp
  rfl

theorem keep0_arg2 :
    StableHlo.after (hostOps0 (F := Ideal)) W (Proc.devRef .tc main_arg2) = W (Proc.devRef .tc main_arg2) := by
  after_results_simp

theorem keep0_arg4 :
    StableHlo.after (hostOps0 (F := Ideal)) W (Proc.devRef .tc main_arg4) = W (Proc.devRef .tc main_arg4) := by
  after_results_simp

theorem keep0_arg5 :
    StableHlo.after (hostOps0 (F := Ideal)) W (Proc.devRef .tc main_arg5) = W (Proc.devRef .tc main_arg5) := by
  after_results_simp

theorem keep0_arg6 :
    StableHlo.after (hostOps0 (F := Ideal)) W (Proc.devRef .tc main_arg6) = W (Proc.devRef .tc main_arg6) := by
  after_results_simp

theorem keep0_arg7 :
    StableHlo.after (hostOps0 (F := Ideal)) W (Proc.devRef .tc main_arg7) = W (Proc.devRef .tc main_arg7) := by
  after_results_simp

theorem keep1_v1 :
    StableHlo.after (hostOps1 (F := Ideal)) W (Proc.devRef .tc main_v1) = W (Proc.devRef .tc main_v1) := by
  after_results_simp

theorem keep1_v3 :
    StableHlo.after (hostOps1 (F := Ideal)) W (Proc.devRef .tc main_v3) = W (Proc.devRef .tc main_v3) := by
  after_results_simp

theorem keep1_v10 :
    StableHlo.after (hostOps1 (F := Ideal)) W (Proc.devRef .tc main_v10) = W (Proc.devRef .tc main_v10) := by
  after_results_simp

theorem keep1_arg2 :
    StableHlo.after (hostOps1 (F := Ideal)) W (Proc.devRef .tc main_arg2) = W (Proc.devRef .tc main_arg2) := by
  after_results_simp

theorem keep1_arg4 :
    StableHlo.after (hostOps1 (F := Ideal)) W (Proc.devRef .tc main_arg4) = W (Proc.devRef .tc main_arg4) := by
  after_results_simp

theorem keep1_arg5 :
    StableHlo.after (hostOps1 (F := Ideal)) W (Proc.devRef .tc main_arg5) = W (Proc.devRef .tc main_arg5) := by
  after_results_simp

theorem keep1_arg6 :
    StableHlo.after (hostOps1 (F := Ideal)) W (Proc.devRef .tc main_arg6) = W (Proc.devRef .tc main_arg6) := by
  after_results_simp

theorem keep1_arg7 :
    StableHlo.after (hostOps1 (F := Ideal)) W (Proc.devRef .tc main_arg7) = W (Proc.devRef .tc main_arg7) := by
  after_results_simp

theorem keep2_v1 :
    StableHlo.after (hostOps2 (F := Ideal)) W (Proc.devRef .tc main_v1) = W (Proc.devRef .tc main_v1) := by
  after_results_simp

theorem keep2_v3 :
    StableHlo.after (hostOps2 (F := Ideal)) W (Proc.devRef .tc main_v3) = W (Proc.devRef .tc main_v3) := by
  after_results_simp

theorem keep2_v32 :
    StableHlo.after (hostOps2 (F := Ideal)) W (Proc.devRef .tc main_v32) = W (Proc.devRef .tc main_v32) := by
  after_results_simp

theorem keep2_arg2 :
    StableHlo.after (hostOps2 (F := Ideal)) W (Proc.devRef .tc main_arg2) = W (Proc.devRef .tc main_arg2) := by
  after_results_simp

theorem keep2_arg4 :
    StableHlo.after (hostOps2 (F := Ideal)) W (Proc.devRef .tc main_arg4) = W (Proc.devRef .tc main_arg4) := by
  after_results_simp

theorem keep2_arg5 :
    StableHlo.after (hostOps2 (F := Ideal)) W (Proc.devRef .tc main_arg5) = W (Proc.devRef .tc main_arg5) := by
  after_results_simp

theorem keep2_arg6 :
    StableHlo.after (hostOps2 (F := Ideal)) W (Proc.devRef .tc main_arg6) = W (Proc.devRef .tc main_arg6) := by
  after_results_simp

theorem keep2_arg7 :
    StableHlo.after (hostOps2 (F := Ideal)) W (Proc.devRef .tc main_arg7) = W (Proc.devRef .tc main_arg7) := by
  after_results_simp

theorem keep3_v1 :
    StableHlo.after (hostOps3 (F := Ideal)) W (Proc.devRef .tc main_v1) = W (Proc.devRef .tc main_v1) := by
  after_results_simp

theorem keep3_v3 :
    StableHlo.after (hostOps3 (F := Ideal)) W (Proc.devRef .tc main_v3) = W (Proc.devRef .tc main_v3) := by
  after_results_simp

theorem keep3_v32 :
    StableHlo.after (hostOps3 (F := Ideal)) W (Proc.devRef .tc main_v32) = W (Proc.devRef .tc main_v32) := by
  after_results_simp

theorem keep3_arg2 :
    StableHlo.after (hostOps3 (F := Ideal)) W (Proc.devRef .tc main_arg2) = W (Proc.devRef .tc main_arg2) := by
  after_results_simp

theorem keep3_arg4 :
    StableHlo.after (hostOps3 (F := Ideal)) W (Proc.devRef .tc main_arg4) = W (Proc.devRef .tc main_arg4) := by
  after_results_simp

theorem keep3_arg5 :
    StableHlo.after (hostOps3 (F := Ideal)) W (Proc.devRef .tc main_arg5) = W (Proc.devRef .tc main_arg5) := by
  after_results_simp

theorem keep3_arg6 :
    StableHlo.after (hostOps3 (F := Ideal)) W (Proc.devRef .tc main_arg6) = W (Proc.devRef .tc main_arg6) := by
  after_results_simp

theorem keep3_arg7 :
    StableHlo.after (hostOps3 (F := Ideal)) W (Proc.devRef .tc main_arg7) = W (Proc.devRef .tc main_arg7) := by
  after_results_simp

theorem keep4_v3 :
    StableHlo.after (hostOps4 (F := Ideal)) W (Proc.devRef .tc main_v3) = W (Proc.devRef .tc main_v3) := by
  after_results_simp

theorem keep4_v54 :
    StableHlo.after (hostOps4 (F := Ideal)) W (Proc.devRef .tc main_v54) = W (Proc.devRef .tc main_v54) := by
  after_results_simp

theorem keep4_arg2 :
    StableHlo.after (hostOps4 (F := Ideal)) W (Proc.devRef .tc main_arg2) = W (Proc.devRef .tc main_arg2) := by
  after_results_simp

theorem keep4_arg4 :
    StableHlo.after (hostOps4 (F := Ideal)) W (Proc.devRef .tc main_arg4) = W (Proc.devRef .tc main_arg4) := by
  after_results_simp

theorem keep4_arg5 :
    StableHlo.after (hostOps4 (F := Ideal)) W (Proc.devRef .tc main_arg5) = W (Proc.devRef .tc main_arg5) := by
  after_results_simp

theorem keep4_arg6 :
    StableHlo.after (hostOps4 (F := Ideal)) W (Proc.devRef .tc main_arg6) = W (Proc.devRef .tc main_arg6) := by
  after_results_simp

theorem keep4_arg7 :
    StableHlo.after (hostOps4 (F := Ideal)) W (Proc.devRef .tc main_arg7) = W (Proc.devRef .tc main_arg7) := by
  after_results_simp

theorem keep5_v54 :
    StableHlo.after (hostOps5 (F := Ideal)) W (Proc.devRef .tc main_v54) = W (Proc.devRef .tc main_v54) := by
  after_results_simp

end Cert.Gin.KHost

end
-- ==== Proof.KMsg.lean ====
/-
  The three message regions. Each is the same tiled computation on a [640000, 128] array: the grid has 80
  points, point `t` reads rows `8000·t … 8000·t + 7999` of the gathered source rows and of the edge
  features, stores `max (x + e, 0)` of the two tiles, and writes the tile back to the same rows of the
  output. So after the region the output array is `max (g + e, 0)` entry by entry, which is the reference's
  own message term. The argument, per region: the stored tile element by element; the three windows' block
  indices at a point; what a point writes back as a block of the one whole-array function; the blocks
  cover the array.
-/
import proofs.«126713_j16776142258451_1_alg».proof.Proof.Gen.KernelIdeal.Frame
import proofs.«126713_j16776142258451_1_alg».proof.Proof.Spec
import Idealize.ShloMosaic.Lib.Pipeline.Value
import Idealize.ShloMosaic.Lib.ValueIdx

set_option maxRecDepth 16384

noncomputable section

namespace Cert.Gin.KMsg

open Cert.KernelIdeal Cert.KernelIdeal.Gen
open Idealize.ShloMosaic Idealize.ShloMosaic.TcCoe Idealize.SL.Sem

variable [Cert.ReferenceIdeal.Facts]
variable (V : (c : Dev nD) → (b : Ref sig .tc) → Buf (Elt Ideal) ((c : Thread nD τ).loc b))

/-- The zero offsets of a whole-tile access, as the constant function. -/
theorem hz : (![0, 0] : Fin 2 → Nat) = fun _ => 0 := funext fun a => by fin_cases a <;> rfl

/-- The reference's message array at an entry: `max (g + e, 0)`. -/
theorem msgOf_apply (g e : (⟨S640000x128, .f32⟩ : BufTy).Contents (Elt Ideal)) (i : S640000x128.Idx) :
    Cert.Gin.msgOf (F := Ideal) g e i = max (g i + e i) (Ideal.ofBits .f32 0x00000000#32) := rfl

/-! ## Message region 0: source rows `main_v17`, edge features `main_arg2`, messages `main_v18` -/

/-- The body's stored value on one tile, element by element: `max (x + e, 0)`. The shape cast is to the
    tile's own shape, so it is the identity; the broadcast zero reads the zero word everywhere. -/
theorem pay0_eq (x0 x1 : Vec Ideal S8000x128 .f32) :
    k0_pay1 (F := Ideal) x0 x1 = fun j => max (x0 j + x1 j) (Ideal.ofBits .f32 0x00000000#32) := by
  unfold k0_pay1
  rw [shapeCast_self]
  rfl

/-- What the body leaves in the output tile from the two input tiles: its one store covers the whole tile
    and its two loads read whole tiles, so the tile holds the stored value. -/
theorem out0_eq (x0 x1 : Vec Ideal S8000x128 .f32) :
    out0_2 (F := Ideal) x0 x1 = fun j => max (x0 j + x1 j) (Ideal.ofBits .f32 0x00000000#32) := by
  unfold out0_2
  rw [View.canon_unit_zero hz]
  simp only [View.ld_unit_zero (S := S8000x128) hz]
  exact pay0_eq x0 x1

/-- The three windows move together: at grid point `t` each is at block row `t`, block column `0`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the message array `max (g + e, 0)` of the two input arrays as
    the region finds them. An element `j` of a block sits in its array at block index × block size + `j` on each
    axis; the three windows have the same block index at `t`, so the two input elements the body combined are
    the ones at the output element's own place. -/
theorem flushed0_eq (c : Dev nD) (t : Fin cfg0.N) :
    (dat0 (F := Ideal) V c).flushed 2 t
      = ((cfg0.win 2).blk t).view.read (Elt Ideal) (Cert.Gin.msgOf (F := Ideal) (V c main_v17) (V c main_arg2)) := by
  show (cfg0.win 2).cut (grid0.coords t) ((dat0 (F := Ideal) V c).after 2 t) = _
  rw [after0_2, out0_eq (iblk0 V c 0 t) (iblk0 V c 1 t)]
  obtain ⟨e00, e01, e10, e11, e20, e21⟩ := idx0 t
  funext j
  show FloatOps.maximumf (F := Ideal) (φ := .f32) (FloatOps.addf (V c main_v17 (((cfg0.win 0).blk t).view.emb j)) (V c main_arg2 (((cfg0.win 1).blk t).view.emb j))) (FloatOps.ofBits .f32 0x00000000#32)
     = FloatOps.maximumf (F := Ideal) (φ := .f32) (FloatOps.addf (V c main_v17 (((cfg0.win 2).blk t).view.emb j)) (V c main_arg2 (((cfg0.win 2).blk t).view.emb j))) (FloatOps.ofBits .f32 0x00000000#32)
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 128 + 1 * (j 1).val = win0_2.index t (1 : Fin 2) * 128 + 1 * (j 1).val; omega
  rw [h0, h1]

/-- An entry of the message array lies in point `t`'s output block exactly when, on each axis, its
    coordinate lies in the block's range: from block index × block size, for block size many. -/
theorem mem_blk0 (t : Fin cfg0.N) (i : S640000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v18).slice (win0_2.rect t)).set ↔ _
  rw [View.set_slice_whole, Rect.mem_set_unit]
  exact Iff.rfl

/-- The 80 output blocks of 8000 rows tile the 640000 rows: row `r` is in the block of point `r / 8000`,
    and every point writes its block back. -/
theorem cover0 (i : S640000x128.Idx) :
    ∃ t : Fin cfg0.N, (cfg0.win 2).flush t = true ∧ i ∈ ((cfg0.win 2).blk t).view.set := by
  have hi0 : (i 0).val < 640000 := (i 0).isLt
  have hi1 : (i 1).val < 128 := (i 1).isLt
  have hN : grid0.N = 80 := N_0
  obtain ⟨t, ht⟩ : ∃ t : Fin cfg0.N, t.val = (i 0).val / 8000 :=
    ⟨⟨(i 0).val / 8000, by show (i 0).val / 8000 < grid0.N; rw [hN]; omega⟩, rfl⟩
  obtain ⟨-, -, -, -, e20, e21⟩ := idx0 t
  refine ⟨t, flush0_2 t, ?_⟩
  rw [mem_blk0]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 128 ≤ (i 1).val ∧ (i 1).val < win0_2.index t (1 : Fin 2) * 128 + 128
    omega

/-- After the region every entry of the output array is `max (g + e, 0)` of the two input arrays as the
    region found them: every point writes back its block of that one array, and the blocks cover it. -/
theorem region0 (c : Dev nD) :
    (dat0 (F := Ideal) V c).arrAt 2 cfg0.N = Cert.Gin.msgOf (F := Ideal) (V c main_v17) (V c main_arg2) :=
  (dat0 (F := Ideal) V c).arrAt_eq_of_cover 2 (Cert.Gin.msgOf (F := Ideal) (V c main_v17) (V c main_arg2))
    (fun t _ => flushed0_eq V c t) cover0

/-! ## Message region 2: source rows `main_v39`, edge features `main_arg2`, messages `main_v40` -/

/-- The body's stored value on one tile, element by element: `max (x + e, 0)`. The shape cast is to the
    tile's own shape, so it is the identity; the broadcast zero reads the zero word everywhere. -/
theorem pay2_eq (x0 x1 : Vec Ideal S8000x128 .f32) :
    k2_pay1 (F := Ideal) x0 x1 = fun j => max (x0 j + x1 j) (Ideal.ofBits .f32 0x00000000#32) := by
  unfold k2_pay1
  rw [shapeCast_self]
  rfl

/-- What the body leaves in the output tile from the two input tiles: its one store covers the whole tile
    and its two loads read whole tiles, so the tile holds the stored value. -/
theorem out2_eq (x0 x1 : Vec Ideal S8000x128 .f32) :
    out2_2 (F := Ideal) x0 x1 = fun j => max (x0 j + x1 j) (Ideal.ofBits .f32 0x00000000#32) := by
  unfold out2_2
  rw [View.canon_unit_zero hz]
  simp only [View.ld_unit_zero (S := S8000x128) hz]
  exact pay2_eq x0 x1

/-- The three windows move together: at grid point `t` each is at block row `t`, block column `0`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the message array `max (g + e, 0)` of the two input arrays as
    the region finds them. An element `j` of a block sits in its array at block index × block size + `j` on each
    axis; the three windows have the same block index at `t`, so the two input elements the body combined are
    the ones at the output element's own place. -/
theorem flushed2_eq (c : Dev nD) (t : Fin cfg2.N) :
    (dat2 (F := Ideal) V c).flushed 2 t
      = ((cfg2.win 2).blk t).view.read (Elt Ideal) (Cert.Gin.msgOf (F := Ideal) (V c main_v39) (V c main_arg2)) := by
  show (cfg2.win 2).cut (grid2.coords t) ((dat2 (F := Ideal) V c).after 2 t) = _
  rw [after2_2, out2_eq (iblk2 V c 0 t) (iblk2 V c 1 t)]
  obtain ⟨e00, e01, e10, e11, e20, e21⟩ := idx2 t
  funext j
  show FloatOps.maximumf (F := Ideal) (φ := .f32) (FloatOps.addf (V c main_v39 (((cfg2.win 0).blk t).view.emb j)) (V c main_arg2 (((cfg2.win 1).blk t).view.emb j))) (FloatOps.ofBits .f32 0x00000000#32)
     = FloatOps.maximumf (F := Ideal) (φ := .f32) (FloatOps.addf (V c main_v39 (((cfg2.win 2).blk t).view.emb j)) (V c main_arg2 (((cfg2.win 2).blk t).view.emb j))) (FloatOps.ofBits .f32 0x00000000#32)
  have h0 : ((cfg2.win 0).blk t).view.emb j = ((cfg2.win 2).blk t).view.emb j := by
    funext a; apply Fin.ext
    match a with
    | ⟨0, _⟩ => show win2_0.index t (0 : Fin 2) * 8000 + 1 * (j 0).val = win2_2.index t (0 : Fin 2) * 8000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 8000 + 1 * (j 0).val = win2_2.index t (0 : Fin 2) * 8000 + 1 * (j 0).val; omega
    | ⟨1, _⟩ => show win2_1.index t (1 : Fin 2) * 128 + 1 * (j 1).val = win2_2.index t (1 : Fin 2) * 128 + 1 * (j 1).val; omega
  rw [h0, h1]

/-- An entry of the message array lies in point `t`'s output block exactly when, on each axis, its
    coordinate lies in the block's range: from block index × block size, for block size many. -/
theorem mem_blk2 (t : Fin cfg2.N) (i : S640000x128.Idx) :
    i ∈ ((cfg2.win 2).blk t).view.set ↔ ∀ a : Fin 2, win2_2.index t a * S8000x128.size a ≤ (i a).val ∧ (i a).val < win2_2.index t a * S8000x128.size a + S8000x128.size a := by
  show i ∈ ((View.whole main_v40).slice (win2_2.rect t)).set ↔ _
  rw [View.set_slice_whole, Rect.mem_set_unit]
  exact Iff.rfl

/-- The 80 output blocks of 8000 rows tile the 640000 rows: row `r` is in the block of point `r / 8000`,
    and every point writes its block back. -/
theorem cover2 (i : S640000x128.Idx) :
    ∃ t : Fin cfg2.N, (cfg2.win 2).flush t = true ∧ i ∈ ((cfg2.win 2).blk t).view.set := by
  have hi0 : (i 0).val < 640000 := (i 0).isLt
  have hi1 : (i 1).val < 128 := (i 1).isLt
  have hN : grid2.N = 80 := N_2
  obtain ⟨t, ht⟩ : ∃ t : Fin cfg2.N, t.val = (i 0).val / 8000 :=
    ⟨⟨(i 0).val / 8000, by show (i 0).val / 8000 < grid2.N; rw [hN]; omega⟩, rfl⟩
  obtain ⟨-, -, -, -, e20, e21⟩ := idx2 t
  refine ⟨t, flush2_2 t, ?_⟩
  rw [mem_blk2]
  intro a
  match a with
  | ⟨0, _⟩ =>
    show win2_2.index t (0 : Fin 2) * 8000 ≤ (i 0).val ∧ (i 0).val < win2_2.index t (0 : Fin 2) * 8000 + 8000
    omega
  | ⟨1, _⟩ =>
    show win2_2.index t (1 : Fin 2) * 128 ≤ (i 1).val ∧ (i 1).val < win2_2.index t (1 : Fin 2) * 128 + 128
    omega

/-- After the region every entry of the output array is `max (g + e, 0)` of the two input arrays as the
    region found them: every point writes back its block of that one array, and the blocks cover it. -/
theorem region2 (c : Dev nD) :
    (dat2 (F := Ideal) V c).arrAt 2 cfg2.N = Cert.Gin.msgOf (F := Ideal) (V c main_v39) (V c main_arg2) :=
  (dat2 (F := Ideal) V c).arrAt_eq_of_cover 2 (Cert.Gin.msgOf (F := Ideal) (V c main_v39) (V c main_arg2))
    (fun t _ => flushed2_eq V c t) cover2

/-! ## Message region 4: source rows `main_v61`, edge features `main_arg2`, messages `main_v62` -/

/-- The body's stored value on one tile, element by element: `max (x + e, 0)`. The shape cast is to the
    tile's own shape, so it is the identity; the broadcast zero reads the zero word everywhere. -/
theorem pay4_eq (x0 x1 : Vec Ideal S8000x128 .f32) :
    k4_pay1 (F := Ideal) x0 x1 = fun j => max (x0 j + x1 j) (Ideal.ofBits .f32 0x00000000#32) := by
  unfold k4_pay1
  rw [shapeCast_self]
  rfl

/-- What the body leaves in the output tile from the two input tiles: its one store covers the whole tile
    and its two loads read whole tiles, so the tile holds the stored value. -/
theorem out4_eq (x0 x1 : Vec Ideal S8000x128 .f32) :
    out4_2 (F := Ideal) x0 x1 = fun j => max (x0 j + x1 j) (Ideal.ofBits .f32 0x00000000#32) := by
  unfold out4_2
  rw [View.canon_unit_zero hz]
  simp only [View.ld_unit_zero (S := S8000x128) hz]
  exact pay4_eq x0 x1

/-- The three windows move together: at grid point `t` each is at block row `t`, block column `0`. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the message array `max (g + e, 0)` of the two input arrays as
    the region finds them. An element `j` of a block sits in its array at block index × block size + `j` on each
    axis; the three windows have the same block index at `t`, so the two input elements the body combined are
    the ones at the output element's own place. -/
theorem flushed4_eq (c : Dev nD) (t : Fin cfg4.N) :
    (dat4 (F := Ideal) V c).flushed 2 t
      = ((cfg4.win 2).blk t).view.read (Elt Ideal) (Cert.Gin.msgOf (F := Ideal) (V c main_v61) (V c main_arg2)) := by
  show (cfg4.win 2).cut (grid4.coords t) ((dat4 (F := Ideal) V c).after 2 t) = _
  rw [after4_2, out4_eq (iblk4 V c 0 t) (iblk4 V c 1 t)]
  obtain ⟨e00, e01, e10, e11, e20, e21⟩ := idx4 t
  funext j
  show FloatOps.maximumf (F := Ideal) (φ := .f32) (FloatOps.addf (V c main_v61 (((cfg4.win 0).blk t).view.emb j)) (V c main_arg2 (((cfg4.win 1).blk t).view.emb j))) (FloatOps.ofBits .f32 0x00000000#32)
     = FloatOps.maximumf (F := Ideal) (φ := .f32) (FloatOps.addf (V c main_v61 (((cfg4.win 2).blk t).view.emb j)) (V c main_arg2 (((cfg4.win 2).blk t).view.emb j))) (FloatOps.ofBits .f32 0x00000000#32)
  have h0 : ((cfg4.win 0).blk t).view.emb j = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 128 + 1 * (j 1).val = win4_2.index t (1 : Fin 2) * 128 + 1 * (j 1).val; omega
  rw [h0, h1]

/-- An entry of the message array lies in point `t`'s output block exactly when, on each axis, its
    coordinate lies in the block's range: from block index × block size, for block size many. -/
theorem mem_blk4 (t : Fin cfg4.N) (i : S640000x128.Idx) :
    i ∈ ((cfg4.win 2).blk t).view.set ↔ ∀ a : Fin 2, win4_2.index t a * S8000x128.size a ≤ (i a).val ∧ (i a).val < win4_2.index t a * S8000x128.size a + S8000x128.size a := by
  show i ∈ ((View.whole main_v62).slice (win4_2.rect t)).set ↔ _
  rw [View.set_slice_whole, Rect.mem_set_unit]
  exact Iff.rfl

/-- The 80 output blocks of 8000 rows tile the 640000 rows: row `r` is in the block of point `r / 8000`,
    and every point writes its block back. -/
theorem cover4 (i : S640000x128.Idx) :
    ∃ t : Fin cfg4.N, (cfg4.win 2).flush t = true ∧ i ∈ ((cfg4.win 2).blk t).view.set := by
  have hi0 : (i 0).val < 640000 := (i 0).isLt
  have hi1 : (i 1).val < 128 := (i 1).isLt
  have hN : grid4.N = 80 := N_4
  obtain ⟨t, ht⟩ : ∃ t : Fin cfg4.N, t.val = (i 0).val / 8000 :=
    ⟨⟨(i 0).val / 8000, by show (i 0).val / 8000 < grid4.N; rw [hN]; omega⟩, rfl⟩
  obtain ⟨-, -, -, -, e20, e21⟩ := idx4 t
  refine ⟨t, flush4_2 t, ?_⟩
  rw [mem_blk4]
  intro a
  match a with
  | ⟨0, _⟩ =>
    show win4_2.index t (0 : Fin 2) * 8000 ≤ (i 0).val ∧ (i 0).val < win4_2.index t (0 : Fin 2) * 8000 + 8000
    omega
  | ⟨1, _⟩ =>
    show win4_2.index t (1 : Fin 2) * 128 ≤ (i 1).val ∧ (i 1).val < win4_2.index t (1 : Fin 2) * 128 + 128
    omega

/-- After the region every entry of the output array is `max (g + e, 0)` of the two input arrays as the
    region found them: every point writes back its block of that one array, and the blocks cover it. -/
theorem region4 (c : Dev nD) :
    (dat4 (F := Ideal) V c).arrAt 2 cfg4.N = Cert.Gin.msgOf (F := Ideal) (V c main_v61) (V c main_arg2) :=
  (dat4 (F := Ideal) V c).arrAt_eq_of_cover 2 (Cert.Gin.msgOf (F := Ideal) (V c main_v61) (V c main_arg2))
    (fun t _ => flushed4_eq V c t) cover4

end Cert.Gin.KMsg

end
-- ==== Proof.KMlpTile.lean ====
/-
  One tile of the perceptron, read entry by entry.

  The body of the perceptron kernel, on a tile of 5000 rows of 128, computes
      out = agg + x,   h = max (out · W₁ + b₁, 0),   y = h · W₂ + b₂,
  clamps y at zero (first two layers) and adds x back.  At the extended reals the narrowing
  of the matrix unit's operands is the identity and a product into a zero accumulator is the plain
  finite sum over the contracted axis, so entry (r, q) of the result is the row function of
  the specification applied to row r of agg and x.
-/
import proofs.«126713_j16776142258451_1_alg».proof.Proof.Gen.KernelIdeal.Skeleton
import proofs.«126713_j16776142258451_1_alg».proof.Proof.Spec
import Idealize.ShloMosaic.Lib.Pipeline.Value
import Idealize.ShloMosaic.Lib.ValueIdx
import Idealize.ShloMosaic.PureOps.Ideal.Laws

noncomputable section

namespace Cert.Gin.KMlp

open Cert.KernelIdeal Cert.KernelIdeal.Gen
open Idealize.ShloMosaic Idealize.ShloMosaic.ValueIdx

/-! ## The product's operand indices -/

/-- The left operand is read in the output's row … -/
theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … at the contraction position; -/
theorem lhs_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right operand at the contraction position … -/
theorem rhs_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … in the output's column. -/
theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] tile times a [128,128] matrix into zeros, at row r and column q: the sum over the
    contracted axis of the row's entries times the column's. -/
theorem matmul_at {φ₁ φ₂ : FTy} (lhs : FVec Ideal S5000x128 φ₁) (rhs : FVec Ideal S128x128 φ₂) (r : Fin 5000) (q : Fin 128) :
    matmul dot_S5000x128_S128x128_S5000x128_1_0_0_1_n_n none lhs rhs (constant (F := Ideal) S5000x128 .f32 0x00000000#32) (ix2 r q)
      = ∑ k : Fin 128, lhs (ix2 r k) * rhs (ix2 k q) := by
  refine (Ideal.matmul_constant_zero_apply dot_S5000x128_S128x128_S5000x128_1_0_0_1_n_n none lhs rhs (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 r q) ((contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- A [1,128] row broadcast down 5000 rows, at row r and column q: the row's entry q. -/
theorem bcast_at (b : FVec Ideal S1x128 .f32) (r : Fin 5000) (q : Fin 128) :
    broadcastTo S5000x128 b broadcasts_S1x128_S5000x128 (ix2 r q) = b (ix2 (0 : Fin 1) q) :=
  broadcastTo_apply b broadcasts_S1x128_S5000x128 (ix2 r q) (ix2 (0 : Fin 1) q) (fun a => by
    match a with
    | ⟨0, _⟩ => rfl
    | ⟨1, _⟩ => rfl)

/-! ## The body at an entry

The three perceptron bodies, at entry (r, q) of the tile: the specification's row function of row r of
agg and of x.  The first two layers clamp the output unit at zero, the last does not. -/

theorem pay1_at (x a : Vec Ideal S5000x128 .f32) (w1 w2 : Vec Ideal S128x128 .f32) (b1 b2 : Vec Ideal S1x128 .f32)
    (r : Fin 5000) (q : Fin 128) :
    k1_pay1 x a w1 w2 b1 b2 (ix2 r q)
      = Cert.Gin.newRow true (fun l => a (ix2 r l)) (fun l => x (ix2 r l)) w1 (fun k => b1 (ix2 (0 : Fin 1) k))
          w2 (fun k => b2 (ix2 (0 : Fin 1) k)) q := by
  unfold k1_pay1
  simp only [shapeCast_self, addf_apply, maximumf_apply, truncf_apply, broadcast_apply, matmul_at, bcast_at]
  have hz : (FloatOps.ofBits FTy.f32 0x00000000#32 : Ideal .f32) = (0 : EReal) := Ideal.ofBits_zero_f32
  simp only [hz]
  rfl

theorem pay1_eq (x a : Vec Ideal S5000x128 .f32) (w1 w2 : Vec Ideal S128x128 .f32) (b1 b2 : Vec Ideal S1x128 .f32) :
    k1_pay1 x a w1 w2 b1 b2
      = Cert.Gin.mlpRows (N := 5000) true a x w1 (Cert.Gin.rowVec b1) w2 (Cert.Gin.rowVec b2) := by
  funext j
  obtain ⟨r, q, rfl⟩ : ∃ (r : Fin 5000) (q : Fin 128), j = ix2 r q := ⟨j 0, j 1, eq_ix2 j⟩
  exact pay1_at x a w1 w2 b1 b2 r q

theorem pay3_at (x a : Vec Ideal S5000x128 .f32) (w1 w2 : Vec Ideal S128x128 .f32) (b1 b2 : Vec Ideal S1x128 .f32)
    (r : Fin 5000) (q : Fin 128) :
    k3_pay1 x a w1 w2 b1 b2 (ix2 r q)
      = Cert.Gin.newRow true (fun l => a (ix2 r l)) (fun l => x (ix2 r l)) w1 (fun k => b1 (ix2 (0 : Fin 1) k))
          w2 (fun k => b2 (ix2 (0 : Fin 1) k)) q := by
  unfold k3_pay1
  simp only [shapeCast_self, addf_apply, maximumf_apply, truncf_apply, broadcast_apply, matmul_at, bcast_at]
  have hz : (FloatOps.ofBits FTy.f32 0x00000000#32 : Ideal .f32) = (0 : EReal) := Ideal.ofBits_zero_f32
  simp only [hz]
  rfl

theorem pay3_eq (x a : Vec Ideal S5000x128 .f32) (w1 w2 : Vec Ideal S128x128 .f32) (b1 b2 : Vec Ideal S1x128 .f32) :
    k3_pay1 x a w1 w2 b1 b2
      = Cert.Gin.mlpRows (N := 5000) true a x w1 (Cert.Gin.rowVec b1) w2 (Cert.Gin.rowVec b2) := by
  funext j
  obtain ⟨r, q, rfl⟩ : ∃ (r : Fin 5000) (q : Fin 128), j = ix2 r q := ⟨j 0, j 1, eq_ix2 j⟩
  exact pay3_at x a w1 w2 b1 b2 r q

theorem pay5_at (x a : Vec Ideal S5000x128 .f32) (w1 w2 : Vec Ideal S128x128 .f32) (b1 b2 : Vec Ideal S1x128 .f32)
    (r : Fin 5000) (q : Fin 128) :
    k5_pay1 x a w1 w2 b1 b2 (ix2 r q)
      = Cert.Gin.newRow false (fun l => a (ix2 r l)) (fun l => x (ix2 r l)) w1 (fun k => b1 (ix2 (0 : Fin 1) k))
          w2 (fun k => b2 (ix2 (0 : Fin 1) k)) q := by
  unfold k5_pay1
  simp only [shapeCast_self, addf_apply, maximumf_apply, truncf_apply, broadcast_apply, matmul_at, bcast_at]
  have hz : (FloatOps.ofBits FTy.f32 0x00000000#32 : Ideal .f32) = (0 : EReal) := Ideal.ofBits_zero_f32
  simp only [hz]
  rfl

theorem pay5_eq (x a : Vec Ideal S5000x128 .f32) (w1 w2 : Vec Ideal S128x128 .f32) (b1 b2 : Vec Ideal S1x128 .f32) :
    k5_pay1 x a w1 w2 b1 b2
      = Cert.Gin.mlpRows (N := 5000) false a x w1 (Cert.Gin.rowVec b1) w2 (Cert.Gin.rowVec b2) := by
  funext j
  obtain ⟨r, q, rfl⟩ : ∃ (r : Fin 5000) (q : Fin 128), j = ix2 r q := ⟨j 0, j 1, eq_ix2 j⟩
  exact pay5_at x a w1 w2 b1 b2 r q

/-! ## Rows are independent

Entry (r, q) of the perceptron on a table depends on row r of the two tables only; so a tile of 5000 rows that
holds rows 5000·t … 5000·t + 4999 of two tables of 50000 rows is sent to the same rows of the perceptron of the
whole tables. -/

theorem mlpRows_rows (clamp : Bool) (A X : (⟨2, ![50000, 128]⟩ : Shape).Idx → EReal) (a x : (⟨2, ![5000, 128]⟩ : Shape).Idx → EReal)
    (w1 : S128x128.Idx → EReal) (b1 : S128.Idx → EReal) (w2 : S128x128.Idx → EReal) (b2 : S128.Idx → EReal)
    (r : Fin 5000) (R : Fin 50000) (q : Fin 128)
    (ha : ∀ l : Fin 128, a (ix2 r l) = A (ix2 R l)) (hx : ∀ l : Fin 128, x (ix2 r l) = X (ix2 R l)) :
    Cert.Gin.mlpRows (N := 5000) clamp a x w1 b1 w2 b2 (ix2 r q) = Cert.Gin.mlpRows (N := 50000) clamp A X w1 b1 w2 b2 (ix2 R q) := by
  show Cert.Gin.newRow clamp (fun l => a (ix2 r l)) (fun l => x (ix2 r l)) w1 _ w2 _ q
    = Cert.Gin.newRow clamp (fun l => A (ix2 R l)) (fun l => X (ix2 R l)) w1 _ w2 _ q
  rw [funext ha, funext hx]

end Cert.Gin.KMlp

end
-- ==== Proof.KMlp.lean ====
/-
  The three perceptron regions of the kernel program, each read as one function of the tables it finds.

  Each region runs the perceptron body over ten row tiles of 5000 rows: at point t the two table windows hold
  rows 5000·t … 5000·t + 4999 of agg and of x, the four parameter windows hold W₁, b₁, W₂, b₂ whole, and the
  body's result is written back to the same rows of the output table.  The body's result on a tile is the
  specification's row function applied row by row, and that function reads one row of agg and of x only; so
  what point t writes back is block t of the perceptron of the whole tables, and since the ten blocks cover
  the output table, the table ends holding it.
-/
import proofs.«126713_j16776142258451_1_alg».proof.Proof.Gen.KernelIdeal.Frame
import proofs.«126713_j16776142258451_1_alg».proof.Proof.Spec
import proofs.«126713_j16776142258451_1_alg».proof.Proof.KMlpTile
import Idealize.ShloMosaic.Lib.Pipeline.Value
import Idealize.ShloMosaic.Lib.ValueIdx
import Idealize.ShloMosaic.PureOps.Ideal.Laws

set_option maxRecDepth 16384

noncomputable section

namespace Cert.Gin.KMlp

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-! ## Region 1 -/

/-- What the body leaves in the output tile: the perceptron of the input tiles (window 0 holds agg, window 1 holds x). -/
theorem out1_eq (x0 x1 : Vec Ideal S5000x128 .f32) (x2 : Vec Ideal S128x128 .f32) (x3 : Vec Ideal S1x128 .f32)
    (x4 : Vec Ideal S128x128 .f32) (x5 : Vec Ideal S1x128 .f32) :
    out1_6 x0 x1 x2 x3 x4 x5
      = Cert.Gin.mlpRows (N := 5000) true x0 x1 x2 (Cert.Gin.rowVec x3) x4 (Cert.Gin.rowVec x5) := by
  unfold out1_6
  rw [View.canon_unit_zero hz]
  simp only [View.ld_unit_zero (S := S5000x128) hz, View.ld_unit_zero (S := S128x128) hz, View.ld_unit_zero (S := S1x128) hz]
  exact pay1_eq x1 x0 x2 x4 x3 x5

/-- The block indices over the grid: the two row-tile inputs and the output sit at block (t, 0), the four
    parameter windows at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Tile t of agg at (r, l) is agg at row 5000·t + r. -/
theorem agg1_at (c : Dev nD) (t : Fin cfg1.N) (r : Fin 5000) (l : Fin 128) (R : Fin 50000) (hR : R.val = 5000 * t.val + r.val) :
    (iblk1 (F := Ideal) V c 0 t : Vec Ideal S5000x128 .f32) (ix2 r l) = (V c main_v21 : S50000x128.Idx → EReal) (ix2 R l) := by
  obtain ⟨e0, e1, -⟩ := idx1 t
  unfold iblk1
  rw [View.read_apply]
  show V c main_v21 _ = V c main_v21 _
  refine congrArg (V c main_v21) (funext fun a => Fin.ext ?_)
  match a with
  | ⟨0, _⟩ => show win1_0.index t (0 : Fin 2) * 5000 + 1 * r.val = R.val; rw [e0, hR]; omega
  | ⟨1, _⟩ => show win1_0.index t (1 : Fin 2) * 128 + 1 * l.val = l.val; rw [e1]; omega

/-- Tile t of x at (r, l) is x at row 5000·t + r. -/
theorem x1_at (c : Dev nD) (t : Fin cfg1.N) (r : Fin 5000) (l : Fin 128) (R : Fin 50000) (hR : R.val = 5000 * t.val + r.val) :
    (iblk1 (F := Ideal) V c 1 t : Vec Ideal S5000x128 .f32) (ix2 r l) = (V c main_v10 : S50000x128.Idx → EReal) (ix2 R l) := by
  obtain ⟨-, -, e0, e1, -⟩ := idx1 t
  unfold iblk1
  rw [View.read_apply]
  show V c main_v10 _ = V c main_v10 _
  refine congrArg (V c main_v10) (funext fun a => Fin.ext ?_)
  match a with
  | ⟨0, _⟩ => show win1_1.index t (0 : Fin 2) * 5000 + 1 * r.val = R.val; rw [e0, hR]; omega
  | ⟨1, _⟩ => show win1_1.index t (1 : Fin 2) * 128 + 1 * l.val = l.val; rw [e1]; omega

/-- The parameter windows hold their whole arrays at every point. -/
theorem w1_1 (c : Dev nD) (t : Fin cfg1.N) :
    (iblk1 (F := Ideal) V c 2 t : Vec Ideal S128x128 .f32) = (V c main_v23 : S128x128.Idx → EReal) := by
  obtain ⟨-, -, -, -, e0, e1, -⟩ := idx1 t
  funext j
  unfold iblk1
  rw [View.read_apply]
  show V c main_v23 _ = V c main_v23 _
  refine congrArg (V c main_v23) (funext fun a => Fin.ext ?_)
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega
theorem b1_1 (c : Dev nD) (t : Fin cfg1.N) :
    (iblk1 (F := Ideal) V c 3 t : Vec Ideal S1x128 .f32) = (V c main_v26 : S1x128.Idx → EReal) := by
  obtain ⟨-, -, -, -, -, -, e0, e1, -⟩ := idx1 t
  funext j
  unfold iblk1
  rw [View.read_apply]
  show V c main_v26 _ = V c main_v26 _
  refine congrArg (V c main_v26) (funext fun a => Fin.ext ?_)
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega
theorem w2_1 (c : Dev nD) (t : Fin cfg1.N) :
    (iblk1 (F := Ideal) V c 4 t : Vec Ideal S128x128 .f32) = (V c main_v28 : S128x128.Idx → EReal) := by
  obtain ⟨-, -, -, -, -, -, -, -, e0, e1, -⟩ := idx1 t
  funext j
  unfold iblk1
  rw [View.read_apply]
  show V c main_v28 _ = V c main_v28 _
  refine congrArg (V c main_v28) (funext fun a => Fin.ext ?_)
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega
theorem b2_1 (c : Dev nD) (t : Fin cfg1.N) :
    (iblk1 (F := Ideal) V c 5 t : Vec Ideal S1x128 .f32) = (V c main_v31 : S1x128.Idx → EReal) := by
  obtain ⟨-, -, -, -, -, -, -, -, -, -, e0, e1, -⟩ := idx1 t
  funext j
  unfold iblk1
  rw [View.read_apply]
  show V c main_v31 _ = V c main_v31 _
  refine congrArg (V c main_v31) (funext fun a => Fin.ext ?_)
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

/-- A tile whose row r is row 5000·t + r of a table is what the output window's block t reads off that table. -/
theorem block1_of_rows (G : S50000x128.Idx → EReal) (Y : S5000x128.Idx → EReal) (t : Fin cfg1.N)
    (h : ∀ (r : Fin 5000) (q : Fin 128) (R : Fin 50000), R.val = 5000 * t.val + r.val → Y (ix2 r q) = G (ix2 R q)) :
    (cfg1.win 6).cut (grid1.coords t) Y = ((cfg1.win 6).blk t).view.read (Elt Ideal) G := by
  obtain ⟨-, -, -, -, -, -, -, -, -, -, -, -, e0, e1⟩ := idx1 t
  funext j
  rw [View.read_apply]
  have hj0 : (j 0).val < 5000 := (j 0).isLt
  have hj1 : (j 1).val < 128 := (j 1).isLt
  have hN : t.val < 10 := Nat.lt_of_lt_of_eq t.isLt N_1
  have key := h ⟨(j 0).val, hj0⟩ ⟨(j 1).val, hj1⟩ ⟨5000 * t.val + (j 0).val, by omega⟩ rfl
  show Y _ = G _
  have el : (cfg1.win 6).xinj (grid1.coords t) j = ix2 (⟨(j 0).val, hj0⟩ : Fin 5000) (⟨(j 1).val, hj1⟩ : Fin 128) :=
    funext fun a => Fin.ext (by
      match a with
      | ⟨0, _⟩ => rfl
      | ⟨1, _⟩ => rfl)
  have er : ((cfg1.win 6).blk t).view.emb j
      = ix2 (⟨5000 * t.val + (j 0).val, by omega⟩ : Fin 50000) (⟨(j 1).val, hj1⟩ : Fin 128) :=
    funext fun a => Fin.ext (by
      match a with
      | ⟨0, _⟩ => show win1_6.index t (0 : Fin 2) * 5000 + 1 * (j 0).val = 5000 * t.val + (j 0).val; rw [e0]; omega
      | ⟨1, _⟩ => show win1_6.index t (1 : Fin 2) * 128 + 1 * (j 1).val = (j 1).val; rw [e1]; omega)
  rw [el, er]
  exact key

/-- What point t writes back is block t of the perceptron of the whole tables. -/
theorem flushed1 (c : Dev nD) (t : Fin cfg1.N) :
    (dat1 (F := Ideal) V c).flushed 6 t
      = ((cfg1.win 6).blk t).view.read (Elt Ideal)
          (Cert.Gin.mlpRows (N := 50000) true (V c main_v21) (V c main_v10) (V c main_v23) (Cert.Gin.rowVec (V c main_v26))
            (V c main_v28) (Cert.Gin.rowVec (V c main_v31))) := by
  show (cfg1.win 6).cut (grid1.coords t) ((dat1 V c).after 6 t) = _
  rw [after1_6, out1_eq, w1_1, b1_1, w2_1, b2_1]
  refine block1_of_rows _ _ t fun r q R hR => ?_
  exact mlpRows_rows true _ _ _ _ _ _ _ _ r R q (fun l => agg1_at V c t r l R hR) (fun l => x1_at V c t r l R hR)

/-- An index of the output table lies in point t's block iff each coordinate lies in the block's range. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v32).slice (win1_6.rect t)).set ↔ _
  rw [View.set_slice_whole, Rect.mem_set_unit]
  exact Iff.rfl

/-- Row r of the output table is written by point r / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1⟩ := idx1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

theorem region1 (c : Dev nD) :
    (dat1 (F := Ideal) V c).arrAt 6 cfg1.N
      = Cert.Gin.mlpRows (N := 50000) true (V c main_v21) (V c main_v10) (V c main_v23) (Cert.Gin.rowVec (V c main_v26))
          (V c main_v28) (Cert.Gin.rowVec (V c main_v31)) :=
  (dat1 (F := Ideal) V c).arrAt_eq_of_cover 6 _ (fun t _ => flushed1 V c t) cover1

/-! ## Region 3 -/

/-- What the body leaves in the output tile: the perceptron of the input tiles (window 0 holds agg, window 1 holds x). -/
theorem out3_eq (x0 x1 : Vec Ideal S5000x128 .f32) (x2 : Vec Ideal S128x128 .f32) (x3 : Vec Ideal S1x128 .f32)
    (x4 : Vec Ideal S128x128 .f32) (x5 : Vec Ideal S1x128 .f32) :
    out3_6 x0 x1 x2 x3 x4 x5
      = Cert.Gin.mlpRows (N := 5000) true x0 x1 x2 (Cert.Gin.rowVec x3) x4 (Cert.Gin.rowVec x5) := by
  unfold out3_6
  rw [View.canon_unit_zero hz]
  simp only [View.ld_unit_zero (S := S5000x128) hz, View.ld_unit_zero (S := S128x128) hz, View.ld_unit_zero (S := S1x128) hz]
  exact pay3_eq x1 x0 x2 x4 x3 x5

/-- The block indices over the grid: the two row-tile inputs and the output sit at block (t, 0), the four
    parameter windows at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Tile t of agg at (r, l) is agg at row 5000·t + r. -/
theorem agg3_at (c : Dev nD) (t : Fin cfg3.N) (r : Fin 5000) (l : Fin 128) (R : Fin 50000) (hR : R.val = 5000 * t.val + r.val) :
    (iblk3 (F := Ideal) V c 0 t : Vec Ideal S5000x128 .f32) (ix2 r l) = (V c main_v43 : S50000x128.Idx → EReal) (ix2 R l) := by
  obtain ⟨e0, e1, -⟩ := idx3 t
  unfold iblk3
  rw [View.read_apply]
  show V c main_v43 _ = V c main_v43 _
  refine congrArg (V c main_v43) (funext fun a => Fin.ext ?_)
  match a with
  | ⟨0, _⟩ => show win3_0.index t (0 : Fin 2) * 5000 + 1 * r.val = R.val; rw [e0, hR]; omega
  | ⟨1, _⟩ => show win3_0.index t (1 : Fin 2) * 128 + 1 * l.val = l.val; rw [e1]; omega

/-- Tile t of x at (r, l) is x at row 5000·t + r. -/
theorem x3_at (c : Dev nD) (t : Fin cfg3.N) (r : Fin 5000) (l : Fin 128) (R : Fin 50000) (hR : R.val = 5000 * t.val + r.val) :
    (iblk3 (F := Ideal) V c 1 t : Vec Ideal S5000x128 .f32) (ix2 r l) = (V c main_v32 : S50000x128.Idx → EReal) (ix2 R l) := by
  obtain ⟨-, -, e0, e1, -⟩ := idx3 t
  unfold iblk3
  rw [View.read_apply]
  show V c main_v32 _ = V c main_v32 _
  refine congrArg (V c main_v32) (funext fun a => Fin.ext ?_)
  match a with
  | ⟨0, _⟩ => show win3_1.index t (0 : Fin 2) * 5000 + 1 * r.val = R.val; rw [e0, hR]; omega
  | ⟨1, _⟩ => show win3_1.index t (1 : Fin 2) * 128 + 1 * l.val = l.val; rw [e1]; omega

/-- The parameter windows hold their whole arrays at every point. -/
theorem w1_3 (c : Dev nD) (t : Fin cfg3.N) :
    (iblk3 (F := Ideal) V c 2 t : Vec Ideal S128x128 .f32) = (V c main_v45 : S128x128.Idx → EReal) := by
  obtain ⟨-, -, -, -, e0, e1, -⟩ := idx3 t
  funext j
  unfold iblk3
  rw [View.read_apply]
  show V c main_v45 _ = V c main_v45 _
  refine congrArg (V c main_v45) (funext fun a => Fin.ext ?_)
  match a with
  | ⟨0, _⟩ => show win3_2.index t (0 : Fin 2) * 128 + 1 * (j 0).val = (j 0).val; rw [e0]; omega
  | ⟨1, _⟩ => show win3_2.index t (1 : Fin 2) * 128 + 1 * (j 1).val = (j 1).val; rw [e1]; omega
theorem b1_3 (c : Dev nD) (t : Fin cfg3.N) :
    (iblk3 (F := Ideal) V c 3 t : Vec Ideal S1x128 .f32) = (V c main_v48 : S1x128.Idx → EReal) := by
  obtain ⟨-, -, -, -, -, -, e0, e1, -⟩ := idx3 t
  funext j
  unfold iblk3
  rw [View.read_apply]
  show V c main_v48 _ = V c main_v48 _
  refine congrArg (V c main_v48) (funext fun a => Fin.ext ?_)
  match a with
  | ⟨0, _⟩ => show win3_3.index t (0 : Fin 2) * 1 + 1 * (j 0).val = (j 0).val; rw [e0]; omega
  | ⟨1, _⟩ => show win3_3.index t (1 : Fin 2) * 128 + 1 * (j 1).val = (j 1).val; rw [e1]; omega
theorem w2_3 (c : Dev nD) (t : Fin cfg3.N) :
    (iblk3 (F := Ideal) V c 4 t : Vec Ideal S128x128 .f32) = (V c main_v50 : S128x128.Idx → EReal) := by
  obtain ⟨-, -, -, -, -, -, -, -, e0, e1, -⟩ := idx3 t
  funext j
  unfold iblk3
  rw [View.read_apply]
  show V c main_v50 _ = V c main_v50 _
  refine congrArg (V c main_v50) (funext fun a => Fin.ext ?_)
  match a with
  | ⟨0, _⟩ => show win3_4.index t (0 : Fin 2) * 128 + 1 * (j 0).val = (j 0).val; rw [e0]; omega
  | ⟨1, _⟩ => show win3_4.index t (1 : Fin 2) * 128 + 1 * (j 1).val = (j 1).val; rw [e1]; omega
theorem b2_3 (c : Dev nD) (t : Fin cfg3.N) :
    (iblk3 (F := Ideal) V c 5 t : Vec Ideal S1x128 .f32) = (V c main_v53 : S1x128.Idx → EReal) := by
  obtain ⟨-, -, -, -, -, -, -, -, -, -, e0, e1, -⟩ := idx3 t
  funext j
  unfold iblk3
  rw [View.read_apply]
  show V c main_v53 _ = V c main_v53 _
  refine congrArg (V c main_v53) (funext fun a => Fin.ext ?_)
  match a with
  | ⟨0, _⟩ => show win3_5.index t (0 : Fin 2) * 1 + 1 * (j 0).val = (j 0).val; rw [e0]; omega
  | ⟨1, _⟩ => show win3_5.index t (1 : Fin 2) * 128 + 1 * (j 1).val = (j 1).val; rw [e1]; omega

/-- A tile whose row r is row 5000·t + r of a table is what the output window's block t reads off that table. -/
theorem block3_of_rows (G : S50000x128.Idx → EReal) (Y : S5000x128.Idx → EReal) (t : Fin cfg3.N)
    (h : ∀ (r : Fin 5000) (q : Fin 128) (R : Fin 50000), R.val = 5000 * t.val + r.val → Y (ix2 r q) = G (ix2 R q)) :
    (cfg3.win 6).cut (grid3.coords t) Y = ((cfg3.win 6).blk t).view.read (Elt Ideal) G := by
  obtain ⟨-, -, -, -, -, -, -, -, -, -, -, -, e0, e1⟩ := idx3 t
  funext j
  rw [View.read_apply]
  have hj0 : (j 0).val < 5000 := (j 0).isLt
  have hj1 : (j 1).val < 128 := (j 1).isLt
  have hN : t.val < 10 := Nat.lt_of_lt_of_eq t.isLt N_3
  have key := h ⟨(j 0).val, hj0⟩ ⟨(j 1).val, hj1⟩ ⟨5000 * t.val + (j 0).val, by omega⟩ rfl
  show Y _ = G _
  have el : (cfg3.win 6).xinj (grid3.coords t) j = ix2 (⟨(j 0).val, hj0⟩ : Fin 5000) (⟨(j 1).val, hj1⟩ : Fin 128) :=
    funext fun a => Fin.ext (by
      match a with
      | ⟨0, _⟩ => rfl
      | ⟨1, _⟩ => rfl)
  have er : ((cfg3.win 6).blk t).view.emb j
      = ix2 (⟨5000 * t.val + (j 0).val, by omega⟩ : Fin 50000) (⟨(j 1).val, hj1⟩ : Fin 128) :=
    funext fun a => Fin.ext (by
      match a with
      | ⟨0, _⟩ => show win3_6.index t (0 : Fin 2) * 5000 + 1 * (j 0).val = 5000 * t.val + (j 0).val; rw [e0]; omega
      | ⟨1, _⟩ => show win3_6.index t (1 : Fin 2) * 128 + 1 * (j 1).val = (j 1).val; rw [e1]; omega)
  rw [el, er]
  exact key

/-- What point t writes back is block t of the perceptron of the whole tables. -/
theorem flushed3 (c : Dev nD) (t : Fin cfg3.N) :
    (dat3 (F := Ideal) V c).flushed 6 t
      = ((cfg3.win 6).blk t).view.read (Elt Ideal)
          (Cert.Gin.mlpRows (N := 50000) true (V c main_v43) (V c main_v32) (V c main_v45) (Cert.Gin.rowVec (V c main_v48))
            (V c main_v50) (Cert.Gin.rowVec (V c main_v53))) := by
  show (cfg3.win 6).cut (grid3.coords t) ((dat3 V c).after 6 t) = _
  rw [after3_6, out3_eq, w1_3, b1_3, w2_3, b2_3]
  refine block3_of_rows _ _ t fun r q R hR => ?_
  exact mlpRows_rows true _ _ _ _ _ _ _ _ r R q (fun l => agg3_at V c t r l R hR) (fun l => x3_at V c t r l R hR)

/-- An index of the output table lies in point t's block iff each coordinate lies in the block's range. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v54).slice (win3_6.rect t)).set ↔ _
  rw [View.set_slice_whole, Rect.mem_set_unit]
  exact Iff.rfl

/-- Row r of the output table is written by point r / 5000. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, -, -, e0, e1⟩ := idx3 t
  refine ⟨t, flush3_6 t, ?_⟩
  rw [mem_blk3]
  intro a
  match a with
  | ⟨0, _⟩ =>
    show win3_6.index t (0 : Fin 2) * 5000 ≤ (i 0).val ∧ (i 0).val < win3_6.index t (0 : Fin 2) * 5000 + 5000
    rw [e0, ht]; omega
  | ⟨1, _⟩ =>
    show win3_6.index t (1 : Fin 2) * 128 ≤ (i 1).val ∧ (i 1).val < win3_6.index t (1 : Fin 2) * 128 + 128
    rw [e1]; omega

theorem region3 (c : Dev nD) :
    (dat3 (F := Ideal) V c).arrAt 6 cfg3.N
      = Cert.Gin.mlpRows (N := 50000) true (V c main_v43) (V c main_v32) (V c main_v45) (Cert.Gin.rowVec (V c main_v48))
          (V c main_v50) (Cert.Gin.rowVec (V c main_v53)) :=
  (dat3 (F := Ideal) V c).arrAt_eq_of_cover 6 _ (fun t _ => flushed3 V c t) cover3

/-! ## Region 5 -/

/-- What the body leaves in the output tile: the perceptron of the input tiles (window 0 holds agg, window 1 holds x). -/
theorem out5_eq (x0 x1 : Vec Ideal S5000x128 .f32) (x2 : Vec Ideal S128x128 .f32) (x3 : Vec Ideal S1x128 .f32)
    (x4 : Vec Ideal S128x128 .f32) (x5 : Vec Ideal S1x128 .f32) :
    out5_6 x0 x1 x2 x3 x4 x5
      = Cert.Gin.mlpRows (N := 5000) false x0 x1 x2 (Cert.Gin.rowVec x3) x4 (Cert.Gin.rowVec x5) := by
  unfold out5_6
  rw [View.canon_unit_zero hz]
  simp only [View.ld_unit_zero (S := S5000x128) hz, View.ld_unit_zero (S := S128x128) hz, View.ld_unit_zero (S := S1x128) hz]
  exact pay5_eq x1 x0 x2 x4 x3 x5

/-- The block indices over the grid: the two row-tile inputs and the output sit at block (t, 0), the four
    parameter windows at block (0, 0). -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Tile t of agg at (r, l) is agg at row 5000·t + r. -/
theorem agg5_at (c : Dev nD) (t : Fin cfg5.N) (r : Fin 5000) (l : Fin 128) (R : Fin 50000) (hR : R.val = 5000 * t.val + r.val) :
    (iblk5 (F := Ideal) V c 0 t : Vec Ideal S5000x128 .f32) (ix2 r l) = (V c main_v65 : S50000x128.Idx → EReal) (ix2 R l) := by
  obtain ⟨e0, e1, -⟩ := idx5 t
  unfold iblk5
  rw [View.read_apply]
  show V c main_v65 _ = V c main_v65 _
  refine congrArg (V c main_v65) (funext fun a => Fin.ext ?_)
  match a with
  | ⟨0, _⟩ => show win5_0.index t (0 : Fin 2) * 5000 + 1 * r.val = R.val; rw [e0, hR]; omega
  | ⟨1, _⟩ => show win5_0.index t (1 : Fin 2) * 128 + 1 * l.val = l.val; rw [e1]; omega

/-- Tile t of x at (r, l) is x at row 5000·t + r. -/
theorem x5_at (c : Dev nD) (t : Fin cfg5.N) (r : Fin 5000) (l : Fin 128) (R : Fin 50000) (hR : R.val = 5000 * t.val + r.val) :
    (iblk5 (F := Ideal) V c 1 t : Vec Ideal S5000x128 .f32) (ix2 r l) = (V c main_v54 : S50000x128.Idx → EReal) (ix2 R l) := by
  obtain ⟨-, -, e0, e1, -⟩ := idx5 t
  unfold iblk5
  rw [View.read_apply]
  show V c main_v54 _ = V c main_v54 _
  refine congrArg (V c main_v54) (funext fun a => Fin.ext ?_)
  match a with
  | ⟨0, _⟩ => show win5_1.index t (0 : Fin 2) * 5000 + 1 * r.val = R.val; rw [e0, hR]; omega
  | ⟨1, _⟩ => show win5_1.index t (1 : Fin 2) * 128 + 1 * l.val = l.val; rw [e1]; omega

/-- The parameter windows hold their whole arrays at every point. -/
theorem w1_5 (c : Dev nD) (t : Fin cfg5.N) :
    (iblk5 (F := Ideal) V c 2 t : Vec Ideal S128x128 .f32) = (V c main_v67 : S128x128.Idx → EReal) := by
  obtain ⟨-, -, -, -, e0, e1, -⟩ := idx5 t
  funext j
  unfold iblk5
  rw [View.read_apply]
  show V c main_v67 _ = V c main_v67 _
  refine congrArg (V c main_v67) (funext fun a => Fin.ext ?_)
  match a with
  | ⟨0, _⟩ => show win5_2.index t (0 : Fin 2) * 128 + 1 * (j 0).val = (j 0).val; rw [e0]; omega
  | ⟨1, _⟩ => show win5_2.index t (1 : Fin 2) * 128 + 1 * (j 1).val = (j 1).val; rw [e1]; omega
theorem b1_5 (c : Dev nD) (t : Fin cfg5.N) :
    (iblk5 (F := Ideal) V c 3 t : Vec Ideal S1x128 .f32) = (V c main_v70 : S1x128.Idx → EReal) := by
  obtain ⟨-, -, -, -, -, -, e0, e1, -⟩ := idx5 t
  funext j
  unfold iblk5
  rw [View.read_apply]
  show V c main_v70 _ = V c main_v70 _
  refine congrArg (V c main_v70) (funext fun a => Fin.ext ?_)
  match a with
  | ⟨0, _⟩ => show win5_3.index t (0 : Fin 2) * 1 + 1 * (j 0).val = (j 0).val; rw [e0]; omega
  | ⟨1, _⟩ => show win5_3.index t (1 : Fin 2) * 128 + 1 * (j 1).val = (j 1).val; rw [e1]; omega
theorem w2_5 (c : Dev nD) (t : Fin cfg5.N) :
    (iblk5 (F := Ideal) V c 4 t : Vec Ideal S128x128 .f32) = (V c main_v72 : S128x128.Idx → EReal) := by
  obtain ⟨-, -, -, -, -, -, -, -, e0, e1, -⟩ := idx5 t
  funext j
  unfold iblk5
  rw [View.read_apply]
  show V c main_v72 _ = V c main_v72 _
  refine congrArg (V c main_v72) (funext fun a => Fin.ext ?_)
  match a with
  | ⟨0, _⟩ => show win5_4.index t (0 : Fin 2) * 128 + 1 * (j 0).val = (j 0).val; rw [e0]; omega
  | ⟨1, _⟩ => show win5_4.index t (1 : Fin 2) * 128 + 1 * (j 1).val = (j 1).val; rw [e1]; omega
theorem b2_5 (c : Dev nD) (t : Fin cfg5.N) :
    (iblk5 (F := Ideal) V c 5 t : Vec Ideal S1x128 .f32) = (V c main_v75 : S1x128.Idx → EReal) := by
  obtain ⟨-, -, -, -, -, -, -, -, -, -, e0, e1, -⟩ := idx5 t
  funext j
  unfold iblk5
  rw [View.read_apply]
  show V c main_v75 _ = V c main_v75 _
  refine congrArg (V c main_v75) (funext fun a => Fin.ext ?_)
  match a with
  | ⟨0, _⟩ => show win5_5.index t (0 : Fin 2) * 1 + 1 * (j 0).val = (j 0).val; rw [e0]; omega
  | ⟨1, _⟩ => show win5_5.index t (1 : Fin 2) * 128 + 1 * (j 1).val = (j 1).val; rw [e1]; omega

/-- A tile whose row r is row 5000·t + r of a table is what the output window's block t reads off that table. -/
theorem block5_of_rows (G : S50000x128.Idx → EReal) (Y : S5000x128.Idx → EReal) (t : Fin cfg5.N)
    (h : ∀ (r : Fin 5000) (q : Fin 128) (R : Fin 50000), R.val = 5000 * t.val + r.val → Y (ix2 r q) = G (ix2 R q)) :
    (cfg5.win 6).cut (grid5.coords t) Y = ((cfg5.win 6).blk t).view.read (Elt Ideal) G := by
  obtain ⟨-, -, -, -, -, -, -, -, -, -, -, -, e0, e1⟩ := idx5 t
  funext j
  rw [View.read_apply]
  have hj0 : (j 0).val < 5000 := (j 0).isLt
  have hj1 : (j 1).val < 128 := (j 1).isLt
  have hN : t.val < 10 := Nat.lt_of_lt_of_eq t.isLt N_5
  have key := h ⟨(j 0).val, hj0⟩ ⟨(j 1).val, hj1⟩ ⟨5000 * t.val + (j 0).val, by omega⟩ rfl
  show Y _ = G _
  have el : (cfg5.win 6).xinj (grid5.coords t) j = ix2 (⟨(j 0).val, hj0⟩ : Fin 5000) (⟨(j 1).val, hj1⟩ : Fin 128) :=
    funext fun a => Fin.ext (by
      match a with
      | ⟨0, _⟩ => rfl
      | ⟨1, _⟩ => rfl)
  have er : ((cfg5.win 6).blk t).view.emb j
      = ix2 (⟨5000 * t.val + (j 0).val, by omega⟩ : Fin 50000) (⟨(j 1).val, hj1⟩ : Fin 128) :=
    funext fun a => Fin.ext (by
      match a with
      | ⟨0, _⟩ => show win5_6.index t (0 : Fin 2) * 5000 + 1 * (j 0).val = 5000 * t.val + (j 0).val; rw [e0]; omega
      | ⟨1, _⟩ => show win5_6.index t (1 : Fin 2) * 128 + 1 * (j 1).val = (j 1).val; rw [e1]; omega)
  rw [el, er]
  exact key

/-- What point t writes back is block t of the perceptron of the whole tables. -/
theorem flushed5 (c : Dev nD) (t : Fin cfg5.N) :
    (dat5 (F := Ideal) V c).flushed 6 t
      = ((cfg5.win 6).blk t).view.read (Elt Ideal)
          (Cert.Gin.mlpRows (N := 50000) false (V c main_v65) (V c main_v54) (V c main_v67) (Cert.Gin.rowVec (V c main_v70))
            (V c main_v72) (Cert.Gin.rowVec (V c main_v75))) := by
  show (cfg5.win 6).cut (grid5.coords t) ((dat5 V c).after 6 t) = _
  rw [after5_6, out5_eq, w1_5, b1_5, w2_5, b2_5]
  refine block5_of_rows _ _ t fun r q R hR => ?_
  exact mlpRows_rows false _ _ _ _ _ _ _ _ r R q (fun l => agg5_at V c t r l R hR) (fun l => x5_at V c t r l R hR)

/-- An index of the output table lies in point t's block iff each coordinate lies in the block's range. -/
theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v76).slice (win5_6.rect t)).set ↔ _
  rw [View.set_slice_whole, Rect.mem_set_unit]
  exact Iff.rfl

/-- Row r of the output table is written by point r / 5000. -/
theorem cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, -, -, e0, e1⟩ := idx5 t
  refine ⟨t, flush5_6 t, ?_⟩
  rw [mem_blk5]
  intro a
  match a with
  | ⟨0, _⟩ =>
    show win5_6.index t (0 : Fin 2) * 5000 ≤ (i 0).val ∧ (i 0).val < win5_6.index t (0 : Fin 2) * 5000 + 5000
    rw [e0, ht]; omega
  | ⟨1, _⟩ =>
    show win5_6.index t (1 : Fin 2) * 128 ≤ (i 1).val ∧ (i 1).val < win5_6.index t (1 : Fin 2) * 128 + 128
    rw [e1]; omega

theorem region5 (c : Dev nD) :
    (dat5 (F := Ideal) V c).arrAt 6 cfg5.N
      = Cert.Gin.mlpRows (N := 50000) false (V c main_v65) (V c main_v54) (V c main_v67) (Cert.Gin.rowVec (V c main_v70))
          (V c main_v72) (Cert.Gin.rowVec (V c main_v75)) :=
  (dat5 (F := Ideal) V c).arrAt_eq_of_cover 6 _ (fun t _ => flushed5 V c t) cover5

end Cert.Gin.KMlp

end
-- ==== Proof.KWalk.lean ====
/-
  The kernel program's buffers, boundary by boundary.

  The program alternates six stretches of host operations with six tiled regions.  Following the
  buffers that matter from the launch to the return: the source and destination rows of the edge
  list and the embedded node table after the first stretch; then, per layer, the gathered source
  rows (a host stretch), the edge messages (a region), the per-node sums and the layer's sliced
  parameters (a host stretch), and the new node table (a region).  A buffer that a segment does not
  write keeps its contents across it.  At the return the result buffer holds the network function
  of the eight argument arrays.
-/
import proofs.«126713_j16776142258451_1_alg».proof.Proof.Gen.KernelIdeal.Frame
import proofs.«126713_j16776142258451_1_alg».proof.Proof.Spec
import proofs.«126713_j16776142258451_1_alg».proof.Proof.KHost
import proofs.«126713_j16776142258451_1_alg».proof.Proof.KMsg
import proofs.«126713_j16776142258451_1_alg».proof.Proof.KMlp

set_option maxRecDepth 16384

noncomputable section

namespace Cert.Gin.KWalk

open Cert.KernelIdeal Cert.KernelIdeal.Gen
open Idealize.ShloMosaic Idealize.ShloMosaic.TcCoe Idealize.SL.Sem

variable [Cert.ReferenceIdeal.Facts]
variable (m : (ℓ : Loc nD τ sig) → Buf (Elt Ideal) ℓ) (ρ : Dev nD → PrngReg) (c : Dev nD)

/-! ## The values along the way, as functions of the launch memory -/

/-- The source and destination rows of the edge list, and the edge features. -/
def S : (⟨Cert.ReferenceIdeal.S640000, .i32⟩ : BufTy).Contents (Elt Ideal) := Cert.Gin.srcRow (F := Ideal) (m ((c : Thread nD τ).loc main_arg1))
def Dn : (⟨Cert.ReferenceIdeal.S640000, .i32⟩ : BufTy).Contents (Elt Ideal) := Cert.Gin.dstRow (F := Ideal) (m ((c : Thread nD τ).loc main_arg1))
/-- The node table before layer 0, 1, 2 and at the end. -/
def X0 : Cert.ReferenceIdeal.S50000x128.Idx → EReal := Cert.Gin.embed (F := Ideal) (m ((c : Thread nD τ).loc main_arg0)) (m ((c : Thread nD τ).loc main_arg3))
def X1 : Cert.ReferenceIdeal.S50000x128.Idx → EReal :=
  Cert.Gin.layer true (X0 m c) (S m c) (Dn m c) (m ((c : Thread nD τ).loc main_arg2)) (Cert.Gin.wOf0 (F := Ideal) (m ((c : Thread nD τ).loc main_arg4))) (Cert.Gin.bOf0 (F := Ideal) (m ((c : Thread nD τ).loc main_arg5)))
    (Cert.Gin.wOf0 (F := Ideal) (m ((c : Thread nD τ).loc main_arg6))) (Cert.Gin.bOf0 (F := Ideal) (m ((c : Thread nD τ).loc main_arg7)))
def X2 : Cert.ReferenceIdeal.S50000x128.Idx → EReal :=
  Cert.Gin.layer true (X1 m c) (S m c) (Dn m c) (m ((c : Thread nD τ).loc main_arg2)) (Cert.Gin.wOf1 (F := Ideal) (m ((c : Thread nD τ).loc main_arg4))) (Cert.Gin.bOf1 (F := Ideal) (m ((c : Thread nD τ).loc main_arg5)))
    (Cert.Gin.wOf1 (F := Ideal) (m ((c : Thread nD τ).loc main_arg6))) (Cert.Gin.bOf1 (F := Ideal) (m ((c : Thread nD τ).loc main_arg7)))
def X3 : Cert.ReferenceIdeal.S50000x128.Idx → EReal :=
  Cert.Gin.layer false (X2 m c) (S m c) (Dn m c) (m ((c : Thread nD τ).loc main_arg2)) (Cert.Gin.wOf2 (F := Ideal) (m ((c : Thread nD τ).loc main_arg4))) (Cert.Gin.bOf2 (F := Ideal) (m ((c : Thread nD τ).loc main_arg5)))
    (Cert.Gin.wOf2 (F := Ideal) (m ((c : Thread nD τ).loc main_arg6))) (Cert.Gin.bOf2 (F := Ideal) (m ((c : Thread nD τ).loc main_arg7)))
/-- The edge messages and the per-node sums of layer k, from the node table before it. -/
def Msg (x : Cert.ReferenceIdeal.S50000x128.Idx → EReal) : Cert.ReferenceIdeal.S640000x128.Idx → EReal :=
  Cert.Gin.msgOf (F := Ideal) (Cert.Gin.gatherSrc (F := Ideal) x (S m c)) (m ((c : Thread nD τ).loc main_arg2))
def Agg (x : Cert.ReferenceIdeal.S50000x128.Idx → EReal) : Cert.ReferenceIdeal.S50000x128.Idx → EReal :=
  Cert.Gin.aggOf (F := Ideal) (Dn m c) (Msg m c x)

theorem X3_eq_net : X3 m c = Cert.Gin.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := rfl

/-! ## After the first host stretch -/

theorem W1_arg2 : W1 (F := Ideal) m ρ c (Proc.devRef .tc main_arg2) = (m ((c : Thread nD τ).loc main_arg2)) :=
  (Cert.Gin.KHost.keep0_arg2 (W0 (F := Ideal) m ρ c)).trans rfl

theorem W1_arg4 : W1 (F := Ideal) m ρ c (Proc.devRef .tc main_arg4) = (m ((c : Thread nD τ).loc main_arg4)) :=
  (Cert.Gin.KHost.keep0_arg4 (W0 (F := Ideal) m ρ c)).trans rfl

theorem W1_arg5 : W1 (F := Ideal) m ρ c (Proc.devRef .tc main_arg5) = (m ((c : Thread nD τ).loc main_arg5)) :=
  (Cert.Gin.KHost.keep0_arg5 (W0 (F := Ideal) m ρ c)).trans rfl

theorem W1_arg6 : W1 (F := Ideal) m ρ c (Proc.devRef .tc main_arg6) = (m ((c : Thread nD τ).loc main_arg6)) :=
  (Cert.Gin.KHost.keep0_arg6 (W0 (F := Ideal) m ρ c)).trans rfl

theorem W1_arg7 : W1 (F := Ideal) m ρ c (Proc.devRef .tc main_arg7) = (m ((c : Thread nD τ).loc main_arg7)) :=
  (Cert.Gin.KHost.keep0_arg7 (W0 (F := Ideal) m ρ c)).trans rfl

theorem W1_v1 : W1 (F := Ideal) m ρ c (Proc.devRef .tc main_v1) = S m c :=
  (Cert.Gin.KHost.host0_v1 (W0 (F := Ideal) m ρ c)).trans rfl

theorem W1_v3 : W1 (F := Ideal) m ρ c (Proc.devRef .tc main_v3) = Dn m c :=
  (Cert.Gin.KHost.host0_v3 (W0 (F := Ideal) m ρ c)).trans rfl

theorem W1_v10 : W1 (F := Ideal) m ρ c (Proc.devRef .tc main_v10) = X0 m c :=
  (Cert.Gin.KHost.host0_v10 (W0 (F := Ideal) m ρ c)).trans rfl

theorem W1_v17 : W1 (F := Ideal) m ρ c (Proc.devRef .tc main_v17) = Cert.Gin.gatherSrc (F := Ideal) (X0 m c) (S m c) :=
  (Cert.Gin.KHost.host0_v17 (W0 (F := Ideal) m ρ c)).trans rfl

/-! ## Layer 0: the message region (region 0) -/

theorem W2_v18 : W2 (F := Ideal) m ρ c (Proc.devRef .tc main_v18) = Msg m c (X0 m c) :=
  (W2_arr m ρ c 2).trans ((Cert.Gin.KMsg.region0 (V1 (F := Ideal) m ρ) c).trans
    (congrArg₂ (Cert.Gin.msgOf (F := Ideal)) (W1_v17 m ρ c) (W1_arg2 m ρ c)))

theorem W2_v3 : W2 (F := Ideal) m ρ c (Proc.devRef .tc main_v3) = Dn m c :=
  (W2_of_ne m ρ c main_v3 (by decide)).trans (W1_v3 m ρ c)

theorem W2_v10 : W2 (F := Ideal) m ρ c (Proc.devRef .tc main_v10) = X0 m c :=
  (W2_of_ne m ρ c main_v10 (by decide)).trans (W1_v10 m ρ c)

theorem W2_arg4 : W2 (F := Ideal) m ρ c (Proc.devRef .tc main_arg4) = (m ((c : Thread nD τ).loc main_arg4)) :=
  (W2_of_ne m ρ c main_arg4 (by decide)).trans (W1_arg4 m ρ c)

theorem W2_arg5 : W2 (F := Ideal) m ρ c (Proc.devRef .tc main_arg5) = (m ((c : Thread nD τ).loc main_arg5)) :=
  (W2_of_ne m ρ c main_arg5 (by decide)).trans (W1_arg5 m ρ c)

theorem W2_arg6 : W2 (F := Ideal) m ρ c (Proc.devRef .tc main_arg6) = (m ((c : Thread nD τ).loc main_arg6)) :=
  (W2_of_ne m ρ c main_arg6 (by decide)).trans (W1_arg6 m ρ c)

theorem W2_arg7 : W2 (F := Ideal) m ρ c (Proc.devRef .tc main_arg7) = (m ((c : Thread nD τ).loc main_arg7)) :=
  (W2_of_ne m ρ c main_arg7 (by decide)).trans (W1_arg7 m ρ c)

theorem W2_v1 : W2 (F := Ideal) m ρ c (Proc.devRef .tc main_v1) = S m c :=
  (W2_of_ne m ρ c main_v1 (by decide)).trans (W1_v1 m ρ c)

theorem W2_arg2 : W2 (F := Ideal) m ρ c (Proc.devRef .tc main_arg2) = (m ((c : Thread nD τ).loc main_arg2)) :=
  (W2_arr m ρ c 1).trans (((dat0 (V1 (F := Ideal) m ρ) c).arrAt_in 1 rfl _).trans ((A_eq0 (V1 (F := Ideal) m ρ) c 1).trans (W1_arg2 m ρ c)))

/-! ## Layer 0: the sums and the parameters (host stretch 1) -/

theorem W3_v21 : W3 (F := Ideal) m ρ c (Proc.devRef .tc main_v21) = Agg m c (X0 m c) :=
  (Cert.Gin.KHost.host1_agg (W2 (F := Ideal) m ρ c)).trans (congrArg₂ (Cert.Gin.aggOf (F := Ideal)) (W2_v3 m ρ c) (W2_v18 m ρ c))

theorem W3_v23 : W3 (F := Ideal) m ρ c (Proc.devRef .tc main_v23) = Cert.Gin.wOf0 (F := Ideal) (m ((c : Thread nD τ).loc main_arg4)) :=
  (Cert.Gin.KHost.host1_w1 (W2 (F := Ideal) m ρ c)).trans (congrArg (Cert.Gin.wOf0 (F := Ideal)) (W2_arg4 m ρ c))

theorem W3_v26 : Cert.Gin.rowVec (W3 (F := Ideal) m ρ c (Proc.devRef .tc main_v26)) = Cert.Gin.bOf0 (F := Ideal) (m ((c : Thread nD τ).loc main_arg5)) :=
  (Cert.Gin.KHost.host1_b1 (W2 (F := Ideal) m ρ c)).trans (congrArg (Cert.Gin.bOf0 (F := Ideal)) (W2_arg5 m ρ c))

theorem W3_v28 : W3 (F := Ideal) m ρ c (Proc.devRef .tc main_v28) = Cert.Gin.wOf0 (F := Ideal) (m ((c : Thread nD τ).loc main_arg6)) :=
  (Cert.Gin.KHost.host1_w2 (W2 (F := Ideal) m ρ c)).trans (congrArg (Cert.Gin.wOf0 (F := Ideal)) (W2_arg6 m ρ c))

theorem W3_v31 : Cert.Gin.rowVec (W3 (F := Ideal) m ρ c (Proc.devRef .tc main_v31)) = Cert.Gin.bOf0 (F := Ideal) (m ((c : Thread nD τ).loc main_arg7)) :=
  (Cert.Gin.KHost.host1_b2 (W2 (F := Ideal) m ρ c)).trans (congrArg (Cert.Gin.bOf0 (F := Ideal)) (W2_arg7 m ρ c))

theorem W3_v10 : W3 (F := Ideal) m ρ c (Proc.devRef .tc main_v10) = X0 m c :=
  (Cert.Gin.KHost.keep1_v10 (W2 (F := Ideal) m ρ c)).trans (W2_v10 m ρ c)

theorem W3_v1 : W3 (F := Ideal) m ρ c (Proc.devRef .tc main_v1) = S m c :=
  (Cert.Gin.KHost.keep1_v1 (W2 (F := Ideal) m ρ c)).trans (W2_v1 m ρ c)

theorem W3_v3 : W3 (F := Ideal) m ρ c (Proc.devRef .tc main_v3) = Dn m c :=
  (Cert.Gin.KHost.keep1_v3 (W2 (F := Ideal) m ρ c)).trans (W2_v3 m ρ c)

theorem W3_arg2 : W3 (F := Ideal) m ρ c (Proc.devRef .tc main_arg2) = (m ((c : Thread nD τ).loc main_arg2)) :=
  (Cert.Gin.KHost.keep1_arg2 (W2 (F := Ideal) m ρ c)).trans (W2_arg2 m ρ c)

theorem W3_arg4 : W3 (F := Ideal) m ρ c (Proc.devRef .tc main_arg4) = (m ((c : Thread nD τ).loc main_arg4)) :=
  (Cert.Gin.KHost.keep1_arg4 (W2 (F := Ideal) m ρ c)).trans (W2_arg4 m ρ c)

theorem W3_arg5 : W3 (F := Ideal) m ρ c (Proc.devRef .tc main_arg5) = (m ((c : Thread nD τ).loc main_arg5)) :=
  (Cert.Gin.KHost.keep1_arg5 (W2 (F := Ideal) m ρ c)).trans (W2_arg5 m ρ c)

theorem W3_arg6 : W3 (F := Ideal) m ρ c (Proc.devRef .tc main_arg6) = (m ((c : Thread nD τ).loc main_arg6)) :=
  (Cert.Gin.KHost.keep1_arg6 (W2 (F := Ideal) m ρ c)).trans (W2_arg6 m ρ c)

theorem W3_arg7 : W3 (F := Ideal) m ρ c (Proc.devRef .tc main_arg7) = (m ((c : Thread nD τ).loc main_arg7)) :=
  (Cert.Gin.KHost.keep1_arg7 (W2 (F := Ideal) m ρ c)).trans (W2_arg7 m ρ c)

/-! ## Layer 0: the perceptron region (region 1) -/

theorem W4_v32 : W4 (F := Ideal) m ρ c (Proc.devRef .tc main_v32) = X1 m c :=
  (W4_arr m ρ c 6).trans ((Cert.Gin.KMlp.region1 (V3 (F := Ideal) m ρ) c).trans (by
    show Cert.Gin.mlpRows (N := 50000) true (W3 (F := Ideal) m ρ c (Proc.devRef .tc main_v21)) (W3 (F := Ideal) m ρ c (Proc.devRef .tc main_v10)) (W3 (F := Ideal) m ρ c (Proc.devRef .tc main_v23))
        (Cert.Gin.rowVec (W3 (F := Ideal) m ρ c (Proc.devRef .tc main_v26))) (W3 (F := Ideal) m ρ c (Proc.devRef .tc main_v28)) (Cert.Gin.rowVec (W3 (F := Ideal) m ρ c (Proc.devRef .tc main_v31))) = _
    rw [W3_v21, W3_v10, W3_v23, W3_v26, W3_v28, W3_v31]
    rfl))

theorem W4_v1 : W4 (F := Ideal) m ρ c (Proc.devRef .tc main_v1) = S m c :=
  (W4_of_ne m ρ c main_v1 (by decide)).trans (W3_v1 m ρ c)

theorem W4_v3 : W4 (F := Ideal) m ρ c (Proc.devRef .tc main_v3) = Dn m c :=
  (W4_of_ne m ρ c main_v3 (by decide)).trans (W3_v3 m ρ c)

theorem W4_arg2 : W4 (F := Ideal) m ρ c (Proc.devRef .tc main_arg2) = (m ((c : Thread nD τ).loc main_arg2)) :=
  (W4_of_ne m ρ c main_arg2 (by decide)).trans (W3_arg2 m ρ c)

theorem W4_arg4 : W4 (F := Ideal) m ρ c (Proc.devRef .tc main_arg4) = (m ((c : Thread nD τ).loc main_arg4)) :=
  (W4_of_ne m ρ c main_arg4 (by decide)).trans (W3_arg4 m ρ c)

theorem W4_arg5 : W4 (F := Ideal) m ρ c (Proc.devRef .tc main_arg5) = (m ((c : Thread nD τ).loc main_arg5)) :=
  (W4_of_ne m ρ c main_arg5 (by decide)).trans (W3_arg5 m ρ c)

theorem W4_arg6 : W4 (F := Ideal) m ρ c (Proc.devRef .tc main_arg6) = (m ((c : Thread nD τ).loc main_arg6)) :=
  (W4_of_ne m ρ c main_arg6 (by decide)).trans (W3_arg6 m ρ c)

theorem W4_arg7 : W4 (F := Ideal) m ρ c (Proc.devRef .tc main_arg7) = (m ((c : Thread nD τ).loc main_arg7)) :=
  (W4_of_ne m ρ c main_arg7 (by decide)).trans (W3_arg7 m ρ c)

/-! ## Layer 1: the gathered source rows (host stretch 2) -/

theorem W5_v39 : W5 (F := Ideal) m ρ c (Proc.devRef .tc main_v39) = Cert.Gin.gatherSrc (F := Ideal) (X1 m c) (S m c) :=
  (Cert.Gin.KHost.host2_g (W4 (F := Ideal) m ρ c)).trans (congrArg₂ (Cert.Gin.gatherSrc (F := Ideal)) (W4_v32 m ρ c) (W4_v1 m ρ c))

theorem W5_v3 : W5 (F := Ideal) m ρ c (Proc.devRef .tc main_v3) = Dn m c :=
  (Cert.Gin.KHost.keep2_v3 (W4 (F := Ideal) m ρ c)).trans (W4_v3 m ρ c)

theorem W5_v32 : W5 (F := Ideal) m ρ c (Proc.devRef .tc main_v32) = X1 m c :=
  (Cert.Gin.KHost.keep2_v32 (W4 (F := Ideal) m ρ c)).trans (W4_v32 m ρ c)

theorem W5_arg2 : W5 (F := Ideal) m ρ c (Proc.devRef .tc main_arg2) = (m ((c : Thread nD τ).loc main_arg2)) :=
  (Cert.Gin.KHost.keep2_arg2 (W4 (F := Ideal) m ρ c)).trans (W4_arg2 m ρ c)

theorem W5_arg4 : W5 (F := Ideal) m ρ c (Proc.devRef .tc main_arg4) = (m ((c : Thread nD τ).loc main_arg4)) :=
  (Cert.Gin.KHost.keep2_arg4 (W4 (F := Ideal) m ρ c)).trans (W4_arg4 m ρ c)

theorem W5_arg5 : W5 (F := Ideal) m ρ c (Proc.devRef .tc main_arg5) = (m ((c : Thread nD τ).loc main_arg5)) :=
  (Cert.Gin.KHost.keep2_arg5 (W4 (F := Ideal) m ρ c)).trans (W4_arg5 m ρ c)

theorem W5_arg6 : W5 (F := Ideal) m ρ c (Proc.devRef .tc main_arg6) = (m ((c : Thread nD τ).loc main_arg6)) :=
  (Cert.Gin.KHost.keep2_arg6 (W4 (F := Ideal) m ρ c)).trans (W4_arg6 m ρ c)

theorem W5_arg7 : W5 (F := Ideal) m ρ c (Proc.devRef .tc main_arg7) = (m ((c : Thread nD τ).loc main_arg7)) :=
  (Cert.Gin.KHost.keep2_arg7 (W4 (F := Ideal) m ρ c)).trans (W4_arg7 m ρ c)

theorem W5_v1 : W5 (F := Ideal) m ρ c (Proc.devRef .tc main_v1) = S m c :=
  (Cert.Gin.KHost.keep2_v1 (W4 (F := Ideal) m ρ c)).trans (W4_v1 m ρ c)

/-! ## Layer 1: the message region (region 2) -/

theorem W6_v40 : W6 (F := Ideal) m ρ c (Proc.devRef .tc main_v40) = Msg m c (X1 m c) :=
  (W6_arr m ρ c 2).trans ((Cert.Gin.KMsg.region2 (V5 (F := Ideal) m ρ) c).trans
    (congrArg₂ (Cert.Gin.msgOf (F := Ideal)) (W5_v39 m ρ c) (W5_arg2 m ρ c)))

theorem W6_v3 : W6 (F := Ideal) m ρ c (Proc.devRef .tc main_v3) = Dn m c :=
  (W6_of_ne m ρ c main_v3 (by decide)).trans (W5_v3 m ρ c)

theorem W6_v32 : W6 (F := Ideal) m ρ c (Proc.devRef .tc main_v32) = X1 m c :=
  (W6_of_ne m ρ c main_v32 (by decide)).trans (W5_v32 m ρ c)

theorem W6_arg4 : W6 (F := Ideal) m ρ c (Proc.devRef .tc main_arg4) = (m ((c : Thread nD τ).loc main_arg4)) :=
  (W6_of_ne m ρ c main_arg4 (by decide)).trans (W5_arg4 m ρ c)

theorem W6_arg5 : W6 (F := Ideal) m ρ c (Proc.devRef .tc main_arg5) = (m ((c : Thread nD τ).loc main_arg5)) :=
  (W6_of_ne m ρ c main_arg5 (by decide)).trans (W5_arg5 m ρ c)

theorem W6_arg6 : W6 (F := Ideal) m ρ c (Proc.devRef .tc main_arg6) = (m ((c : Thread nD τ).loc main_arg6)) :=
  (W6_of_ne m ρ c main_arg6 (by decide)).trans (W5_arg6 m ρ c)

theorem W6_arg7 : W6 (F := Ideal) m ρ c (Proc.devRef .tc main_arg7) = (m ((c : Thread nD τ).loc main_arg7)) :=
  (W6_of_ne m ρ c main_arg7 (by decide)).trans (W5_arg7 m ρ c)

theorem W6_v1 : W6 (F := Ideal) m ρ c (Proc.devRef .tc main_v1) = S m c :=
  (W6_of_ne m ρ c main_v1 (by decide)).trans (W5_v1 m ρ c)

theorem W6_arg2 : W6 (F := Ideal) m ρ c (Proc.devRef .tc main_arg2) = (m ((c : Thread nD τ).loc main_arg2)) :=
  (W6_arr m ρ c 1).trans (((dat2 (V5 (F := Ideal) m ρ) c).arrAt_in 1 rfl _).trans ((A_eq2 (V5 (F := Ideal) m ρ) c 1).trans (W5_arg2 m ρ c)))

/-! ## Layer 1: the sums and the parameters (host stretch 3) -/

theorem W7_v43 : W7 (F := Ideal) m ρ c (Proc.devRef .tc main_v43) = Agg m c (X1 m c) :=
  (Cert.Gin.KHost.host3_agg (W6 (F := Ideal) m ρ c)).trans (congrArg₂ (Cert.Gin.aggOf (F := Ideal)) (W6_v3 m ρ c) (W6_v40 m ρ c))

theorem W7_v45 : W7 (F := Ideal) m ρ c (Proc.devRef .tc main_v45) = Cert.Gin.wOf1 (F := Ideal) (m ((c : Thread nD τ).loc main_arg4)) :=
  (Cert.Gin.KHost.host3_w1 (W6 (F := Ideal) m ρ c)).trans (congrArg (Cert.Gin.wOf1 (F := Ideal)) (W6_arg4 m ρ c))

theorem W7_v48 : Cert.Gin.rowVec (W7 (F := Ideal) m ρ c (Proc.devRef .tc main_v48)) = Cert.Gin.bOf1 (F := Ideal) (m ((c : Thread nD τ).loc main_arg5)) :=
  (Cert.Gin.KHost.host3_b1 (W6 (F := Ideal) m ρ c)).trans (congrArg (Cert.Gin.bOf1 (F := Ideal)) (W6_arg5 m ρ c))

theorem W7_v50 : W7 (F := Ideal) m ρ c (Proc.devRef .tc main_v50) = Cert.Gin.wOf1 (F := Ideal) (m ((c : Thread nD τ).loc main_arg6)) :=
  (Cert.Gin.KHost.host3_w2 (W6 (F := Ideal) m ρ c)).trans (congrArg (Cert.Gin.wOf1 (F := Ideal)) (W6_arg6 m ρ c))

theorem W7_v53 : Cert.Gin.rowVec (W7 (F := Ideal) m ρ c (Proc.devRef .tc main_v53)) = Cert.Gin.bOf1 (F := Ideal) (m ((c : Thread nD τ).loc main_arg7)) :=
  (Cert.Gin.KHost.host3_b2 (W6 (F := Ideal) m ρ c)).trans (congrArg (Cert.Gin.bOf1 (F := Ideal)) (W6_arg7 m ρ c))

theorem W7_v32 : W7 (F := Ideal) m ρ c (Proc.devRef .tc main_v32) = X1 m c :=
  (Cert.Gin.KHost.keep3_v32 (W6 (F := Ideal) m ρ c)).trans (W6_v32 m ρ c)

theorem W7_v1 : W7 (F := Ideal) m ρ c (Proc.devRef .tc main_v1) = S m c :=
  (Cert.Gin.KHost.keep3_v1 (W6 (F := Ideal) m ρ c)).trans (W6_v1 m ρ c)

theorem W7_v3 : W7 (F := Ideal) m ρ c (Proc.devRef .tc main_v3) = Dn m c :=
  (Cert.Gin.KHost.keep3_v3 (W6 (F := Ideal) m ρ c)).trans (W6_v3 m ρ c)

theorem W7_arg2 : W7 (F := Ideal) m ρ c (Proc.devRef .tc main_arg2) = (m ((c : Thread nD τ).loc main_arg2)) :=
  (Cert.Gin.KHost.keep3_arg2 (W6 (F := Ideal) m ρ c)).trans (W6_arg2 m ρ c)

theorem W7_arg4 : W7 (F := Ideal) m ρ c (Proc.devRef .tc main_arg4) = (m ((c : Thread nD τ).loc main_arg4)) :=
  (Cert.Gin.KHost.keep3_arg4 (W6 (F := Ideal) m ρ c)).trans (W6_arg4 m ρ c)

theorem W7_arg5 : W7 (F := Ideal) m ρ c (Proc.devRef .tc main_arg5) = (m ((c : Thread nD τ).loc main_arg5)) :=
  (Cert.Gin.KHost.keep3_arg5 (W6 (F := Ideal) m ρ c)).trans (W6_arg5 m ρ c)

theorem W7_arg6 : W7 (F := Ideal) m ρ c (Proc.devRef .tc main_arg6) = (m ((c : Thread nD τ).loc main_arg6)) :=
  (Cert.Gin.KHost.keep3_arg6 (W6 (F := Ideal) m ρ c)).trans (W6_arg6 m ρ c)

theorem W7_arg7 : W7 (F := Ideal) m ρ c (Proc.devRef .tc main_arg7) = (m ((c : Thread nD τ).loc main_arg7)) :=
  (Cert.Gin.KHost.keep3_arg7 (W6 (F := Ideal) m ρ c)).trans (W6_arg7 m ρ c)

/-! ## Layer 1: the perceptron region (region 3) -/

theorem W8_v54 : W8 (F := Ideal) m ρ c (Proc.devRef .tc main_v54) = X2 m c :=
  (W8_arr m ρ c 6).trans ((Cert.Gin.KMlp.region3 (V7 (F := Ideal) m ρ) c).trans (by
    show Cert.Gin.mlpRows (N := 50000) true (W7 (F := Ideal) m ρ c (Proc.devRef .tc main_v43)) (W7 (F := Ideal) m ρ c (Proc.devRef .tc main_v32)) (W7 (F := Ideal) m ρ c (Proc.devRef .tc main_v45))
        (Cert.Gin.rowVec (W7 (F := Ideal) m ρ c (Proc.devRef .tc main_v48))) (W7 (F := Ideal) m ρ c (Proc.devRef .tc main_v50)) (Cert.Gin.rowVec (W7 (F := Ideal) m ρ c (Proc.devRef .tc main_v53))) = _
    rw [W7_v43, W7_v32, W7_v45, W7_v48, W7_v50, W7_v53]
    rfl))

theorem W8_v1 : W8 (F := Ideal) m ρ c (Proc.devRef .tc main_v1) = S m c :=
  (W8_of_ne m ρ c main_v1 (by decide)).trans (W7_v1 m ρ c)

theorem W8_v3 : W8 (F := Ideal) m ρ c (Proc.devRef .tc main_v3) = Dn m c :=
  (W8_of_ne m ρ c main_v3 (by decide)).trans (W7_v3 m ρ c)

theorem W8_arg2 : W8 (F := Ideal) m ρ c (Proc.devRef .tc main_arg2) = (m ((c : Thread nD τ).loc main_arg2)) :=
  (W8_of_ne m ρ c main_arg2 (by decide)).trans (W7_arg2 m ρ c)

theorem W8_arg4 : W8 (F := Ideal) m ρ c (Proc.devRef .tc main_arg4) = (m ((c : Thread nD τ).loc main_arg4)) :=
  (W8_of_ne m ρ c main_arg4 (by decide)).trans (W7_arg4 m ρ c)

theorem W8_arg5 : W8 (F := Ideal) m ρ c (Proc.devRef .tc main_arg5) = (m ((c : Thread nD τ).loc main_arg5)) :=
  (W8_of_ne m ρ c main_arg5 (by decide)).trans (W7_arg5 m ρ c)

theorem W8_arg6 : W8 (F := Ideal) m ρ c (Proc.devRef .tc main_arg6) = (m ((c : Thread nD τ).loc main_arg6)) :=
  (W8_of_ne m ρ c main_arg6 (by decide)).trans (W7_arg6 m ρ c)

theorem W8_arg7 : W8 (F := Ideal) m ρ c (Proc.devRef .tc main_arg7) = (m ((c : Thread nD τ).loc main_arg7)) :=
  (W8_of_ne m ρ c main_arg7 (by decide)).trans (W7_arg7 m ρ c)

/-! ## Layer 2: the gathered source rows (host stretch 4) -/

theorem W9_v61 : W9 (F := Ideal) m ρ c (Proc.devRef .tc main_v61) = Cert.Gin.gatherSrc (F := Ideal) (X2 m c) (S m c) :=
  (Cert.Gin.KHost.host4_g (W8 (F := Ideal) m ρ c)).trans (congrArg₂ (Cert.Gin.gatherSrc (F := Ideal)) (W8_v54 m ρ c) (W8_v1 m ρ c))

theorem W9_v3 : W9 (F := Ideal) m ρ c (Proc.devRef .tc main_v3) = Dn m c :=
  (Cert.Gin.KHost.keep4_v3 (W8 (F := Ideal) m ρ c)).trans (W8_v3 m ρ c)

theorem W9_v54 : W9 (F := Ideal) m ρ c (Proc.devRef .tc main_v54) = X2 m c :=
  (Cert.Gin.KHost.keep4_v54 (W8 (F := Ideal) m ρ c)).trans (W8_v54 m ρ c)

theorem W9_arg2 : W9 (F := Ideal) m ρ c (Proc.devRef .tc main_arg2) = (m ((c : Thread nD τ).loc main_arg2)) :=
  (Cert.Gin.KHost.keep4_arg2 (W8 (F := Ideal) m ρ c)).trans (W8_arg2 m ρ c)

theorem W9_arg4 : W9 (F := Ideal) m ρ c (Proc.devRef .tc main_arg4) = (m ((c : Thread nD τ).loc main_arg4)) :=
  (Cert.Gin.KHost.keep4_arg4 (W8 (F := Ideal) m ρ c)).trans (W8_arg4 m ρ c)

theorem W9_arg5 : W9 (F := Ideal) m ρ c (Proc.devRef .tc main_arg5) = (m ((c : Thread nD τ).loc main_arg5)) :=
  (Cert.Gin.KHost.keep4_arg5 (W8 (F := Ideal) m ρ c)).trans (W8_arg5 m ρ c)

theorem W9_arg6 : W9 (F := Ideal) m ρ c (Proc.devRef .tc main_arg6) = (m ((c : Thread nD τ).loc main_arg6)) :=
  (Cert.Gin.KHost.keep4_arg6 (W8 (F := Ideal) m ρ c)).trans (W8_arg6 m ρ c)

theorem W9_arg7 : W9 (F := Ideal) m ρ c (Proc.devRef .tc main_arg7) = (m ((c : Thread nD τ).loc main_arg7)) :=
  (Cert.Gin.KHost.keep4_arg7 (W8 (F := Ideal) m ρ c)).trans (W8_arg7 m ρ c)

/-! ## Layer 2: the message region (region 4) -/

theorem W10_v62 : W10 (F := Ideal) m ρ c (Proc.devRef .tc main_v62) = Msg m c (X2 m c) :=
  (W10_arr m ρ c 2).trans ((Cert.Gin.KMsg.region4 (V9 (F := Ideal) m ρ) c).trans
    (congrArg₂ (Cert.Gin.msgOf (F := Ideal)) (W9_v61 m ρ c) (W9_arg2 m ρ c)))

theorem W10_v3 : W10 (F := Ideal) m ρ c (Proc.devRef .tc main_v3) = Dn m c :=
  (W10_of_ne m ρ c main_v3 (by decide)).trans (W9_v3 m ρ c)

theorem W10_v54 : W10 (F := Ideal) m ρ c (Proc.devRef .tc main_v54) = X2 m c :=
  (W10_of_ne m ρ c main_v54 (by decide)).trans (W9_v54 m ρ c)

theorem W10_arg4 : W10 (F := Ideal) m ρ c (Proc.devRef .tc main_arg4) = (m ((c : Thread nD τ).loc main_arg4)) :=
  (W10_of_ne m ρ c main_arg4 (by decide)).trans (W9_arg4 m ρ c)

theorem W10_arg5 : W10 (F := Ideal) m ρ c (Proc.devRef .tc main_arg5) = (m ((c : Thread nD τ).loc main_arg5)) :=
  (W10_of_ne m ρ c main_arg5 (by decide)).trans (W9_arg5 m ρ c)

theorem W10_arg6 : W10 (F := Ideal) m ρ c (Proc.devRef .tc main_arg6) = (m ((c : Thread nD τ).loc main_arg6)) :=
  (W10_of_ne m ρ c main_arg6 (by decide)).trans (W9_arg6 m ρ c)

theorem W10_arg7 : W10 (F := Ideal) m ρ c (Proc.devRef .tc main_arg7) = (m ((c : Thread nD τ).loc main_arg7)) :=
  (W10_of_ne m ρ c main_arg7 (by decide)).trans (W9_arg7 m ρ c)

/-! ## Layer 2: the sums and the parameters (host stretch 5) -/

theorem W11_v65 : W11 (F := Ideal) m ρ c (Proc.devRef .tc main_v65) = Agg m c (X2 m c) :=
  (Cert.Gin.KHost.host5_agg (W10 (F := Ideal) m ρ c)).trans (congrArg₂ (Cert.Gin.aggOf (F := Ideal)) (W10_v3 m ρ c) (W10_v62 m ρ c))

theorem W11_v67 : W11 (F := Ideal) m ρ c (Proc.devRef .tc main_v67) = Cert.Gin.wOf2 (F := Ideal) (m ((c : Thread nD τ).loc main_arg4)) :=
  (Cert.Gin.KHost.host5_w1 (W10 (F := Ideal) m ρ c)).trans (congrArg (Cert.Gin.wOf2 (F := Ideal)) (W10_arg4 m ρ c))

theorem W11_v70 : Cert.Gin.rowVec (W11 (F := Ideal) m ρ c (Proc.devRef .tc main_v70)) = Cert.Gin.bOf2 (F := Ideal) (m ((c : Thread nD τ).loc main_arg5)) :=
  (Cert.Gin.KHost.host5_b1 (W10 (F := Ideal) m ρ c)).trans (congrArg (Cert.Gin.bOf2 (F := Ideal)) (W10_arg5 m ρ c))

theorem W11_v72 : W11 (F := Ideal) m ρ c (Proc.devRef .tc main_v72) = Cert.Gin.wOf2 (F := Ideal) (m ((c : Thread nD τ).loc main_arg6)) :=
  (Cert.Gin.KHost.host5_w2 (W10 (F := Ideal) m ρ c)).trans (congrArg (Cert.Gin.wOf2 (F := Ideal)) (W10_arg6 m ρ c))

theorem W11_v75 : Cert.Gin.rowVec (W11 (F := Ideal) m ρ c (Proc.devRef .tc main_v75)) = Cert.Gin.bOf2 (F := Ideal) (m ((c : Thread nD τ).loc main_arg7)) :=
  (Cert.Gin.KHost.host5_b2 (W10 (F := Ideal) m ρ c)).trans (congrArg (Cert.Gin.bOf2 (F := Ideal)) (W10_arg7 m ρ c))

theorem W11_v54 : W11 (F := Ideal) m ρ c (Proc.devRef .tc main_v54) = X2 m c :=
  (Cert.Gin.KHost.keep5_v54 (W10 (F := Ideal) m ρ c)).trans (W10_v54 m ρ c)

/-! ## Layer 2: the perceptron region (region 5) -/

theorem W12_v76 : W12 (F := Ideal) m ρ c (Proc.devRef .tc main_v76) = X3 m c :=
  (W12_arr m ρ c 6).trans ((Cert.Gin.KMlp.region5 (V11 (F := Ideal) m ρ) c).trans (by
    show Cert.Gin.mlpRows (N := 50000) false (W11 (F := Ideal) m ρ c (Proc.devRef .tc main_v65)) (W11 (F := Ideal) m ρ c (Proc.devRef .tc main_v54)) (W11 (F := Ideal) m ρ c (Proc.devRef .tc main_v67))
        (Cert.Gin.rowVec (W11 (F := Ideal) m ρ c (Proc.devRef .tc main_v70))) (W11 (F := Ideal) m ρ c (Proc.devRef .tc main_v72)) (Cert.Gin.rowVec (W11 (F := Ideal) m ρ c (Proc.devRef .tc main_v75))) = _
    rw [W11_v65, W11_v54, W11_v67, W11_v70, W11_v72, W11_v75]
    rfl))

/-- At the return the result buffer holds the network function of the argument arrays. -/
theorem result : W12 (F := Ideal) m ρ c (Proc.devRef .tc main_v76) = Cert.Gin.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_v76 m ρ c).trans (X3_eq_net m c)

end Cert.Gin.KWalk

end
-- ==== Proof.RefOps.lean ====
/-
  The reference program's operations, in program order, as four consecutive lists: the prologue (embedding
  lookup, source row, destination row) and the three layers; the program is the sequence of their concatenation,
  every operation touches TensorCore references only, and none allocates.
-/
import proofs.«126713_j16776142258451_1_alg».proof.Proof.Gen.ReferenceIdeal
import Idealize.ShloMosaic.Lib.StableHlo.Run
import Idealize.ShloMosaic.Lib.Pipeline.Frame

noncomputable section

namespace Cert.Gin.Ref

open Cert.ReferenceIdeal Cert.ReferenceIdeal.Gen Idealize.ShloMosaic Idealize.ShloMosaic.TcCoe Idealize.SL.Sem Idealize.ShloMosaic.StableHlo

variable {F : FTy → Type} [FloatOps F]

/-- The prologue: the embedding lookup `main_v6`, the source row `main_v8`, the destination row `main_v10`. -/
abbrev opsP : List (HloOp τ sig (Elt F)) :=
  [ nullary main_c (constantI S_ 32 0#32),
    unary main_c main_v0 (broadcastInDim S50000 ![] bcast_S_S50000 : (⟨S_, .i32⟩ : BufTy).Contents (Elt F) → (⟨S50000, .i32⟩ : BufTy).Contents (Elt F)),
    binary main_arg0 main_v0 main_v1 (cmpi .slt : (⟨S50000, .i32⟩ : BufTy).Contents (Elt F) → (⟨S50000, .i32⟩ : BufTy).Contents (Elt F) → (⟨S50000, .i1⟩ : BufTy).Contents (Elt F)),
    nullary main_c_0 (constantI S_ 32 100#32),
    unary main_c_0 main_v2 (broadcastInDim S50000 ![] bcast_S_S50000 : (⟨S_, .i32⟩ : BufTy).Contents (Elt F) → (⟨S50000, .i32⟩ : BufTy).Contents (Elt F)),
    binary main_arg0 main_v2 main_v3 (addi : (⟨S50000, .i32⟩ : BufTy).Contents (Elt F) → (⟨S50000, .i32⟩ : BufTy).Contents (Elt F) → (⟨S50000, .i32⟩ : BufTy).Contents (Elt F)),
    ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v4 main_v5 (broadcastInDim S50000x1 ![0] bcast_S50000_S50000x1_0 : (⟨S50000, .i32⟩ : BufTy).Contents (Elt F) → (⟨S50000x1, .i32⟩ : BufTy).Contents (Elt F)),
    binary main_arg3 main_v5 main_v6 ((fun x i => Host.gather gather_S100x128_S50000x1_S50000x128_1_0_n_n_0_1_1128 x i) : (⟨S100x128, .f32⟩ : BufTy).Contents (Elt F) → (⟨S50000x1, .i32⟩ : BufTy).Contents (Elt F) → (⟨S50000x128, .f32⟩ : BufTy).Contents (Elt F)),
    unary main_arg1 main_v7 ((extractStridedSlice S1x640000 ![0, 0] · slices_S2x640000_S1x640000_0_0) : (⟨S2x640000, .i32⟩ : BufTy).Contents (Elt F) → (⟨S1x640000, .i32⟩ : BufTy).Contents (Elt F)),
    reshape main_v7 main_v8 rfl shapeCasts_S1x640000_S640000,
    unary main_arg1 main_v9 ((extractStridedSlice S1x640000 ![1, 0] · slices_S2x640000_S1x640000_1_0) : (⟨S2x640000, .i32⟩ : BufTy).Contents (Elt F) → (⟨S1x640000, .i32⟩ : BufTy).Contents (Elt F)),
    reshape main_v9 main_v10 rfl shapeCasts_S1x640000_S640000 ]

set_option maxRecDepth 8192 in
theorem opsP_sub : (opsP : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub ..⟩

/-- Layer 0: from `main_v6` to `main_v42`. -/
abbrev opsL0 : List (HloOp τ sig (Elt F)) :=
  [ nullary main_c_1 (constantI S_ 32 0#32),
    unary main_c_1 main_v11 (broadcastInDim S640000 ![] bcast_S_S640000 : (⟨S_, .i32⟩ : BufTy).Contents (Elt F) → (⟨S640000, .i32⟩ : BufTy).Contents (Elt F)),
    binary main_v8 main_v11 main_v12 (cmpi .slt : (⟨S640000, .i32⟩ : BufTy).Contents (Elt F) → (⟨S640000, .i32⟩ : BufTy).Contents (Elt F) → (⟨S640000, .i1⟩ : BufTy).Contents (Elt F)),
    nullary main_c_2 (constantI S_ 32 50000#32),
    unary main_c_2 main_v13 (broadcastInDim S640000 ![] bcast_S_S640000 : (⟨S_, .i32⟩ : BufTy).Contents (Elt F) → (⟨S640000, .i32⟩ : BufTy).Contents (Elt F)),
    binary main_v8 main_v13 main_v14 (addi : (⟨S640000, .i32⟩ : BufTy).Contents (Elt F) → (⟨S640000, .i32⟩ : BufTy).Contents (Elt F) → (⟨S640000, .i32⟩ : BufTy).Contents (Elt F)),
    ternary main_v12 main_v14 main_v8 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v15 main_v16 (broadcastInDim S640000x1 ![0] bcast_S640000_S640000x1_0 : (⟨S640000, .i32⟩ : BufTy).Contents (Elt F) → (⟨S640000x1, .i32⟩ : BufTy).Contents (Elt F)),
    binary main_v6 main_v16 main_v17 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    binary main_v17 main_arg2 main_v18 (addf : (⟨S640000x128, .f32⟩ : BufTy).Contents (Elt F) → (⟨S640000x128, .f32⟩ : BufTy).Contents (Elt F) → (⟨S640000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S640000x128, .f32⟩) main_call0_v0) (broadcastInDim S640000x128 ![] bcast_S_S640000x128),
    TRef.binary (TRef.of (T := ⟨S640000x128, .f32⟩) main_v18) (TRef.of (T := ⟨S640000x128, .f32⟩) main_call0_v0) (TRef.of (T := ⟨S640000x128, .f32⟩) main_v19) maximumf,
    nullary main_cst (constant S_ .f32 0x00000000#32),
    unary main_cst main_v20 (broadcastInDim S50000x128 ![] bcast_S_S50000x128 : (⟨S_, .f32⟩ : BufTy).Contents (Elt F) → (⟨S50000x128, .f32⟩ : BufTy).Contents (Elt F)),
    unary main_v10 main_v21 (broadcastInDim S640000x1 ![0] bcast_S640000_S640000x1_0 : (⟨S640000, .i32⟩ : BufTy).Contents (Elt F) → (⟨S640000x1, .i32⟩ : BufTy).Contents (Elt F)),
    ternary main_v20 main_v21 main_v19 main_v22 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v22 main_v6 main_v23 (addf : (⟨S50000x128, .f32⟩ : BufTy).Contents (Elt F) → (⟨S50000x128, .f32⟩ : BufTy).Contents (Elt F) → (⟨S50000x128, .f32⟩ : BufTy).Contents (Elt F)),
    unary main_arg4 main_v24 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v24 main_v25 rfl shapeCasts_S1x128x128_S128x128,
    binary main_v23 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v27 ((extractStridedSlice S1x128 ![0, 0] · slices_S3x128_S1x128_0_0) : (⟨S3x128, .f32⟩ : BufTy).Contents (Elt F) → (⟨S1x128, .f32⟩ : BufTy).Contents (Elt F)),
    reshape main_v27 main_v28 rfl shapeCasts_S1x128_S128,
    unary main_v28 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v26 main_v30 main_v31 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v31) (TRef.of (T := ⟨S50000x128, .f32⟩) main_call1_v0) (TRef.of (T := ⟨S50000x128, .f32⟩) main_v32) maximumf,
    unary main_arg6 main_v33 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v33 main_v34 rfl shapeCasts_S1x128x128_S128x128,
    binary main_v32 main_v34 main_v35 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v36 ((extractStridedSlice S1x128 ![0, 0] · slices_S3x128_S1x128_0_0) : (⟨S3x128, .f32⟩ : BufTy).Contents (Elt F) → (⟨S1x128, .f32⟩ : BufTy).Contents (Elt F)),
    reshape main_v36 main_v37 rfl shapeCasts_S1x128_S128,
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v35 main_v39 main_v40 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v40) (TRef.of (T := ⟨S50000x128, .f32⟩) main_call2_v0) (TRef.of (T := ⟨S50000x128, .f32⟩) main_v41) maximumf,
    binary main_v41 main_v6 main_v42 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem opsL0_sub : (opsL0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

/-- Layer 1: from `main_v42` to `main_v74`. -/
abbrev opsL1 : List (HloOp τ sig (Elt F)) :=
  [ nullary main_c_3 (constantI S_ 32 0#32),
    unary main_c_3 main_v43 (broadcastInDim S640000 ![] bcast_S_S640000 : (⟨S_, .i32⟩ : BufTy).Contents (Elt F) → (⟨S640000, .i32⟩ : BufTy).Contents (Elt F)),
    binary main_v8 main_v43 main_v44 (cmpi .slt : (⟨S640000, .i32⟩ : BufTy).Contents (Elt F) → (⟨S640000, .i32⟩ : BufTy).Contents (Elt F) → (⟨S640000, .i1⟩ : BufTy).Contents (Elt F)),
    nullary main_c_4 (constantI S_ 32 50000#32),
    unary main_c_4 main_v45 (broadcastInDim S640000 ![] bcast_S_S640000 : (⟨S_, .i32⟩ : BufTy).Contents (Elt F) → (⟨S640000, .i32⟩ : BufTy).Contents (Elt F)),
    binary main_v8 main_v45 main_v46 (addi : (⟨S640000, .i32⟩ : BufTy).Contents (Elt F) → (⟨S640000, .i32⟩ : BufTy).Contents (Elt F) → (⟨S640000, .i32⟩ : BufTy).Contents (Elt F)),
    ternary main_v44 main_v46 main_v8 main_v47 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v47 main_v48 (broadcastInDim S640000x1 ![0] bcast_S640000_S640000x1_0 : (⟨S640000, .i32⟩ : BufTy).Contents (Elt F) → (⟨S640000x1, .i32⟩ : BufTy).Contents (Elt F)),
    binary main_v42 main_v48 main_v49 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    binary main_v49 main_arg2 main_v50 (addf : (⟨S640000x128, .f32⟩ : BufTy).Contents (Elt F) → (⟨S640000x128, .f32⟩ : BufTy).Contents (Elt F) → (⟨S640000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S640000x128, .f32⟩) main_call3_v0) (broadcastInDim S640000x128 ![] bcast_S_S640000x128),
    TRef.binary (TRef.of (T := ⟨S640000x128, .f32⟩) main_v50) (TRef.of (T := ⟨S640000x128, .f32⟩) main_call3_v0) (TRef.of (T := ⟨S640000x128, .f32⟩) main_v51) maximumf,
    nullary main_cst_5 (constant S_ .f32 0x00000000#32),
    unary main_cst_5 main_v52 (broadcastInDim S50000x128 ![] bcast_S_S50000x128 : (⟨S_, .f32⟩ : BufTy).Contents (Elt F) → (⟨S50000x128, .f32⟩ : BufTy).Contents (Elt F)),
    unary main_v10 main_v53 (broadcastInDim S640000x1 ![0] bcast_S640000_S640000x1_0 : (⟨S640000, .i32⟩ : BufTy).Contents (Elt F) → (⟨S640000x1, .i32⟩ : BufTy).Contents (Elt F)),
    ternary main_v52 main_v53 main_v51 main_v54 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v54 main_v42 main_v55 (addf : (⟨S50000x128, .f32⟩ : BufTy).Contents (Elt F) → (⟨S50000x128, .f32⟩ : BufTy).Contents (Elt F) → (⟨S50000x128, .f32⟩ : BufTy).Contents (Elt F)),
    unary main_arg4 main_v56 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v56 main_v57 rfl shapeCasts_S1x128x128_S128x128,
    binary main_v55 main_v57 main_v58 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v59 ((extractStridedSlice S1x128 ![1, 0] · slices_S3x128_S1x128_1_0) : (⟨S3x128, .f32⟩ : BufTy).Contents (Elt F) → (⟨S1x128, .f32⟩ : BufTy).Contents (Elt F)),
    reshape main_v59 main_v60 rfl shapeCasts_S1x128_S128,
    unary main_v60 main_v61 (broadcastInDim S1x128 ![1] bcast_S128_S1x128_1 : (⟨S128, .f32⟩ : BufTy).Contents (Elt F) → (⟨S1x128, .f32⟩ : BufTy).Contents (Elt F)),
    unary main_v61 main_v62 (broadcastInDim S50000x128 ![0, 1] bcast_S1x128_S50000x128_0_1 : (⟨S1x128, .f32⟩ : BufTy).Contents (Elt F) → (⟨S50000x128, .f32⟩ : BufTy).Contents (Elt F)),
    binary main_v58 main_v62 main_v63 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v63) (TRef.of (T := ⟨S50000x128, .f32⟩) main_call4_v0) (TRef.of (T := ⟨S50000x128, .f32⟩) main_v64) maximumf,
    unary main_arg6 main_v65 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v65 main_v66 rfl shapeCasts_S1x128x128_S128x128,
    binary main_v64 main_v66 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v68 ((extractStridedSlice S1x128 ![1, 0] · slices_S3x128_S1x128_1_0) : (⟨S3x128, .f32⟩ : BufTy).Contents (Elt F) → (⟨S1x128, .f32⟩ : BufTy).Contents (Elt F)),
    reshape main_v68 main_v69 rfl shapeCasts_S1x128_S128,
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v67 main_v71 main_v72 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v72) (TRef.of (T := ⟨S50000x128, .f32⟩) main_call5_v0) (TRef.of (T := ⟨S50000x128, .f32⟩) main_v73) maximumf,
    binary main_v73 main_v42 main_v74 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

/-- Layer 2: from `main_v74` to `main_v105` (no clamp). -/
abbrev opsL2 : List (HloOp τ sig (Elt F)) :=
  [ nullary main_c_6 (constantI S_ 32 0#32),
    unary main_c_6 main_v75 (broadcastInDim S640000 ![] bcast_S_S640000 : (⟨S_, .i32⟩ : BufTy).Contents (Elt F) → (⟨S640000, .i32⟩ : BufTy).Contents (Elt F)),
    binary main_v8 main_v75 main_v76 (cmpi .slt : (⟨S640000, .i32⟩ : BufTy).Contents (Elt F) → (⟨S640000, .i32⟩ : BufTy).Contents (Elt F) → (⟨S640000, .i1⟩ : BufTy).Contents (Elt F)),
    nullary main_c_7 (constantI S_ 32 50000#32),
    unary main_c_7 main_v77 (broadcastInDim S640000 ![] bcast_S_S640000 : (⟨S_, .i32⟩ : BufTy).Contents (Elt F) → (⟨S640000, .i32⟩ : BufTy).Contents (Elt F)),
    binary main_v8 main_v77 main_v78 (addi : (⟨S640000, .i32⟩ : BufTy).Contents (Elt F) → (⟨S640000, .i32⟩ : BufTy).Contents (Elt F) → (⟨S640000, .i32⟩ : BufTy).Contents (Elt F)),
    ternary main_v76 main_v78 main_v8 main_v79 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v79 main_v80 (broadcastInDim S640000x1 ![0] bcast_S640000_S640000x1_0 : (⟨S640000, .i32⟩ : BufTy).Contents (Elt F) → (⟨S640000x1, .i32⟩ : BufTy).Contents (Elt F)),
    binary main_v74 main_v80 main_v81 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    binary main_v81 main_arg2 main_v82 (addf : (⟨S640000x128, .f32⟩ : BufTy).Contents (Elt F) → (⟨S640000x128, .f32⟩ : BufTy).Contents (Elt F) → (⟨S640000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S640000x128, .f32⟩) main_call6_v0) (broadcastInDim S640000x128 ![] bcast_S_S640000x128),
    TRef.binary (TRef.of (T := ⟨S640000x128, .f32⟩) main_v82) (TRef.of (T := ⟨S640000x128, .f32⟩) main_call6_v0) (TRef.of (T := ⟨S640000x128, .f32⟩) main_v83) maximumf,
    nullary main_cst_8 (constant S_ .f32 0x00000000#32),
    unary main_cst_8 main_v84 (broadcastInDim S50000x128 ![] bcast_S_S50000x128 : (⟨S_, .f32⟩ : BufTy).Contents (Elt F) → (⟨S50000x128, .f32⟩ : BufTy).Contents (Elt F)),
    unary main_v10 main_v85 (broadcastInDim S640000x1 ![0] bcast_S640000_S640000x1_0 : (⟨S640000, .i32⟩ : BufTy).Contents (Elt F) → (⟨S640000x1, .i32⟩ : BufTy).Contents (Elt F)),
    ternary main_v84 main_v85 main_v83 main_v86 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_v86 main_v74 main_v87 (addf : (⟨S50000x128, .f32⟩ : BufTy).Contents (Elt F) → (⟨S50000x128, .f32⟩ : BufTy).Contents (Elt F) → (⟨S50000x128, .f32⟩ : BufTy).Contents (Elt F)),
    unary main_arg4 main_v88 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v88 main_v89 rfl shapeCasts_S1x128x128_S128x128,
    binary main_v87 main_v89 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v91 ((extractStridedSlice S1x128 ![2, 0] · slices_S3x128_S1x128_2_0) : (⟨S3x128, .f32⟩ : BufTy).Contents (Elt F) → (⟨S1x128, .f32⟩ : BufTy).Contents (Elt F)),
    reshape main_v91 main_v92 rfl shapeCasts_S1x128_S128,
    unary main_v92 main_v93 (broadcastInDim S1x128 ![1] bcast_S128_S1x128_1 : (⟨S128, .f32⟩ : BufTy).Contents (Elt F) → (⟨S1x128, .f32⟩ : BufTy).Contents (Elt F)),
    unary main_v93 main_v94 (broadcastInDim S50000x128 ![0, 1] bcast_S1x128_S50000x128_0_1 : (⟨S1x128, .f32⟩ : BufTy).Contents (Elt F) → (⟨S50000x128, .f32⟩ : BufTy).Contents (Elt F)),
    binary main_v90 main_v94 main_v95 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v95) (TRef.of (T := ⟨S50000x128, .f32⟩) main_call7_v0) (TRef.of (T := ⟨S50000x128, .f32⟩) main_v96) maximumf,
    unary main_arg6 main_v97 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v97 main_v98 rfl shapeCasts_S1x128x128_S128x128,
    binary main_v96 main_v98 main_v99 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v100 ((extractStridedSlice S1x128 ![2, 0] · slices_S3x128_S1x128_2_0) : (⟨S3x128, .f32⟩ : BufTy).Contents (Elt F) → (⟨S1x128, .f32⟩ : BufTy).Contents (Elt F)),
    reshape main_v100 main_v101 rfl shapeCasts_S1x128_S128,
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v99 main_v103 main_v104 (addf : (⟨S50000x128, .f32⟩ : BufTy).Contents (Elt F) → (⟨S50000x128, .f32⟩ : BufTy).Contents (Elt F) → (⟨S50000x128, .f32⟩ : BufTy).Contents (Elt F)),
    binary main_v104 main_v74 main_v105 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub ..⟩

/-- The whole program's operations. -/
abbrev ops : List (HloOp τ sig (Elt F)) := opsP ++ (opsL0 ++ (opsL1 ++ opsL2))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem forall_append' {α : Type} {p : α → Prop} {l₁ l₂ : List α} (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

theorem ops_sub : (ops : List (HloOp τ sig (Elt F))).Forall fun op => op.bufs ⊆ tcRefs τ sig :=
  forall_append' opsP_sub (forall_append' opsL0_sub (forall_append' opsL1_sub opsL2_sub))

set_option maxRecDepth 8192 in
theorem opsP_fresh : ∀ op ∈ (opsP : List (HloOp τ sig (Elt F))), op.fresh = ∅ := by
  intro _ h; (repeat (cases h with | head => rfl | tail _ h => ?_)); exact nomatch h

set_option maxRecDepth 8192 in
theorem opsL0_fresh : ∀ op ∈ (opsL0 : List (HloOp τ sig (Elt F))), op.fresh = ∅ := by
  intro _ h; (repeat (cases h with | head => rfl | tail _ h => ?_)); exact nomatch h

set_option maxRecDepth 8192 in
theorem opsL1_fresh : ∀ op ∈ (opsL1 : List (HloOp τ sig (Elt F))), op.fresh = ∅ := by
  intro _ h; (repeat (cases h with | head => rfl | tail _ h => ?_)); exact nomatch h

set_option maxRecDepth 8192 in
theorem opsL2_fresh : ∀ op ∈ (opsL2 : List (HloOp τ sig (Elt F))), op.fresh = ∅ := by
  intro _ h; (repeat (cases h with | head => rfl | tail _ h => ?_)); exact nomatch h

/-- No operation of the program allocates a buffer without writing it. -/
theorem ops_fresh : ∀ op ∈ (ops : List (HloOp τ sig (Elt F))), op.fresh = ∅ := fun op h => by
  rcases List.mem_append.mp h with h | h
  · exact opsP_fresh op h
  rcases List.mem_append.mp h with h | h
  · exact opsL0_fresh op h
  rcases List.mem_append.mp h with h | h
  · exact opsL1_fresh op h
  · exact opsL2_fresh op h

/-- The buffers after the whole program are those after the four lists in turn. -/
theorem after_ops (V : Valuation τ sig (Elt F)) :
    after ops V = after opsL2 (after opsL1 (after opsL0 (after opsP V))) := by
  show after (opsP ++ (opsL0 ++ (opsL1 ++ opsL2))) V = _
  rw [after_append, after_append, after_append]

end Cert.Gin.Ref

end
-- ==== Proof.RefStageP.lean ====
/-
  The prologue of the reference: after it the embedding lookup, the source row and the destination row hold the
  specification's terms of the arguments, and the arguments are unchanged.
-/
import proofs.«126713_j16776142258451_1_alg».proof.Proof.RefOps
import proofs.«126713_j16776142258451_1_alg».proof.Proof.Spec
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

/-- The embedding lookup. -/
theorem afterP_v6 {F : FTy → Type} [FloatOps F] (W : Valuation τ sig (Elt F)) :
    after (opsP (F := F)) W (Proc.devRef .tc main_v6)
      = Cert.Gin.embed (F := F) (W (Proc.devRef .tc main_arg0)) (W (Proc.devRef .tc main_arg3)) := by
  after_results_simp
  rfl

/-- The source row of the edge list. -/
theorem afterP_v8 {F : FTy → Type} [FloatOps F] (W : Valuation τ sig (Elt F)) :
    after (opsP (F := F)) W (Proc.devRef .tc main_v8) = Cert.Gin.srcRow (F := F) (W (Proc.devRef .tc main_arg1)) := by
  after_results_simp
  rfl

/-- The destination row of the edge list. -/
theorem afterP_v10 {F : FTy → Type} [FloatOps F] (W : Valuation τ sig (Elt F)) :
    after (opsP (F := F)) W (Proc.devRef .tc main_v10) = Cert.Gin.dstRow (F := F) (W (Proc.devRef .tc main_arg1)) := by
  after_results_simp
  rfl

theorem keep_opsP_main_arg0 {F : FTy → Type} [FloatOps F] (W : Valuation τ sig (Elt F)) :
    after (opsP (F := F)) W (Proc.devRef .tc main_arg0) = W (Proc.devRef .tc main_arg0) := by
  after_results_simp
theorem keep_opsP_main_arg1 {F : FTy → Type} [FloatOps F] (W : Valuation τ sig (Elt F)) :
    after (opsP (F := F)) W (Proc.devRef .tc main_arg1) = W (Proc.devRef .tc main_arg1) := by
  after_results_simp
theorem keep_opsP_main_arg2 {F : FTy → Type} [FloatOps F] (W : Valuation τ sig (Elt F)) :
    after (opsP (F := F)) W (Proc.devRef .tc main_arg2) = W (Proc.devRef .tc main_arg2) := by
  after_results_simp
theorem keep_opsP_main_arg3 {F : FTy → Type} [FloatOps F] (W : Valuation τ sig (Elt F)) :
    after (opsP (F := F)) W (Proc.devRef .tc main_arg3) = W (Proc.devRef .tc main_arg3) := by
  after_results_simp
theorem keep_opsP_main_arg4 {F : FTy → Type} [FloatOps F] (W : Valuation τ sig (Elt F)) :
    after (opsP (F := F)) W (Proc.devRef .tc main_arg4) = W (Proc.devRef .tc main_arg4) := by
  after_results_simp
theorem keep_opsP_main_arg5 {F : FTy → Type} [FloatOps F] (W : Valuation τ sig (Elt F)) :
    after (opsP (F := F)) W (Proc.devRef .tc main_arg5) = W (Proc.devRef .tc main_arg5) := by
  after_results_simp
theorem keep_opsP_main_arg6 {F : FTy → Type} [FloatOps F] (W : Valuation τ sig (Elt F)) :
    after (opsP (F := F)) W (Proc.devRef .tc main_arg6) = W (Proc.devRef .tc main_arg6) := by
  after_results_simp
theorem keep_opsP_main_arg7 {F : FTy → Type} [FloatOps F] (W : Valuation τ sig (Elt F)) :
    after (opsP (F := F)) W (Proc.devRef .tc main_arg7) = W (Proc.devRef .tc main_arg7) := by
  after_results_simp

end Cert.Gin.Ref

end
-- ==== Proof.RefMlp.lean ====
/-
  The reference's perceptron, written as its whole-array host operations, is the row-by-row perceptron of the
  specification: at every index the two contractions are the finite sums over the 128 columns, the two bias
  broadcasts read the bias vector at the column, and the zero splat is the extended real 0.
-/
import proofs.«126713_j16776142258451_1_alg».proof.Proof.Gen.ReferenceIdeal
import proofs.«126713_j16776142258451_1_alg».proof.Proof.Spec
import Idealize.ShloMosaic.Lib.Pipeline.Value
import Idealize.ShloMosaic.Lib.ValueIdx
import Idealize.ShloMosaic.PureOps.Ideal.Laws

noncomputable section

namespace Cert.Gin.Ref

open Cert.ReferenceIdeal Cert.ReferenceIdeal.Gen Idealize.ShloMosaic

/-- Where the contraction reads its operands: the left one on the output's row and the contracted column, the right
    one on the contracted row and the output's column. -/
theorem dot_lhs0 (p : S50000x128.Idx) (q : dot_S50000x128_S128x128_S50000x128_1_0_0_1_n_n.contr.Idx) :
    (dot_S50000x128_S128x128_S50000x128_1_0_0_1_n_n.lhsIdx p q 0).val = (p 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dot_lhs1 (p : S50000x128.Idx) (q : dot_S50000x128_S128x128_S50000x128_1_0_0_1_n_n.contr.Idx) :
    (dot_S50000x128_S128x128_S50000x128_1_0_0_1_n_n.lhsIdx p q 1).val = (q ⟨0, by decide⟩).val :=
  dot_S50000x128_S128x128_S50000x128_1_0_0_1_n_n.lhsIdx_val_of_single rfl p q
theorem dot_rhs0 (p : S50000x128.Idx) (q : dot_S50000x128_S128x128_S50000x128_1_0_0_1_n_n.contr.Idx) :
    (dot_S50000x128_S128x128_S50000x128_1_0_0_1_n_n.rhsIdx p q 0).val = (q ⟨0, by decide⟩).val :=
  dot_S50000x128_S128x128_S50000x128_1_0_0_1_n_n.rhsIdx_val_of_single rfl p q
theorem dot_rhs1 (p : S50000x128.Idx) (q : dot_S50000x128_S128x128_S50000x128_1_0_0_1_n_n.contr.Idx) :
    (dot_S50000x128_S128x128_S50000x128_1_0_0_1_n_n.rhsIdx p q 1).val = (p 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The contraction of a [50000, 128] table with a [128, 128] matrix at an index: the sum over the shared axis. -/
theorem dot_apply (l : FVec Ideal S50000x128 .f32) (r : FVec Ideal S128x128 .f32)
    (p : S50000x128.Idx) :
    Host.dotGeneral (F := Ideal) dot_S50000x128_S128x128_S50000x128_1_0_0_1_n_n none l r p
      = ∑ k : Fin 128, l (ValueIdx.ix2 (⟨(p 0).val, (p 0).isLt⟩ : Fin 50000) k) * r (ValueIdx.ix2 k (⟨(p 1).val, (p 1).isLt⟩ : Fin 128)) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx p ((ValueIdx.contrEquiv1 dot_S50000x128_S128x128_S50000x128_1_0_0_1_n_n 128 rfl rfl).symm k)
      = ValueIdx.ix2 (⟨(p 0).val, (p 0).isLt⟩ : Fin 50000) k := funext fun a => Fin.ext (by
    match a with
    | ⟨0, _⟩ => exact dot_lhs0 _ _
    | ⟨1, _⟩ => exact (dot_lhs1 _ _).trans hk)
  have er : dot_S50000x128_S128x128_S50000x128_1_0_0_1_n_n.rhsIdx p ((ValueIdx.contrEquiv1 dot_S50000x128_S128x128_S50000x128_1_0_0_1_n_n 128 rfl rfl).symm k)
      = ValueIdx.ix2 k (⟨(p 1).val, (p 1).isLt⟩ : Fin 128) := funext fun a => Fin.ext (by
    match a with
    | ⟨0, _⟩ => exact (dot_rhs0 _ _).trans hk
    | ⟨1, _⟩ => exact dot_rhs1 _ _)
  rw [el, er]

/-- A bias vector broadcast to a row and then to every row of the table reads the vector at the column. -/
theorem bias_apply (b : FVec Ideal S128 .f32) (p : S50000x128.Idx) :
    broadcastInDim S50000x128 ![0, 1] bcast_S1x128_S50000x128_0_1 (broadcastInDim S1x128 ![1] bcast_S128_S1x128_1 b) p
      = b (ValueIdx.ix1 (⟨(p 1).val, (p 1).isLt⟩ : Fin 128)) := by
  refine (broadcastInDim_apply _ bcast_S1x128_S50000x128_0_1 _ p (ValueIdx.ix2 (0 : Fin 1) (⟨(p 1).val, (p 1).isLt⟩ : Fin 128)) (fun a => match a with
    | ⟨0, _⟩ => by show 0 = if (1 : Nat) = 1 then 0 else (p 0).val; rw [if_pos rfl]
    | ⟨1, _⟩ => by show (p 1).val = if (128 : Nat) = 1 then 0 else (p 1).val; rw [if_neg (by decide)])).trans ?_
  exact broadcastInDim_apply _ bcast_S128_S1x128_1 b _ (ValueIdx.ix1 (⟨(p 1).val, (p 1).isLt⟩ : Fin 128)) (fun a => match a with
    | ⟨0, _⟩ => by show (p 1).val = if (128 : Nat) = 1 then 0 else (p 1).val; rw [if_neg (by decide)])

/-- The zero splat over the table is the extended real 0 everywhere. -/
theorem zeros_apply (p : S50000x128.Idx) :
    (broadcastInDim S50000x128 ![] bcast_S_S50000x128 (constant (F := Ideal) S_ .f32 0x00000000#32) : FVec Ideal S50000x128 .f32) p = 0 := by
  refine (broadcastInDim_apply _ bcast_S_S50000x128 _ p (fun a => a.elim0) (fun a => a.elim0)).trans ?_
  exact Ideal.ofBits_zero_f32

/-- The same two facts for the whole arrays. -/
theorem bias_fun (b : FVec Ideal S128 .f32) :
    broadcastInDim S50000x128 ![0, 1] bcast_S1x128_S50000x128_0_1 (broadcastInDim S1x128 ![1] bcast_S128_S1x128_1 b)
      = fun p : S50000x128.Idx => b (ValueIdx.ix1 (⟨(p 1).val, (p 1).isLt⟩ : Fin 128)) :=
  funext (bias_apply b)
theorem zeros_fun :
    (broadcastInDim S50000x128 ![] bcast_S_S50000x128 (constant (F := Ideal) S_ .f32 0x00000000#32) : FVec Ideal S50000x128 .f32)
      = fun _ : S50000x128.Idx => (0 : EReal) :=
  funext zeros_apply

/-- The perceptron with the clamp (layers 0 and 1). -/
theorem mlp_clamp (a x : FVec Ideal S50000x128 .f32) (w1 : FVec Ideal S128x128 .f32)
    (b1 : FVec Ideal S128 .f32) (w2 : FVec Ideal S128x128 .f32) (b2 : FVec Ideal S128 .f32) :
    (addf (maximumf (addf (Host.dotGeneral dot_S50000x128_S128x128_S50000x128_1_0_0_1_n_n none
        (maximumf (addf (Host.dotGeneral dot_S50000x128_S128x128_S50000x128_1_0_0_1_n_n none (addf a x) w1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) w2)
        (broadcastInDim S50000x128 ![0, 1] bcast_S1x128_S50000x128_0_1 (broadcastInDim S1x128 ![1] bcast_S128_S1x128_1 b2)))
      (broadcastInDim S50000x128 ![] bcast_S_S50000x128 (constant (F := Ideal) S_ .f32 0x00000000#32))) x : FVec Ideal S50000x128 .f32)
      = Cert.Gin.mlpRows (N := 50000) true a x w1 b1 w2 b2 := by
  rw [bias_fun b1, bias_fun b2, zeros_fun]
  funext p
  obtain ⟨i, j, rfl⟩ : ∃ (i : Fin 50000) (j : Fin 128), p = ValueIdx.ix2 i j :=
    ⟨⟨(p 0).val, (p 0).isLt⟩, ⟨(p 1).val, (p 1).isLt⟩, ValueIdx.eq_ix2 p⟩
  simp only [ValueIdx.addf_apply, ValueIdx.maximumf_apply, dot_apply]
  unfold Cert.Gin.mlpRows Cert.Gin.newRow Cert.Gin.preact Cert.Gin.hidden
  rfl

/-- The perceptron without the clamp (layer 2). -/
theorem mlp_noclamp (a x : FVec Ideal S50000x128 .f32) (w1 : FVec Ideal S128x128 .f32)
    (b1 : FVec Ideal S128 .f32) (w2 : FVec Ideal S128x128 .f32) (b2 : FVec Ideal S128 .f32) :
    (addf (addf (Host.dotGeneral dot_S50000x128_S128x128_S50000x128_1_0_0_1_n_n none
        (maximumf (addf (Host.dotGeneral dot_S50000x128_S128x128_S50000x128_1_0_0_1_n_n none (addf a x) w1)
            (broadcastInDim S50000x128 ![0, 1] bcast_S1x128_S50000x128_0_1 (broadcastInDim S1x128 ![1] bcast_S128_S1x128_1 b1)))
          (broadcastInDim S50000x128 ![] bcast_S_S50000x128 (constant (F := Ideal) S_ .f32 0x00000000#32))) w2)
        (broadcastInDim S50000x128 ![0, 1] bcast_S1x128_S50000x128_0_1 (broadcastInDim S1x128 ![1] bcast_S128_S1x128_1 b2))) x : FVec Ideal S50000x128 .f32)
      = Cert.Gin.mlpRows (N := 50000) false a x w1 b1 w2 b2 := by
  rw [bias_fun b1, bias_fun b2, zeros_fun]
  funext p
  obtain ⟨i, j, rfl⟩ : ∃ (i : Fin 50000) (j : Fin 128), p = ValueIdx.ix2 i j :=
    ⟨⟨(p 0).val, (p 0).isLt⟩, ⟨(p 1).val, (p 1).isLt⟩, ValueIdx.eq_ix2 p⟩
  simp only [ValueIdx.addf_apply, ValueIdx.maximumf_apply, dot_apply]
  unfold Cert.Gin.mlpRows Cert.Gin.newRow Cert.Gin.preact Cert.Gin.hidden
  rfl

end Cert.Gin.Ref

end
-- ==== Proof.RefStage0.lean ====
/-
  Layer 0 of the reference: after its operations the layer's result buffer holds the specification's layer of the
  node table it started from, and the buffers the later layers read are unchanged.
-/
import proofs.«126713_j16776142258451_1_alg».proof.Proof.RefOps
import proofs.«126713_j16776142258451_1_alg».proof.Proof.RefMlp
import proofs.«126713_j16776142258451_1_alg».proof.Proof.Spec
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

/-- The layer's result. -/
theorem afterL0_out (W : Valuation τ sig (Elt Ideal)) :
    after (opsL0 (F := Ideal)) W (Proc.devRef .tc main_v42)
      = Cert.Gin.layer true (W (Proc.devRef .tc main_v6)) (W (Proc.devRef .tc main_v8)) (W (Proc.devRef .tc main_v10))
          (W (Proc.devRef .tc main_arg2))
          (Cert.Gin.wOf0 (F := Ideal) (W (Proc.devRef .tc main_arg4))) (Cert.Gin.bOf0 (F := Ideal) (W (Proc.devRef .tc main_arg5)))
          (Cert.Gin.wOf0 (F := Ideal) (W (Proc.devRef .tc main_arg6))) (Cert.Gin.bOf0 (F := Ideal) (W (Proc.devRef .tc main_arg7))) := by
  after_results_simp
  simp only [StableHlo.TRef.toBuf, StableHlo.TRef.ofBuf, cast_eq, id]
  exact mlp_clamp _ _ _ _ _ _

theorem keep_opsL0_main_arg0 {F : FTy → Type} [FloatOps F] (W : Valuation τ sig (Elt F)) :
    after (opsL0 (F := F)) W (Proc.devRef .tc main_arg0) = W (Proc.devRef .tc main_arg0) := by
  after_results_simp
theorem keep_opsL0_main_arg1 {F : FTy → Type} [FloatOps F] (W : Valuation τ sig (Elt F)) :
    after (opsL0 (F := F)) W (Proc.devRef .tc main_arg1) = W (Proc.devRef .tc main_arg1) := by
  after_results_simp
theorem keep_opsL0_main_arg2 {F : FTy → Type} [FloatOps F] (W : Valuation τ sig (Elt F)) :
    after (opsL0 (F := F)) W (Proc.devRef .tc main_arg2) = W (Proc.devRef .tc main_arg2) := by
  after_results_simp
theorem keep_opsL0_main_arg3 {F : FTy → Type} [FloatOps F] (W : Valuation τ sig (Elt F)) :
    after (opsL0 (F := F)) W (Proc.devRef .tc main_arg3) = W (Proc.devRef .tc main_arg3) := by
  after_results_simp
theorem keep_opsL0_main_arg4 {F : FTy → Type} [FloatOps F] (W : Valuation τ sig (Elt F)) :
    after (opsL0 (F := F)) W (Proc.devRef .tc main_arg4) = W (Proc.devRef .tc main_arg4) := by
  after_results_simp
theorem keep_opsL0_main_arg5 {F : FTy → Type} [FloatOps F] (W : Valuation τ sig (Elt F)) :
    after (opsL0 (F := F)) W (Proc.devRef .tc main_arg5) = W (Proc.devRef .tc main_arg5) := by
  after_results_simp
theorem keep_opsL0_main_arg6 {F : FTy → Type} [FloatOps F] (W : Valuation τ sig (Elt F)) :
    after (opsL0 (F := F)) W (Proc.devRef .tc main_arg6) = W (Proc.devRef .tc main_arg6) := by
  after_results_simp
theorem keep_opsL0_main_arg7 {F : FTy → Type} [FloatOps F] (W : Valuation τ sig (Elt F)) :
    after (opsL0 (F := F)) W (Proc.devRef .tc main_arg7) = W (Proc.devRef .tc main_arg7) := by
  after_results_simp
theorem keep_opsL0_main_v8 {F : FTy → Type} [FloatOps F] (W : Valuation τ sig (Elt F)) :
    after (opsL0 (F := F)) W (Proc.devRef .tc main_v8) = W (Proc.devRef .tc main_v8) := by
  after_results_simp
theorem keep_opsL0_main_v10 {F : FTy → Type} [FloatOps F] (W : Valuation τ sig (Elt F)) :
    after (opsL0 (F := F)) W (Proc.devRef .tc main_v10) = W (Proc.devRef .tc main_v10) := by
  after_results_simp

end Cert.Gin.Ref

end
-- ==== Proof.RefStage1.lean ====
/-
  Layer 1 of the reference: after its operations the layer's result buffer holds the specification's layer of the
  node table it started from, and the buffers the later layers read are unchanged.
-/
import proofs.«126713_j16776142258451_1_alg».proof.Proof.RefOps
import proofs.«126713_j16776142258451_1_alg».proof.Proof.RefMlp
import proofs.«126713_j16776142258451_1_alg».proof.Proof.Spec
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

/-- The layer's result. -/
theorem afterL1_out (W : Valuation τ sig (Elt Ideal)) :
    after (opsL1 (F := Ideal)) W (Proc.devRef .tc main_v74)
      = Cert.Gin.layer true (W (Proc.devRef .tc main_v42)) (W (Proc.devRef .tc main_v8)) (W (Proc.devRef .tc main_v10))
          (W (Proc.devRef .tc main_arg2))
          (Cert.Gin.wOf1 (F := Ideal) (W (Proc.devRef .tc main_arg4))) (Cert.Gin.bOf1 (F := Ideal) (W (Proc.devRef .tc main_arg5)))
          (Cert.Gin.wOf1 (F := Ideal) (W (Proc.devRef .tc main_arg6))) (Cert.Gin.bOf1 (F := Ideal) (W (Proc.devRef .tc main_arg7))) := by
  after_results_simp
  simp only [StableHlo.TRef.toBuf, StableHlo.TRef.ofBuf, cast_eq, id]
  exact mlp_clamp _ _ _ _ _ _

theorem keep_opsL1_main_arg0 {F : FTy → Type} [FloatOps F] (W : Valuation τ sig (Elt F)) :
    after (opsL1 (F := F)) W (Proc.devRef .tc main_arg0) = W (Proc.devRef .tc main_arg0) := by
  after_results_simp
theorem keep_opsL1_main_arg1 {F : FTy → Type} [FloatOps F] (W : Valuation τ sig (Elt F)) :
    after (opsL1 (F := F)) W (Proc.devRef .tc main_arg1) = W (Proc.devRef .tc main_arg1) := by
  after_results_simp
theorem keep_opsL1_main_arg2 {F : FTy → Type} [FloatOps F] (W : Valuation τ sig (Elt F)) :
    after (opsL1 (F := F)) W (Proc.devRef .tc main_arg2) = W (Proc.devRef .tc main_arg2) := by
  after_results_simp
theorem keep_opsL1_main_arg3 {F : FTy → Type} [FloatOps F] (W : Valuation τ sig (Elt F)) :
    after (opsL1 (F := F)) W (Proc.devRef .tc main_arg3) = W (Proc.devRef .tc main_arg3) := by
  after_results_simp
theorem keep_opsL1_main_arg4 {F : FTy → Type} [FloatOps F] (W : Valuation τ sig (Elt F)) :
    after (opsL1 (F := F)) W (Proc.devRef .tc main_arg4) = W (Proc.devRef .tc main_arg4) := by
  after_results_simp
theorem keep_opsL1_main_arg5 {F : FTy → Type} [FloatOps F] (W : Valuation τ sig (Elt F)) :
    after (opsL1 (F := F)) W (Proc.devRef .tc main_arg5) = W (Proc.devRef .tc main_arg5) := by
  after_results_simp
theorem keep_opsL1_main_arg6 {F : FTy → Type} [FloatOps F] (W : Valuation τ sig (Elt F)) :
    after (opsL1 (F := F)) W (Proc.devRef .tc main_arg6) = W (Proc.devRef .tc main_arg6) := by
  after_results_simp
theorem keep_opsL1_main_arg7 {F : FTy → Type} [FloatOps F] (W : Valuation τ sig (Elt F)) :
    after (opsL1 (F := F)) W (Proc.devRef .tc main_arg7) = W (Proc.devRef .tc main_arg7) := by
  after_results_simp
theorem keep_opsL1_main_v8 {F : FTy → Type} [FloatOps F] (W : Valuation τ sig (Elt F)) :
    after (opsL1 (F := F)) W (Proc.devRef .tc main_v8) = W (Proc.devRef .tc main_v8) := by
  after_results_simp
theorem keep_opsL1_main_v10 {F : FTy → Type} [FloatOps F] (W : Valuation τ sig (Elt F)) :
    after (opsL1 (F := F)) W (Proc.devRef .tc main_v10) = W (Proc.devRef .tc main_v10) := by
  after_results_simp

end Cert.Gin.Ref

end
-- ==== Proof.RefStage2.lean ====
/-
  Layer 2 of the reference: after its operations the layer's result buffer holds the specification's layer of the
  node table it started from, and the buffers the later layers read are unchanged.
-/
import proofs.«126713_j16776142258451_1_alg».proof.Proof.RefOps
import proofs.«126713_j16776142258451_1_alg».proof.Proof.RefMlp
import proofs.«126713_j16776142258451_1_alg».proof.Proof.Spec
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

/-- The layer's result. -/
theorem afterL2_out (W : Valuation τ sig (Elt Ideal)) :
    after (opsL2 (F := Ideal)) W (Proc.devRef .tc main_v105)
      = Cert.Gin.layer false (W (Proc.devRef .tc main_v74)) (W (Proc.devRef .tc main_v8)) (W (Proc.devRef .tc main_v10))
          (W (Proc.devRef .tc main_arg2))
          (Cert.Gin.wOf2 (F := Ideal) (W (Proc.devRef .tc main_arg4))) (Cert.Gin.bOf2 (F := Ideal) (W (Proc.devRef .tc main_arg5)))
          (Cert.Gin.wOf2 (F := Ideal) (W (Proc.devRef .tc main_arg6))) (Cert.Gin.bOf2 (F := Ideal) (W (Proc.devRef .tc main_arg7))) := by
  after_results_simp
  simp only [StableHlo.TRef.toBuf, StableHlo.TRef.ofBuf, cast_eq, id]
  exact mlp_noclamp _ _ _ _ _ _

theorem keep_opsL2_main_arg0 {F : FTy → Type} [FloatOps F] (W : Valuation τ sig (Elt F)) :
    after (opsL2 (F := F)) W (Proc.devRef .tc main_arg0) = W (Proc.devRef .tc main_arg0) := by
  after_results_simp
theorem keep_opsL2_main_arg1 {F : FTy → Type} [FloatOps F] (W : Valuation τ sig (Elt F)) :
    after (opsL2 (F := F)) W (Proc.devRef .tc main_arg1) = W (Proc.devRef .tc main_arg1) := by
  after_results_simp
theorem keep_opsL2_main_arg2 {F : FTy → Type} [FloatOps F] (W : Valuation τ sig (Elt F)) :
    after (opsL2 (F := F)) W (Proc.devRef .tc main_arg2) = W (Proc.devRef .tc main_arg2) := by
  after_results_simp
theorem keep_opsL2_main_arg3 {F : FTy → Type} [FloatOps F] (W : Valuation τ sig (Elt F)) :
    after (opsL2 (F := F)) W (Proc.devRef .tc main_arg3) = W (Proc.devRef .tc main_arg3) := by
  after_results_simp
theorem keep_opsL2_main_arg4 {F : FTy → Type} [FloatOps F] (W : Valuation τ sig (Elt F)) :
    after (opsL2 (F := F)) W (Proc.devRef .tc main_arg4) = W (Proc.devRef .tc main_arg4) := by
  after_results_simp
theorem keep_opsL2_main_arg5 {F : FTy → Type} [FloatOps F] (W : Valuation τ sig (Elt F)) :
    after (opsL2 (F := F)) W (Proc.devRef .tc main_arg5) = W (Proc.devRef .tc main_arg5) := by
  after_results_simp
theorem keep_opsL2_main_arg6 {F : FTy → Type} [FloatOps F] (W : Valuation τ sig (Elt F)) :
    after (opsL2 (F := F)) W (Proc.devRef .tc main_arg6) = W (Proc.devRef .tc main_arg6) := by
  after_results_simp
theorem keep_opsL2_main_arg7 {F : FTy → Type} [FloatOps F] (W : Valuation τ sig (Elt F)) :
    after (opsL2 (F := F)) W (Proc.devRef .tc main_arg7) = W (Proc.devRef .tc main_arg7) := by
  after_results_simp

end Cert.Gin.Ref

end
-- ==== Proof.RefJoin.lean ====
/-
  The four stages joined: from any contents of the buffers, after the whole reference program the output buffer holds
  the specification's network of the eight arguments, and each argument is unchanged.
-/
import proofs.«126713_j16776142258451_1_alg».proof.Proof.RefOps
import proofs.«126713_j16776142258451_1_alg».proof.Proof.RefStageP
import proofs.«126713_j16776142258451_1_alg».proof.Proof.RefStage0
import proofs.«126713_j16776142258451_1_alg».proof.Proof.RefStage1
import proofs.«126713_j16776142258451_1_alg».proof.Proof.RefStage2
import proofs.«126713_j16776142258451_1_alg».proof.Proof.Spec
import Idealize.ShloMosaic.Lib.StableHlo.Run

noncomputable section

namespace Cert.Gin.Ref

open Cert.ReferenceIdeal Cert.ReferenceIdeal.Gen Idealize.ShloMosaic Idealize.ShloMosaic.TcCoe Idealize.SL.Sem Idealize.ShloMosaic.StableHlo

/-- The output after the whole program. -/
theorem after_ops_out (V : Valuation τ sig (Elt Ideal)) :
    after (ops (F := Ideal)) V (Proc.devRef .tc main_v105)
      = Cert.Gin.net (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [after_ops, afterL2_out]
  rw [afterL1_out, keep_opsL1_main_v8, keep_opsL1_main_v10, keep_opsL1_main_arg2, keep_opsL1_main_arg4,
    keep_opsL1_main_arg5, keep_opsL1_main_arg6, keep_opsL1_main_arg7]
  rw [afterL0_out, keep_opsL0_main_v8, keep_opsL0_main_v10, keep_opsL0_main_arg2, keep_opsL0_main_arg4,
    keep_opsL0_main_arg5, keep_opsL0_main_arg6, keep_opsL0_main_arg7]
  rw [afterP_v6, afterP_v8, afterP_v10, keep_opsP_main_arg2, keep_opsP_main_arg4,
    keep_opsP_main_arg5, keep_opsP_main_arg6, keep_opsP_main_arg7]
  rfl

theorem keep_ops_main_arg0 {F : FTy → Type} [FloatOps F] (V : Valuation τ sig (Elt F)) :
    after (ops (F := F)) V (Proc.devRef .tc main_arg0) = V (Proc.devRef .tc main_arg0) := by
  rw [after_ops, keep_opsL2_main_arg0, keep_opsL1_main_arg0, keep_opsL0_main_arg0, keep_opsP_main_arg0]
theorem keep_ops_main_arg1 {F : FTy → Type} [FloatOps F] (V : Valuation τ sig (Elt F)) :
    after (ops (F := F)) V (Proc.devRef .tc main_arg1) = V (Proc.devRef .tc main_arg1) := by
  rw [after_ops, keep_opsL2_main_arg1, keep_opsL1_main_arg1, keep_opsL0_main_arg1, keep_opsP_main_arg1]
theorem keep_ops_main_arg2 {F : FTy → Type} [FloatOps F] (V : Valuation τ sig (Elt F)) :
    after (ops (F := F)) V (Proc.devRef .tc main_arg2) = V (Proc.devRef .tc main_arg2) := by
  rw [after_ops, keep_opsL2_main_arg2, keep_opsL1_main_arg2, keep_opsL0_main_arg2, keep_opsP_main_arg2]
theorem keep_ops_main_arg3 {F : FTy → Type} [FloatOps F] (V : Valuation τ sig (Elt F)) :
    after (ops (F := F)) V (Proc.devRef .tc main_arg3) = V (Proc.devRef .tc main_arg3) := by
  rw [after_ops, keep_opsL2_main_arg3, keep_opsL1_main_arg3, keep_opsL0_main_arg3, keep_opsP_main_arg3]
theorem keep_ops_main_arg4 {F : FTy → Type} [FloatOps F] (V : Valuation τ sig (Elt F)) :
    after (ops (F := F)) V (Proc.devRef .tc main_arg4) = V (Proc.devRef .tc main_arg4) := by
  rw [after_ops, keep_opsL2_main_arg4, keep_opsL1_main_arg4, keep_opsL0_main_arg4, keep_opsP_main_arg4]
theorem keep_ops_main_arg5 {F : FTy → Type} [FloatOps F] (V : Valuation τ sig (Elt F)) :
    after (ops (F := F)) V (Proc.devRef .tc main_arg5) = V (Proc.devRef .tc main_arg5) := by
  rw [after_ops, keep_opsL2_main_arg5, keep_opsL1_main_arg5, keep_opsL0_main_arg5, keep_opsP_main_arg5]
theorem keep_ops_main_arg6 {F : FTy → Type} [FloatOps F] (V : Valuation τ sig (Elt F)) :
    after (ops (F := F)) V (Proc.devRef .tc main_arg6) = V (Proc.devRef .tc main_arg6) := by
  rw [after_ops, keep_opsL2_main_arg6, keep_opsL1_main_arg6, keep_opsL0_main_arg6, keep_opsP_main_arg6]
theorem keep_ops_main_arg7 {F : FTy → Type} [FloatOps F] (V : Valuation τ sig (Elt F)) :
    after (ops (F := F)) V (Proc.devRef .tc main_arg7) = V (Proc.devRef .tc main_arg7) := by
  rw [after_ops, keep_opsL2_main_arg7, keep_opsL1_main_arg7, keep_opsL0_main_arg7, keep_opsP_main_arg7]

end Cert.Gin.Ref

end
-- ==== Proof.RefRun.lean ====
/-
  The reference's run: a straight line of host operations on a signature that scopes nothing, so
  every weakly fair execution terminates with each buffer at the fold of the operations' results
  over its launch contents; that fold at the result buffer is the specification's network of the
  eight arguments, and at an argument it is the argument's launch contents.
-/
import proofs.«126713_j16776142258451_1_alg».proof.Proof.Gen.ReferenceIdeal
import proofs.«126713_j16776142258451_1_alg».proof.Proof.Spec
import Idealize.ShloMosaic.Lib.StableHlo.Run
import proofs.«126713_j16776142258451_1_alg».proof.Proof.RefOps
import proofs.«126713_j16776142258451_1_alg».proof.Proof.RefJoin

noncomputable section

namespace Cert.Gin.Ref

open Idealize.ShloMosaic Idealize.ShloMosaic.TcCoe Idealize.SL.Sem

theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v105)
          = Cert.Gin.net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono (fun r h c =>
      ⟨(h c Cert.ReferenceIdeal.main_v105).trans (after_ops_out (StableHlo.launchContents m c)),
       (h c Cert.ReferenceIdeal.main_arg0).trans (keep_ops_main_arg0 (StableHlo.launchContents m c)),
       (h c Cert.ReferenceIdeal.main_arg1).trans (keep_ops_main_arg1 (StableHlo.launchContents m c)),
       (h c Cert.ReferenceIdeal.main_arg2).trans (keep_ops_main_arg2 (StableHlo.launchContents m c)),
       (h c Cert.ReferenceIdeal.main_arg3).trans (keep_ops_main_arg3 (StableHlo.launchContents m c)),
       (h c Cert.ReferenceIdeal.main_arg4).trans (keep_ops_main_arg4 (StableHlo.launchContents m c)),
       (h c Cert.ReferenceIdeal.main_arg5).trans (keep_ops_main_arg5 (StableHlo.launchContents m c)),
       (h c Cert.ReferenceIdeal.main_arg6).trans (keep_ops_main_arg6 (StableHlo.launchContents m c)),
       (h c Cert.ReferenceIdeal.main_arg7).trans (keep_ops_main_arg7 (StableHlo.launchContents m c))⟩)
    (StableHlo.run_seq scopedRefs_eq scopedSems_eq (Cert.ReferenceIdeal.defs (F := Ideal)) (Cert.ReferenceIdeal.main (F := Ideal))
      (fun _ => ops) main_eq (fun _ => ops_sub) m ρ (fun _ => ops_fresh))

end Cert.Gin.Ref

end
-- ==== Proof.lean ====
/-
  A three-layer graph network (embedding lookup; per layer a row gather along the edges, the edge
  message max (x[src] + e, 0), a scatter-add per destination node, and a two-layer perceptron with a
  residual) computed two ways: by a program that tiles the edge-wise message and the node-wise
  perceptron over Pallas regions, with the gather and the scatter-add on the host, and by a plain
  whole-array reference.  At the extended reals both end with the same function of the eight argument
  arrays (Proof/Spec.lean, Cert.Gin.net): the tiled message is the same pointwise maximum; a tile of
  the perceptron is the perceptron of that tile's rows, since a row of the result depends on the same
  row of its inputs only, and the matrix unit's contraction into a zero accumulator is the plain finite
  sum the host contraction is; changes of float format are the identity.  No algebraic law beyond
  that is used, so finiteness of the inputs is never needed.

  The three frames: the two kernel programs' are the generated frames; the reference's is its run
  with the result dropped.  The idealization rewrote no operation, so it is preserved trivially.
-/
import proofs.«126713_j16776142258451_1_alg».proof.Defs
import proofs.«126713_j16776142258451_1_alg».proof.Proof.Gen.Kernel
import proofs.«126713_j16776142258451_1_alg».proof.Proof.Gen.Kernel.Frame
import proofs.«126713_j16776142258451_1_alg».proof.Proof.Gen.KernelIdeal
import proofs.«126713_j16776142258451_1_alg».proof.Proof.Gen.KernelIdeal.Frame
import proofs.«126713_j16776142258451_1_alg».proof.Proof.Gen.ReferenceIdeal
import proofs.«126713_j16776142258451_1_alg».proof.Proof.Gen.Pre_finite_inputs
import proofs.«126713_j16776142258451_1_alg».proof.Proof.KRun
import proofs.«126713_j16776142258451_1_alg».proof.Proof.KWalk
import proofs.«126713_j16776142258451_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, the result forgotten. -/
theorem frame_ri : Cert.frame_ReferenceIdeal := fun m ρ _ =>
  (θ_run Cert.ReferenceIdeal.defs _ _).mono (fun _ h c => (h c).2) (Cert.Gin.Ref.run m ρ)

theorem preserves : Cert.preserves_Kernel_KernelIdeal := trivial

/-- Both runs end with the network function of the (agreeing) argument arrays. -/
theorem algebraic : Cert.algebraic_KernelIdeal_ReferenceIdeal := by
  intro m ρ m' ρ' _ hagree
  refine ⟨fun c => Cert.Gin.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Gin.KWalk.result m ρ c), (h c).2⟩) (Cert.KernelIdeal.Named.run (F := Ideal) m ρ)
  · refine (θ_run Cert.ReferenceIdeal.defs _ _).mono (fun r h c => ⟨(h c).1.trans ?_, (h c).2⟩) (Cert.Gin.Ref.run m' ρ')
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
